-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x100x25 : Shape := ⟨3, ![4096, 100, 25]⟩
abbrev S_ : Shape := ⟨0, ![]⟩

class Facts : Prop where
  bcast_S_S4096x100x25 : S_.BroadcastsInDim S4096x100x25 (![] : Fin 0 → Fin S4096x100x25.rank)
  reducesTo_S4096x100x25_S_d0_1_2 : S4096x100x25.ReducesTo [0, 1, 2] S_
  h_S_ : 0 < S_.numel
  reducesTo_S_S_d : S_.ReducesTo [] S_

variable [Facts]

def fn {F : FTy → Type} [FloatOps F] (main_arg0 : FVec F S4096x100x25 .f32) (main_arg1 : FVec F S4096x100x25 .f32) (main_arg2 : FVec F S_ .f32) : IVec S_ 1 :=
  let main_v0 : FVec F S4096x100x25 .f32 := Host.absf main_arg0
  let main_cst : FVec F S_ .f32 := constant S_ .f32 0x7F800000#32
  let main_v1 : FVec F S4096x100x25 .f32 := broadcastInDim S4096x100x25 ![] bcast_S_S4096x100x25 main_cst
  let main_v2 : IVec S4096x100x25 1 := cmpf .olt main_v0 main_v1
  let main_c : IVec S_ 1 := constantI S_ 1 1#1
  let main_v3 : IVec S_ 1 := (fun x v => Host.reduce IntOp.andi x v reducesTo_S4096x100x25_S_d0_1_2 h_S_) main_v2 main_c
  let main_v4 : FVec F S4096x100x25 .f32 := Host.absf main_arg1
  let main_cst_0 : FVec F S_ .f32 := constant S_ .f32 0x7F800000#32
  let main_v5 : FVec F S4096x100x25 .f32 := broadcastInDim S4096x100x25 ![] bcast_S_S4096x100x25 main_cst_0
  let main_v6 : IVec S4096x100x25 1 := cmpf .olt main_v4 main_v5
  let main_c_1 : IVec S_ 1 := constantI S_ 1 1#1
  let main_v7 : IVec S_ 1 := (fun x v => Host.reduce IntOp.andi x v reducesTo_S4096x100x25_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S4096x100x25 : Shape := ⟨3, ![4096, 100, 25]⟩
abbrev S_ : Shape := ⟨0, ![]⟩
abbrev S4096x2500 : Shape := ⟨2, ![4096, 2500]⟩
abbrev S1x1 : Shape := ⟨2, ![1, 1]⟩
abbrev S256x2500 : Shape := ⟨2, ![256, 2500]⟩
abbrev S2500x256 : Shape := ⟨2, ![2500, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1 : Shape := ⟨1, ![1]⟩

abbrev nBuf : Space → Nat
  | .hbm => 28
  | .vmem => 11
  | .smem => 0
  | _ => 0

abbrev bufTy : (tb : Table) → Fin (tcTables nBuf tb) → BufTy
  | .hbm, ⟨0, _⟩ => ⟨S4096x100x25, .f32⟩
  | .hbm, ⟨1, _⟩ => ⟨S4096x100x25, .f32⟩
  | .hbm, ⟨2, _⟩ => ⟨S_, .f32⟩
  | .hbm, ⟨3, _⟩ => ⟨S4096x2500, .f32⟩
  | .hbm, ⟨4, _⟩ => ⟨S4096x2500, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S256x2500, .f32⟩
  | .local _ .vmem, ⟨1, _⟩ => ⟨S256x2500, .f32⟩
  | .local _ .vmem, ⟨2, _⟩ => ⟨S256x2500, .f32⟩
  | .local _ .vmem, ⟨3, _⟩ => ⟨S256x2500, .f32⟩
  | .local _ .vmem, ⟨4, _⟩ => ⟨S256x2500, .f32⟩
  | .local _ .vmem, ⟨5, _⟩ => ⟨S256x2500, .f32⟩
  | .local _ .vmem, ⟨6, _⟩ => ⟨S256x2500, .f32⟩
  | .local _ .vmem, ⟨7, _⟩ => ⟨S256x2500, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S4096x100x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  shapeCasts_S4096x100x25_S4096x2500 : S4096x100x25.ShapeCasts S4096x2500
  inb_S1x1_S1x1_0_0 : ∀ a, (![0, 0] : Fin 2 → Nat) a + S1x1.size a ≤ S1x1.size a
  h_S1x1 : 0 < S1x1.numel
  inb_S256x2500_S256x2500_0_0 : ∀ a, (![0, 0] : Fin 2 → Nat) a + S256x2500.size a ≤ S256x2500.size a
  h_S256x2500 : 0 < S256x2500.numel
  shapeCasts_S256x2500_S256x2500 : S256x2500.ShapeCasts S256x2500
  bitsLt_bf16_f32 : FTy.bits .bf16 < FTy.bits .f32
  transposes_S256x2500_p1_0_S2500x256 : S256x2500.Transposes [1, 0] S2500x256
  reduces_S256x2500_S256 : S256x2500.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  reduces_S256x256_S256 : S256x256.Reduces [1] S256
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  dot_S256x2500_S2500x256_S256x256_1_0_0_1_n_n_wf : DotDims.WF S256x2500 S2500x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2500.size a ≤ S4096x2500.size a
  hwx0_0 : ∀ i : grid0.Coords, EltTy.bits .f32 = 32 ∨ (Rect.block (s := S4096x2500) S256x2500.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2500.size a ≤ S4096x2500.size a
  hwx0_1 : ∀ i : grid0.Coords, EltTy.bits .f32 = 32 ∨ (Rect.block (s := S4096x2500) S256x2500.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2500.size a ≤ S4096x2500.size a
  hwx0_2 : ∀ i : grid0.Coords, EltTy.bits .f32 = 32 ∨ (Rect.block (s := S4096x2500) S256x2500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2500.size a ≤ S4096x2500.size a
  hwx0_3 : ∀ i : grid0.Coords, EltTy.bits .f32 = 32 ∨ (Rect.block (s := S4096x2500) S256x2500.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S256x2500_S2500x256_S256x256_1_0_0_1_n_n : DotDims S256x2500 S2500x256 S256x256 where
  lhsContracting := [1]
  rhsContracting := [0]
  lhsNonContracting := [0]
  rhsNonContracting := [1]
  lhsBatch := []
  rhsBatch := []
  wf := dot_S256x2500_S2500x256_S256x256_1_0_0_1_n_n_wf

abbrev win0_0 : Pipeline.Window sig grid0 :=
  Pipeline.Window.ofSpec (Memref.whole main_v0) S256x2500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2500.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x100x25 : Shape := ⟨3, ![4096, 100, 25]⟩
abbrev S_ : Shape := ⟨0, ![]⟩
abbrev S4096x2500 : Shape := ⟨2, ![4096, 2500]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2500x4096 : Shape := ⟨2, ![2500, 4096]⟩

abbrev nBuf : Space → Nat
  | .hbm => 103
  | .vmem => 0
  | .smem => 0
  | _ => 0

abbrev bufTy : (tb : Table) → Fin (tcTables nBuf tb) → BufTy
  | .hbm, ⟨0, _⟩ => ⟨S4096x100x25, .f32⟩
  | .hbm, ⟨1, _⟩ => ⟨S4096x100x25, .f32⟩
  | .hbm, ⟨2, _⟩ => ⟨S_, .f32⟩
  | .hbm, ⟨3, _⟩ => ⟨S4096x2500, .f32⟩
  | .hbm, ⟨4, _⟩ => ⟨S4096x2500, .f32⟩
  | .hbm, ⟨5, _⟩ => ⟨S4096x2500, .f32⟩
  | .hbm, ⟨6, _⟩ => ⟨S_, .f32⟩
  | .hbm, ⟨7, _⟩ => ⟨S4096, .f32⟩
  | .hbm, ⟨8, _⟩ => ⟨S4096x2500, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S2500x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x2500, .f32⟩
  | .hbm, ⟨35, _⟩ => ⟨S_, .f32⟩
  | .hbm, ⟨36, _⟩ => ⟨S4096, .f32⟩
  | .hbm, ⟨37, _⟩ => ⟨S4096x2500, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S2500x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096x2500, .f32⟩
  | .hbm, ⟨64, _⟩ => ⟨S_, .f32⟩
  | .hbm, ⟨65, _⟩ => ⟨S4096, .f32⟩
  | .hbm, ⟨66, _⟩ => ⟨S4096x2500, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S1x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S2500x4096, .f32⟩
  | .hbm, ⟨75, _⟩ => ⟨S4096x4096, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S4096x4096, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S4096x100x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_cst_13 : Ref sig .tc := ⟨.hbm, 64, rfl⟩
abbrev main_v47 : Ref sig .tc := ⟨.hbm, 65, rfl⟩
abbrev main_v48 : Ref sig .tc := ⟨.hbm, 66, rfl⟩
abbrev main_cst_14 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_17 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_18 : Ref sig .tc := ⟨.hbm, 88, rfl⟩
abbrev main_v66 : Ref sig .tc := ⟨.hbm, 89, rfl⟩
abbrev main_cst_19 : Ref sig .tc := ⟨.hbm, 90, rfl⟩
abbrev main_v67 : Ref sig .tc := ⟨.hbm, 91, rfl⟩
abbrev main_cst_20 : Ref sig .tc := ⟨.hbm, 92, rfl⟩
abbrev main_v68 : Ref sig .tc := ⟨.hbm, 93, rfl⟩
abbrev main_cst_21 : Ref sig .tc := ⟨.hbm, 94, rfl⟩
abbrev main_v69 : Ref sig .tc := ⟨.hbm, 95, rfl⟩
abbrev main_cst_22 : Ref sig .tc := ⟨.hbm, 96, rfl⟩
abbrev main_v70 : Ref sig .tc := ⟨.hbm, 97, rfl⟩
abbrev main_v71 : Ref sig .tc := ⟨.hbm, 98, rfl⟩
abbrev main_cst_23 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  shapeCasts_S4096x100x25_S4096x2500 : S4096x100x25.ShapeCasts S4096x2500
  reducesTo_S4096x2500_S4096_d1 : S4096x2500.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2500_S2500x4096_1_0 : S4096x2500.Transposes [1, 0] S2500x4096
  bcast_S_S4096x4096 : S_.BroadcastsInDim S4096x4096 (![] : Fin 0 → Fin S4096x4096.rank)
  reducesTo_S4096x4096_S_d0_1 : S4096x4096.ReducesTo [0, 1] S_
  dot_S4096x2500_S2500x4096_S4096x4096_1_0_0_1_n_n_wf : DotDims.WF S4096x2500 S2500x4096 S4096x4096 [1] [0] [0] [1] [] []

variable [Facts₀]

def dot_S4096x2500_S2500x4096_S4096x4096_1_0_0_1_n_n : DotDims S4096x2500 S2500x4096 S4096x4096 where
  lhsContracting := [1]
  rhsContracting := [0]
  lhsNonContracting := [0]
  rhsNonContracting := [1]
  lhsBatch := []
  rhsBatch := []
  wf := dot_S4096x2500_S2500x4096_S4096x4096_1_0_0_1_n_n_wf

class Facts : Prop extends Facts₀ where

variable [Facts]
-- ==== Proof.KFrameBase.lean ====
/-
  What the frame of the kernel program is stated over.

  @main reshapes its two [4096, 100, 25] arguments to [4096, 2500] matrices, runs ONE kernel region on a 16 × 16
  grid, and finishes with twenty scalar host operations. The region has seven windows: windows 0 and 1 both look at
  the first matrix (row block `i` and row block `j` of grid point `(i, j)`), windows 2 and 3 both at the second, and
  windows 4, 5, 6 are three [1, 1] accumulators whose block never moves and is written back once, after the last
  point. The body zeroes the accumulators at the first point only — its one branch, on `i = 0 ∧ j = 0` — and at
  every point adds the point's three sums to them.
  Here: the buffers' contents when the region is entered (`V`: the two reshapes applied to the launch memory), each
  window's block at a grid point read off those contents (`iblk`), the branch condition in closed form over the grid,
  and the staging memrefs a point's body is called with.
-/
import proofs.«108402_j76991583748198_1_alg».proof.Proof.Gen.Kernel.Launch
import proofs.«108402_j76991583748198_1_alg».proof.Proof.Gen.Kernel.Skeleton
import proofs.«108402_j76991583748198_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Mmd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => (s₀ m ρ).mem ((c : Dev nD), b)
/-- and when the region is entered: the two reshapes have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The body's branch -/

/-- The condition of the body's one branch, from the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid's 256 points. -/
theorem hcond0 : ∀ t : Fin cfg0.N, cond0 (grid0.coords t) ↔ t.val % 256 = 0 :=
  (by decide +kernel : ∀ t : Fin grid0.N, cond0 (grid0.coords t) ↔ t.val % 256 = 0)

/-- The grid point `t = 16 · i + j` has coordinates `(i, j)`. -/
theorem coords0 : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-! ## The staging memrefs at a point -/

/-- One staging buffer of each accumulator window, through which its contents are stated. -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view
abbrev VO6 : View sig .tc .vmem S1x1 .f32 := (Memref.whole cc0_stg6_0 : Memref sig .tc .vmem S1x1 .f32).view

/-- Each window's current staging memref at point `t`, spelled as the pipeline passes it, and its wholeness. -/
abbrev ms0 (t : Fin cfg0.N) : Memref sig .tc .vmem S256x2500 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2500 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2500 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2500 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)

/-! ## A point's three sums and the accumulation step, over the blocks the body loads -/

/-- The sum over the 256 × 256 pairs of rows of two blocks of the first matrix, as the body computes it. -/
def sXX (x0 x1 : Vec F S256x2500 .f32) : FVec F S1x1 .f32 := k0_pay21 (k0_pay13 x0 x1) (k0_pay19 x0) (k0_pay20 x1)
/-- The same for two blocks of the second matrix. -/
def sYY (x2 x3 : Vec F S256x2500 .f32) : FVec F S1x1 .f32 := k0_pay22 (k0_pay14 x2 x3) (k0_pay17 x2) (k0_pay18 x3)
/-- The same for a block of the first against a block of the second. -/
def sXY (x0 x3 : Vec F S256x2500 .f32) : FVec F S1x1 .f32 := k0_pay23 (k0_pay15 x0 x3) (k0_pay16 x0) (k0_pay18 x3)

end Cert.Kernel.Mmd

end
-- ==== Proof.KFrameRunA.lean ====
/-
  The kernel's body run once, at symbolic staging memrefs, at a grid point where its branch is taken (the first point: the accumulators are zeroed, then added to).

  Holding the four input blocks' staging buffers at their contents and the three accumulators' buffers at anything, every
  execution of the body reaches its return with the inputs' buffers as they were and each accumulator's buffer
  overwritten by the pieces its stores wrote; the pieces are found by running the body, not transcribed.
-/
import proofs.«108402_j76991583748198_1_alg».proof.Proof.KFrameBase

set_option maxRecDepth 16384

noncomputable section

namespace Cert.Kernel.Mmd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulators' staging memrefs (last store first), with the proof
    that the body runs to its continuation leaving them. -/
noncomputable def kernelRunA (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) :
    Σ' (L4 : List (View.Piece (Elt F) S1x1 .f32)) (L5 : List (View.Piece (Elt F) S1x1 .f32)) (L6 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__mmd_kernel i arg2 harg2 arg3 harg3 arg4 harg4 arg5 harg5 arg6 harg6 arg7 harg7 arg8 harg8) K := by
  refine ⟨?_, ?_, ?_, fun E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.Kernel.Mmd

end
-- ==== Proof.KFrameRunB.lean ====
/-
  The kernel's body run once, at symbolic staging memrefs, at a grid point where its branch is not taken (every later point: the accumulators are added to).

  Holding the four input blocks' staging buffers at their contents and the three accumulators' buffers at their running contents, every
  execution of the body reaches its return with the inputs' buffers as they were and each accumulator's buffer
  overwritten by the pieces its stores wrote; the pieces are found by running the body, not transcribed.
-/
import proofs.«108402_j76991583748198_1_alg».proof.Proof.KFrameRunA

set_option maxRecDepth 16384

noncomputable section

namespace Cert.Kernel.Mmd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulators' staging memrefs (last store first), with the proof
    that the body runs to its continuation leaving them. -/
noncomputable def kernelRunB (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) :
    Σ' (L4 : List (View.Piece (Elt F) S1x1 .f32)) (L5 : List (View.Piece (Elt F) S1x1 .f32)) (L6 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__mmd_kernel i arg2 harg2 arg3 harg3 arg4 harg4 arg5 harg5 arg6 harg6 arg7 harg7 arg8 harg8) K := by
  refine ⟨?_, ?_, ?_, fun E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.Kernel.Mmd

end
-- ==== Proof.KFrameData.lean ====
/-
  The proof data of the kernel region: what each window's staging buffer holds after the body at each grid point.

  An input window's buffer holds its block of the matrix, fetched at this point or left from the point before. The
  three accumulators are defined by recursion on the point: at the first point what the zeroing-then-adding body
  leaves, at every later point what the adding body leaves over the three values of the point before. From these,
  the body's obligation at a generic point: the branch is taken exactly at point 0, so the first-point run applies
  there and the later-point run everywhere else, each accumulator found holding the previous point's value because
  its buffer is written back only after the last point.
-/
import proofs.«108402_j76991583748198_1_alg».proof.Proof.KFrameRunB

set_option maxRecDepth 16384

noncomputable section

namespace Cert.Kernel.Mmd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the pieces stored into accumulator 0's buffer cover its one entry. -/
theorem coverA4 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) (y : S1x1.Idx) :
    ∃ pc ∈ (kernelRunA c i arg2 harg2 arg3 harg3 arg4 harg4 arg5 harg5 arg6 harg6 arg7 harg7 arg8 harg8 hc0 x0 x1 x2 x3).1, y ∈ pc.1.set :=
  View.cover_of_tiledL (kernelRunA c i arg2 harg2 arg3 harg3 arg4 harg4 arg5 harg5 arg6 harg6 arg7 harg7 arg8 harg8 hc0 x0 x1 x2 x3).1 S1x1.size (by sl_kernel_rfl) y

/-- What the first point leaves in accumulator 0's buffer: its pieces read back. -/
def outA4 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) : Vec F S1x1 .f32 :=
  VO4.read (Elt F) (VO4.writes (Elt F) VO4.junk (kernelRunA c i arg2 harg2 arg3 harg3 arg4 harg4 arg5 harg5 arg6 harg6 arg7 harg7 arg8 harg8 hc0 x0 x1 x2 x3).1)

/-- At a later point the pieces stored into accumulator 0's buffer cover its one entry. -/
theorem coverB4 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) (y : S1x1.Idx) :
    ∃ pc ∈ (kernelRunB c i arg2 harg2 arg3 harg3 arg4 harg4 arg5 harg5 arg6 harg6 arg7 harg7 arg8 harg8 hc0 x0 x1 x2 x3 xo4 xo5 xo6).1, y ∈ pc.1.set :=
  View.cover_of_tiledL (kernelRunB c i arg2 harg2 arg3 harg3 arg4 harg4 arg5 harg5 arg6 harg6 arg7 harg7 arg8 harg8 hc0 x0 x1 x2 x3 xo4 xo5 xo6).1 S1x1.size (by sl_kernel_rfl) y

/-- What a later point leaves in accumulator 0's buffer, over what the point before left in the three. -/
def outB4 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) : Vec F S1x1 .f32 :=
  VO4.read (Elt F) (VO4.writes (Elt F) VO4.junk (kernelRunB c i arg2 harg2 arg3 harg3 arg4 harg4 arg5 harg5 arg6 harg6 arg7 harg7 arg8 harg8 hc0 x0 x1 x2 x3 xo4 xo5 xo6).1)

/-- At the first point the pieces stored into accumulator 1's buffer cover its one entry. -/
theorem coverA5 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) (y : S1x1.Idx) :
    ∃ pc ∈ (kernelRunA c i arg2 harg2 arg3 harg3 arg4 harg4 arg5 harg5 arg6 harg6 arg7 harg7 arg8 harg8 hc0 x0 x1 x2 x3).2.1, y ∈ pc.1.set :=
  View.cover_of_tiledL (kernelRunA c i arg2 harg2 arg3 harg3 arg4 harg4 arg5 harg5 arg6 harg6 arg7 harg7 arg8 harg8 hc0 x0 x1 x2 x3).2.1 S1x1.size (by sl_kernel_rfl) y

/-- What the first point leaves in accumulator 1's buffer: its pieces read back. -/
def outA5 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) : Vec F S1x1 .f32 :=
  VO5.read (Elt F) (VO5.writes (Elt F) VO5.junk (kernelRunA c i arg2 harg2 arg3 harg3 arg4 harg4 arg5 harg5 arg6 harg6 arg7 harg7 arg8 harg8 hc0 x0 x1 x2 x3).2.1)

/-- At a later point the pieces stored into accumulator 1's buffer cover its one entry. -/
theorem coverB5 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) (y : S1x1.Idx) :
    ∃ pc ∈ (kernelRunB c i arg2 harg2 arg3 harg3 arg4 harg4 arg5 harg5 arg6 harg6 arg7 harg7 arg8 harg8 hc0 x0 x1 x2 x3 xo4 xo5 xo6).2.1, y ∈ pc.1.set :=
  View.cover_of_tiledL (kernelRunB c i arg2 harg2 arg3 harg3 arg4 harg4 arg5 harg5 arg6 harg6 arg7 harg7 arg8 harg8 hc0 x0 x1 x2 x3 xo4 xo5 xo6).2.1 S1x1.size (by sl_kernel_rfl) y

/-- What a later point leaves in accumulator 1's buffer, over what the point before left in the three. -/
def outB5 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) : Vec F S1x1 .f32 :=
  VO5.read (Elt F) (VO5.writes (Elt F) VO5.junk (kernelRunB c i arg2 harg2 arg3 harg3 arg4 harg4 arg5 harg5 arg6 harg6 arg7 harg7 arg8 harg8 hc0 x0 x1 x2 x3 xo4 xo5 xo6).2.1)

/-- At the first point the pieces stored into accumulator 2's buffer cover its one entry. -/
theorem coverA6 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) (y : S1x1.Idx) :
    ∃ pc ∈ (kernelRunA c i arg2 harg2 arg3 harg3 arg4 harg4 arg5 harg5 arg6 harg6 arg7 harg7 arg8 harg8 hc0 x0 x1 x2 x3).2.2.1, y ∈ pc.1.set :=
  View.cover_of_tiledL (kernelRunA c i arg2 harg2 arg3 harg3 arg4 harg4 arg5 harg5 arg6 harg6 arg7 harg7 arg8 harg8 hc0 x0 x1 x2 x3).2.2.1 S1x1.size (by sl_kernel_rfl) y

/-- What the first point leaves in accumulator 2's buffer: its pieces read back. -/
def outA6 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) : Vec F S1x1 .f32 :=
  VO6.read (Elt F) (VO6.writes (Elt F) VO6.junk (kernelRunA c i arg2 harg2 arg3 harg3 arg4 harg4 arg5 harg5 arg6 harg6 arg7 harg7 arg8 harg8 hc0 x0 x1 x2 x3).2.2.1)

/-- At a later point the pieces stored into accumulator 2's buffer cover its one entry. -/
theorem coverB6 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) (y : S1x1.Idx) :
    ∃ pc ∈ (kernelRunB c i arg2 harg2 arg3 harg3 arg4 harg4 arg5 harg5 arg6 harg6 arg7 harg7 arg8 harg8 hc0 x0 x1 x2 x3 xo4 xo5 xo6).2.2.1, y ∈ pc.1.set :=
  View.cover_of_tiledL (kernelRunB c i arg2 harg2 arg3 harg3 arg4 harg4 arg5 harg5 arg6 harg6 arg7 harg7 arg8 harg8 hc0 x0 x1 x2 x3 xo4 xo5 xo6).2.2.1 S1x1.size (by sl_kernel_rfl) y

/-- What a later point leaves in accumulator 2's buffer, over what the point before left in the three. -/
def outB6 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) : Vec F S1x1 .f32 :=
  VO6.read (Elt F) (VO6.writes (Elt F) VO6.junk (kernelRunB c i arg2 harg2 arg3 harg3 arg4 harg4 arg5 harg5 arg6 harg6 arg7 harg7 arg8 harg8 hc0 x0 x1 x2 x3 xo4 xo5 xo6).2.2.1)

/-! ## What the accumulators hold after each point -/

/-- Past the first point the branch is not taken. -/
theorem notcond0 (t : Fin cfg0.N) (h : t.val ≠ 0) : ¬cond0 (grid0.coords t) := fun hc => by
  have h1 := (hcond0 t).mp hc
  have h2 : t.val < 256 := lt_of_lt_of_eq t.isLt (show cfg0.N = 256 from N_0)
  omega

/-- THE ACCUMULATION: the three accumulators' buffers after the body at point `n`. -/
def outsAt (c : Dev nD) : (n : ℕ) → n < cfg0.N → Vec F S1x1 .f32 × Vec F S1x1 .f32 × Vec F S1x1 .f32
  | 0, hn =>
    (outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0 ⟨0, hn⟩).mpr (Nat.zero_mod _)) (iblk m ρ c 0 ⟨0, hn⟩) (iblk m ρ c 1 ⟨0, hn⟩) (iblk m ρ c 2 ⟨0, hn⟩) (iblk m ρ c 3 ⟨0, hn⟩),
     outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0 ⟨0, hn⟩).mpr (Nat.zero_mod _)) (iblk m ρ c 0 ⟨0, hn⟩) (iblk m ρ c 1 ⟨0, hn⟩) (iblk m ρ c 2 ⟨0, hn⟩) (iblk m ρ c 3 ⟨0, hn⟩),
     outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0 ⟨0, hn⟩).mpr (Nat.zero_mod _)) (iblk m ρ c 0 ⟨0, hn⟩) (iblk m ρ c 1 ⟨0, hn⟩) (iblk m ρ c 2 ⟨0, hn⟩) (iblk m ρ c 3 ⟨0, hn⟩))
  | n + 1, hn =>
    (outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (notcond0 ⟨n + 1, hn⟩ (Nat.succ_ne_zero n)) (iblk m ρ c 0 ⟨n + 1, hn⟩) (iblk m ρ c 1 ⟨n + 1, hn⟩) (iblk m ρ c 2 ⟨n + 1, hn⟩) (iblk m ρ c 3 ⟨n + 1, hn⟩)
        (outsAt c n (Nat.lt_of_succ_lt hn)).1 (outsAt c n (Nat.lt_of_succ_lt hn)).2.1 (outsAt c n (Nat.lt_of_succ_lt hn)).2.2,
     outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (notcond0 ⟨n + 1, hn⟩ (Nat.succ_ne_zero n)) (iblk m ρ c 0 ⟨n + 1, hn⟩) (iblk m ρ c 1 ⟨n + 1, hn⟩) (iblk m ρ c 2 ⟨n + 1, hn⟩) (iblk m ρ c 3 ⟨n + 1, hn⟩)
        (outsAt c n (Nat.lt_of_succ_lt hn)).1 (outsAt c n (Nat.lt_of_succ_lt hn)).2.1 (outsAt c n (Nat.lt_of_succ_lt hn)).2.2,
     outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (notcond0 ⟨n + 1, hn⟩ (Nat.succ_ne_zero n)) (iblk m ρ c 0 ⟨n + 1, hn⟩) (iblk m ρ c 1 ⟨n + 1, hn⟩) (iblk m ρ c 2 ⟨n + 1, hn⟩) (iblk m ρ c 3 ⟨n + 1, hn⟩)
        (outsAt c n (Nat.lt_of_succ_lt hn)).1 (outsAt c n (Nat.lt_of_succ_lt hn)).2.1 (outsAt c n (Nat.lt_of_succ_lt hn)).2.2)

/-- `outsAt` at the first point. -/
theorem outsAt_zero (c : Dev nD) (t : Fin cfg0.N) (h0 : t.val = 0) :
    outsAt m ρ c t.val t.isLt =
      (outA4 c (grid0.coords t) (ms0 t) (hs0 t) (ms1 t) (hs1 t) (ms2 t) (hs2 t) (ms3 t) (hs3 t) (ms4 t) (hs4 t) (ms5 t) (hs5 t) (ms6 t) (hs6 t) ((hcond0 t).mpr (by rw [h0])) (iblk m ρ c 0 t) (iblk m ρ c 1 t) (iblk m ρ c 2 t) (iblk m ρ c 3 t),
       outA5 c (grid0.coords t) (ms0 t) (hs0 t) (ms1 t) (hs1 t) (ms2 t) (hs2 t) (ms3 t) (hs3 t) (ms4 t) (hs4 t) (ms5 t) (hs5 t) (ms6 t) (hs6 t) ((hcond0 t).mpr (by rw [h0])) (iblk m ρ c 0 t) (iblk m ρ c 1 t) (iblk m ρ c 2 t) (iblk m ρ c 3 t),
       outA6 c (grid0.coords t) (ms0 t) (hs0 t) (ms1 t) (hs1 t) (ms2 t) (hs2 t) (ms3 t) (hs3 t) (ms4 t) (hs4 t) (ms5 t) (hs5 t) (ms6 t) (hs6 t) ((hcond0 t).mpr (by rw [h0])) (iblk m ρ c 0 t) (iblk m ρ c 1 t) (iblk m ρ c 2 t) (iblk m ρ c 3 t)) := by
  obtain ⟨n, hn⟩ := t
  cases n with
  | zero => rfl
  | succ n => exact absurd h0 (Nat.succ_ne_zero n)

/-- `outsAt` at a later point: over what the point before left. -/
theorem outsAt_succ (c : Dev nD) (t : Fin cfg0.N) (h0 : t.val ≠ 0) :
    outsAt m ρ c t.val t.isLt =
      (outB4 c (grid0.coords t) (ms0 t) (hs0 t) (ms1 t) (hs1 t) (ms2 t) (hs2 t) (ms3 t) (hs3 t) (ms4 t) (hs4 t) (ms5 t) (hs5 t) (ms6 t) (hs6 t) (notcond0 t h0) (iblk m ρ c 0 t) (iblk m ρ c 1 t) (iblk m ρ c 2 t) (iblk m ρ c 3 t)
          (outsAt m ρ c (t.val - 1) (Nat.lt_of_le_of_lt (Nat.sub_le _ _) t.isLt)).1 (outsAt m ρ c (t.val - 1) (Nat.lt_of_le_of_lt (Nat.sub_le _ _) t.isLt)).2.1 (outsAt m ρ c (t.val - 1) (Nat.lt_of_le_of_lt (Nat.sub_le _ _) t.isLt)).2.2,
       outB5 c (grid0.coords t) (ms0 t) (hs0 t) (ms1 t) (hs1 t) (ms2 t) (hs2 t) (ms3 t) (hs3 t) (ms4 t) (hs4 t) (ms5 t) (hs5 t) (ms6 t) (hs6 t) (notcond0 t h0) (iblk m ρ c 0 t) (iblk m ρ c 1 t) (iblk m ρ c 2 t) (iblk m ρ c 3 t)
          (outsAt m ρ c (t.val - 1) (Nat.lt_of_le_of_lt (Nat.sub_le _ _) t.isLt)).1 (outsAt m ρ c (t.val - 1) (Nat.lt_of_le_of_lt (Nat.sub_le _ _) t.isLt)).2.1 (outsAt m ρ c (t.val - 1) (Nat.lt_of_le_of_lt (Nat.sub_le _ _) t.isLt)).2.2,
       outB6 c (grid0.coords t) (ms0 t) (hs0 t) (ms1 t) (hs1 t) (ms2 t) (hs2 t) (ms3 t) (hs3 t) (ms4 t) (hs4 t) (ms5 t) (hs5 t) (ms6 t) (hs6 t) (notcond0 t h0) (iblk m ρ c 0 t) (iblk m ρ c 1 t) (iblk m ρ c 2 t) (iblk m ρ c 3 t)
          (outsAt m ρ c (t.val - 1) (Nat.lt_of_le_of_lt (Nat.sub_le _ _) t.isLt)).1 (outsAt m ρ c (t.val - 1) (Nat.lt_of_le_of_lt (Nat.sub_le _ _) t.isLt)).2.1 (outsAt m ρ c (t.val - 1) (Nat.lt_of_le_of_lt (Nat.sub_le _ _) t.isLt)).2.2) := by
  obtain ⟨n, hn⟩ := t
  cases n with
  | zero => exact absurd rfl h0
  | succ n => rfl

/-! ## The pipeline's proof data -/

/-- The proof data of the one pipeline on core `c`: the arrays as the region finds them; after the body at point `t`
    each input's buffer at its block and the accumulators' at `outsAt`; the invariant the scoped buffers no window
    stages; nothing owed; each matrix's two windows holding a half share of it, the accumulators the full share. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => (outsAt m ρ c t.val t.isLt).1
    | ⟨5, _⟩ => (outsAt m ρ c t.val t.isLt).2.1
    | ⟨6, _⟩ => (outsAt m ρ c t.val t.isLt).2.2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = (outsAt m ρ c t.val t.isLt).1 := by dsimp only [dats]
theorem after5 (c : Dev nD) (t : Fin cfg0.N) : (dats m ρ 0 c).after 5 t = (outsAt m ρ c t.val t.isLt).2.1 := by dsimp only [dats]
theorem after6 (c : Dev nD) (t : Fin cfg0.N) : (dats m ρ 0 c).after 6 t = (outsAt m ρ c t.val t.isLt).2.2 := by dsimp only [dats]

/-- Input window 0's current staging buffer holds its block at every point, fetched there or not. -/
theorem before0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin cfg0.N) (d) : (dats m ρ 0 c).before 2 t d = iblk m ρ c 2 t :=
  ((dats m ρ 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin cfg0.N) (d) : (dats m ρ 0 c).before 3 t d = iblk m ρ c 3 t :=
  ((dats m ρ 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-- Past the first point accumulator 0's buffer holds what the body left at the point before: it is written back
    only after the last point. -/
theorem before4 (c : Dev nD) (t : Fin cfg0.N) (h0 : t.val ≠ 0) (d) :
    (dats m ρ 0 c).before 4 t d = (outsAt m ρ c (t.val - 1) (Nat.lt_of_le_of_lt (Nat.sub_le _ _) t.isLt)).1 := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]
/-- Past the first point accumulator 1's buffer holds what the body left at the point before: it is written back
    only after the last point. -/
theorem before5 (c : Dev nD) (t : Fin cfg0.N) (h0 : t.val ≠ 0) (d) :
    (dats m ρ 0 c).before 5 t d = (outsAt m ρ c (t.val - 1) (Nat.lt_of_le_of_lt (Nat.sub_le _ _) t.isLt)).2.1 := by
  have hN : t.val < 256 := lt_of_lt_of_eq t.isLt (show cfg0.N = 256 from N_0)
  rw [Dat.before_out_kept _ 5 rfl t h0 (Bool.eq_false_iff.mpr fun h => by have := (flush0_5 _).mp h; dsimp only at this; omega)
    (fun _ => rfl) (fun _ _ => rfl)]
  dsimp only [dats]
/-- Past the first point accumulator 2's buffer holds what the body left at the point before: it is written back
    only after the last point. -/
theorem before6 (c : Dev nD) (t : Fin cfg0.N) (h0 : t.val ≠ 0) (d) :
    (dats m ρ 0 c).before 6 t d = (outsAt m ρ c (t.val - 1) (Nat.lt_of_le_of_lt (Nat.sub_le _ _) t.isLt)).2.2 := by
  have hN : t.val < 256 := lt_of_lt_of_eq t.isLt (show cfg0.N = 256 from N_0)
  rw [Dat.before_out_kept _ 6 rfl t h0 (Bool.eq_false_iff.mpr fun h => by have := (flush0_6 _).mp h; dsimp only at this; omega)
    (fun _ => rfl) (fun _ _ => rfl)]
  dsimp only [dats]

end Cert.Kernel.Mmd

end
-- ==== Proof.KFrameBody.lean ====
/-
  The body's obligation at every grid point.

  At point `t` the body is called on the seven windows' current staging buffers. The four inputs hold their blocks;
  at the first point the accumulators' buffers hold anything and the zeroing-then-adding run applies; at a later
  point they hold what the point before left and the adding run applies. Either way the buffers end at what the
  proof data names for point `t`, the region's invariant untouched and nothing owed.
-/
import proofs.«108402_j76991583748198_1_alg».proof.Proof.KFrameData

set_option maxRecDepth 16384

noncomputable section

namespace Cert.Kernel.Mmd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t)
    ∗ owns (c : Thread nD τ) (ms4 t) fullShare ((dats m ρ 0 c).after 4 t)
    ∗ owns (c : Thread nD τ) (ms5 t) fullShare ((dats m ρ 0 c).after 5 t)
    ∗ owns (c : Thread nD τ) (ms6 t) fullShare ((dats m ρ 0 c).after 6 t))

set_option maxHeartbeats 1600000 in
/-- The body at any point. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3]
  rw [show (dats m ρ 0 c).Φ t.succ = (dats m ρ 0 c).Φ t.castSucc from rfl,
    show (dats m ρ 0 c).owesAt () t.succ = (dats m ρ 0 c).owesAt () t.castSucc from rfl,
    after0, after1, after2, after3, after4, after5, after6]
  by_cases h0 : t.val = 0
  · rw [outsAt_zero m ρ c t h0]
    dsimp only
    unfold outA4 outA5 outA6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ ((hcond0 t).mpr (by rw [h0])) (iblk m ρ c 0 t) (iblk m ρ c 1 t) (iblk m ρ c 2 t) (iblk m ρ c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 _ _ _ _ _ _ _ _ _ _ _ _ _ _ _ _ _ _ _ _ _)
    isplitl [H5]
    · unfold owns; iexists _; isplitr
      swap; · iexact H5
      ipureintro; exact View.read_writes_of_cover _ _ _ _ _ (coverA5 _ _ _ _ _ _ _ _ _ _ _ _ _ _ _ _ _ _ _ _ _)
    unfold owns; iexists _; isplitr
    swap; · iexact H6
    ipureintro; exact View.read_writes_of_cover _ _ _ _ _ (coverA6 _ _ _ _ _ _ _ _ _ _ _ _ _ _ _ _ _ _ _ _ _)
  · rw [outsAt_succ m ρ c t h0]
    dsimp only
    simp only [before4 m ρ c t h0, before5 m ρ c t h0, before6 m ρ c t h0]
    unfold outB4 outB5 outB6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (notcond0 t h0) (iblk m ρ c 0 t) (iblk m ρ c 1 t) (iblk m ρ c 2 t) (iblk m ρ c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 _ _ _ _ _ _ _ _ _ _ _ _ _ _ _ _ _ _ _ _ _ _ _ _)
    isplitl [H5]
    · unfold owns; iexists _; isplitr
      swap; · iexact H5
      ipureintro; exact View.read_writes_of_cover _ _ _ _ _ (coverB5 _ _ _ _ _ _ _ _ _ _ _ _ _ _ _ _ _ _ _ _ _ _ _ _)
    unfold owns; iexists _; isplitr
    swap; · iexact H6
    ipureintro; exact View.read_writes_of_cover _ _ _ _ _ (coverB6 _ _ _ _ _ _ _ _ _ _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Mmd

end
-- ==== Proof.KFrameLaunch.lean ====
/-
  The launch of the kernel program: @main as two reshapes, the kernel region, and twenty scalar operations.

  The two [4096, 2500] matrices are each looked at by two windows of the region, so each matrix's buffer is held by
  its two windows at a half share apiece: at the region's entry the full share splits into its left and right
  halves, at its exit the halves rejoin. The three accumulator arrays are held outright; when the region ends they
  hold what the write-back after the last grid point left, and `V1` is the region-entry valuation with exactly
  those three buffers replaced. The run: at the compiled mesh, for any float values, from any memory with zero
  counters, every weakly fair execution of @main terminates without a fault, and every unscoped buffer ends at the
  twenty operations' value of `V1`.
-/
import proofs.«108402_j76991583748198_1_alg».proof.Proof.KFrameBody

set_option maxRecDepth 16384

noncomputable section

namespace Cert.Kernel.Mmd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The region-entry contents as a valuation of device buffers. -/
abbrev Vd (c : Dev nD) : Valuation τ sig (Elt F) := StableHlo.after hostOps0 (V₀ m ρ c)

abbrev r4 : DevRef τ sig := Proc.devRef .tc main_v2_0
abbrev r5 : DevRef τ sig := Proc.devRef .tc main_v2_1
abbrev r6 : DevRef τ sig := Proc.devRef .tc main_v2_2

def fin4 (c : Dev nD) : Buf (Elt F) ((cfg0.win 4).arr.view.loc (c : Thread nD τ)) := (dats m ρ 0 c).arrAt 4 cfg0.N
def fin5 (c : Dev nD) : Buf (Elt F) ((cfg0.win 5).arr.view.loc (c : Thread nD τ)) := (dats m ρ 0 c).arrAt 5 cfg0.N
def fin6 (c : Dev nD) : Buf (Elt F) ((cfg0.win 6).arr.view.loc (c : Thread nD τ)) := (dats m ρ 0 c).arrAt 6 cfg0.N

def V1 (c : Dev nD) : Valuation τ sig (Elt F) :=
  Function.update (Function.update (Function.update (Vd m ρ c) r4 (fin4 m ρ c)) r5 (fin5 m ρ c)) r6 (fin6 m ρ c)

theorem r45 : (r4 : DevRef τ sig) ≠ r5 := fun h => absurd (Proc.devRef_injective _ h) (by decide)
theorem r46 : (r4 : DevRef τ sig) ≠ r6 := fun h => absurd (Proc.devRef_injective _ h) (by decide)
theorem r56 : (r5 : DevRef τ sig) ≠ r6 := fun h => absurd (Proc.devRef_injective _ h) (by decide)

theorem V1_r6 (c : Dev nD) : V1 m ρ c r6 = fin6 m ρ c := by
  unfold V1; rw [Function.update_self]
theorem V1_r5 (c : Dev nD) : V1 m ρ c r5 = fin5 m ρ c := by
  unfold V1; rw [Function.update_of_ne r56, Function.update_self]
theorem V1_r4 (c : Dev nD) : V1 m ρ c r4 = fin4 m ρ c := by
  unfold V1; rw [Function.update_of_ne r46, Function.update_of_ne r45, Function.update_self]
theorem V1_other (c : Dev nD) (b : DevRef τ sig) (h4 : b ≠ r4) (h5 : b ≠ r5) (h6 : b ≠ r6) : V1 m ρ c b = Vd m ρ c b := by
  unfold V1; rw [Function.update_of_ne h6, Function.update_of_ne h5, Function.update_of_ne h4]

/-- The five buffers behind the seven windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2_0) ↦{fullShare} W main_v2_0) ∗ (((c : Thread nD τ).loc main_v2_1) ↦{fullShare} W main_v2_1)
          ∗ (((c : Thread nD τ).loc main_v2_2) ↦{fullShare} W main_v2_2)) :=
  bigSep_eq_bigSepL_of_eq [main_v0, main_v1, main_v2_0, main_v2_1, main_v2_2] (by decide) (by decide) _

/-- The pipeline's arrays are whole buffers, each held at its window's share. -/
theorem arrays_eq' (c : Dev nD) (Fn : (w : Fin cfg0.W) → Buf (Elt F) ((cfg0.win w).arr.view.loc (c : Thread nD τ))) :
    (dats m ρ 0 c).arrays Fn
      = bigSep Finset.univ fun w => (((c : Thread nD τ).loc (Pipeline.arrRef spec0 w)) ↦{(dats m ρ 0 c).share w} Fn w : sProp 𝕄) := by
  unfold Dat.arrays
  exact bigSep_congr fun w _ => by rw [(arr_whole0 w).set_eq_univ]

/-- The seven windows' arrays one by one: each matrix twice, at the two halves; each accumulator once, whole. -/
theorem arrays_chain (c : Dev nD) (Fn : (w : Fin cfg0.W) → Buf (Elt F) ((cfg0.win w).arr.view.loc (c : Thread nD τ))) :
    (dats m ρ 0 c).arrays Fn
      = iprop((((c : Thread nD τ).loc main_v0) ↦{fullShare.left} Fn 0) ∗ (((c : Thread nD τ).loc main_v0) ↦{fullShare.right} Fn 1) ∗ (((c : Thread nD τ).loc main_v1) ↦{fullShare.left} Fn 2) ∗ (((c : Thread nD τ).loc main_v1) ↦{fullShare.right} Fn 3)
          ∗ (((c : Thread nD τ).loc main_v2_0) ↦{fullShare} Fn 4) ∗ (((c : Thread nD τ).loc main_v2_1) ↦{fullShare} Fn 5) ∗ (((c : Thread nD τ).loc main_v2_2) ↦{fullShare} Fn 6)) := by
  rw [arrays_eq', bigSep_W0]; rfl

/-- ENTRY: the five buffers behind the seven windows' arrays, each whole at the full share at contents `W`, are the
    pipeline's arrays at contents `Fn` read off `W`: each matrix's full share dealt as its two windows' halves. -/
theorem arrays_in' (c : Dev nD) (W : (b : Ref sig .tc) → Buf (Elt F) ((c : Thread nD τ).loc b))
    (Fn : (w : Fin cfg0.W) → Buf (Elt F) ((cfg0.win w).arr.view.loc (c : Thread nD τ)))
    (h0 : Fn 0 = W main_v0) (h1 : Fn 1 = W main_v0) (h2 : Fn 2 = W main_v1) (h3 : Fn 3 = W main_v1)
    (h4 : Fn 4 = W main_v2_0) (h5 : Fn 5 = W main_v2_1) (h6 : Fn 6 = W main_v2_2) :
    (Pipeline.arrBufs (Ix := Unit) (Name := ℕ) (U := UR sig nD τ) (Lvl := ℕ) spec0 c W : sProp 𝕄) ⊢ (dats m ρ 0 c).arrays Fn := by
  rw [arrBufs0_eq, arrays_chain, h0, h1, h2, h3, h4, h5, h6]
  iintro ⟨H0, H1, H4, H5, H6⟩
  icases H0 with ⟨H0l, H0r⟩
  icases H1 with ⟨H1l, H1r⟩
  isplitl [H0l]; · iexact H0l
  isplitl [H0r]; · iexact H0r
  isplitl [H1l]; · iexact H1l
  isplitl [H1r]; · iexact H1r
  isplitl [H4]; · iexact H4
  isplitl [H5]; · iexact H5
  iexact H6

/-- EXIT: the pipeline's arrays at contents `Fn` agreeing with `W` are the five buffers behind them at `W`: each
    matrix's two halves rejoined. -/
theorem arrays_out' (c : Dev nD) (W : (b : Ref sig .tc) → Buf (Elt F) ((c : Thread nD τ).loc b))
    (Fn : (w : Fin cfg0.W) → Buf (Elt F) ((cfg0.win w).arr.view.loc (c : Thread nD τ)))
    (h0 : Fn 0 = W main_v0) (h1 : Fn 1 = W main_v0) (h2 : Fn 2 = W main_v1) (h3 : Fn 3 = W main_v1)
    (h4 : Fn 4 = W main_v2_0) (h5 : Fn 5 = W main_v2_1) (h6 : Fn 6 = W main_v2_2) :
    (dats m ρ 0 c).arrays Fn ⊢ (Pipeline.arrBufs (Ix := Unit) (Name := ℕ) (U := UR sig nD τ) (Lvl := ℕ) spec0 c W : sProp 𝕄) := by
  rw [arrBufs0_eq, arrays_chain, h0, h1, h2, h3, h4, h5, h6]
  iintro ⟨H0l, H0r, H1l, H1r, H4, H5, H6⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H4]; · iexact H4
  isplitl [H5]; · iexact H5
  iexact H6

theorem arrays_in (c : Dev nD) :
    (Pipeline.arrBufs (Ix := Unit) (Name := ℕ) (U := UR sig nD τ) (Lvl := ℕ) spec0 c (V m ρ c) : sProp 𝕄)
      ⊢ (dats m ρ 0 c).arrays ((dats m ρ 0 c).arrAt · 0) :=
  arrays_in' m ρ c (V m ρ c) _ (A_eq m ρ c 0) (A_eq m ρ c 1) (A_eq m ρ c 2) (A_eq m ρ c 3) (A_eq m ρ c 4) (A_eq m ρ c 5) (A_eq m ρ c 6)

theorem arrays_out (c : Dev nD) :
    (dats m ρ 0 c).arrays ((dats m ρ 0 c).arrAt · cfg0.N)
      ⊢ (Pipeline.arrBufs (Ix := Unit) (Name := ℕ) (U := UR sig nD τ) (Lvl := ℕ) spec0 c (fun b => V1 m ρ c b) : sProp 𝕄) :=
  arrays_out' m ρ c (fun b => V1 m ρ c b) _
    ((((dats m ρ 0 c).arrAt_in 0 rfl _).trans (A_eq m ρ c 0)).trans (V1_other m ρ c (Proc.devRef .tc main_v0) (fun h => absurd (Proc.devRef_injective _ h) (by decide)) (fun h => absurd (Proc.devRef_injective _ h) (by decide)) (fun h => absurd (Proc.devRef_injective _ h) (by decide))).symm)
    ((((dats m ρ 0 c).arrAt_in 1 rfl _).trans (A_eq m ρ c 1)).trans (V1_other m ρ c (Proc.devRef .tc main_v0) (fun h => absurd (Proc.devRef_injective _ h) (by decide)) (fun h => absurd (Proc.devRef_injective _ h) (by decide)) (fun h => absurd (Proc.devRef_injective _ h) (by decide))).symm)
    ((((dats m ρ 0 c).arrAt_in 2 rfl _).trans (A_eq m ρ c 2)).trans (V1_other m ρ c (Proc.devRef .tc main_v1) (fun h => absurd (Proc.devRef_injective _ h) (by decide)) (fun h => absurd (Proc.devRef_injective _ h) (by decide)) (fun h => absurd (Proc.devRef_injective _ h) (by decide))).symm)
    ((((dats m ρ 0 c).arrAt_in 3 rfl _).trans (A_eq m ρ c 3)).trans (V1_other m ρ c (Proc.devRef .tc main_v1) (fun h => absurd (Proc.devRef_injective _ h) (by decide)) (fun h => absurd (Proc.devRef_injective _ h) (by decide)) (fun h => absurd (Proc.devRef_injective _ h) (by decide))).symm)
    (V1_r4 m ρ c).symm (V1_r5 m ρ c).symm (V1_r6 m ρ c).symm

/-- The buffers no window looks at are at `V1` what they were when the region was entered. -/
theorem rest_V1 (c : Dev nD) :
    (Pipeline.unscopedRest (Ix := Unit) (Name := ℕ) (U := UR sig nD τ) (Lvl := ℕ) spec0 c (fun b => V1 m ρ c b) : sProp 𝕄)
      = Pipeline.unscopedRest spec0 c (V m ρ c) := by
  unfold Pipeline.unscopedRest
  refine bigSep_congr fun b hb => ?_
  have hb' := (Finset.mem_sdiff.mp hb).2
  have hne : ∀ w, Pipeline.arrRef spec0 w ≠ b := fun w h => hb' (Finset.mem_image.mpr ⟨w, Finset.mem_univ _, h⟩)
  beta_reduce
  rw [V1_other m ρ c (Proc.devRef .tc b) (fun h => hne 4 (Proc.devRef_injective _ h).symm) (fun h => hne 5 (Proc.devRef_injective _ h).symm)
    (fun h => hne 6 (Proc.devRef_injective _ h).symm)]

/-! ## @main as three segments: two reshapes, the region, twenty scalar operations -/

abbrev 𝒱₀ : Variants := Variants.none
/-- No core owes another anything: no level is assigned. -/
abbrev Lz : GSem nD τ sig → Finset Unit := fun _ => ∅
abbrev lvz : GSem nD τ sig → Unit → ℕ := fun _ _ => 0
/-- The prefetched tables' admissible contents: no table. -/
abbrev adm : (p : Fin 1) → (pcfgs (F := F) p).Adm := fun p => (cfgs p).toPCfg_adm
/-- The pipeline library's algebra is the whole user algebra. -/
abbrev EP : Emb (UR sig nD τ) (MT nD τ sig Unit (Elt F) ℕ (UR sig nD τ) ℕ) := emb₁
/-- What rides beside the buffers through the host operations: the core's `owes`. -/
abbrev Rw (c : Dev nD) : sProp 𝕄 := iprop(∃ W, owes (c : Thread nD τ) (0 : CellTallies nD τ sig Unit) W)

/-- The two reshapes, over the unscoped buffers. -/
def seg0 : Pipeline.HostSeg (Name := ℕ) (U := UR sig nD τ) (pcfgs (F := F)) defs₀ 𝒱₀ Lz lvz :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) Rw

/-- The twenty scalar operations after the region, over the unscoped buffers as the region leaves them. -/
def seg1 : Pipeline.HostSeg (Name := ℕ) (U := UR sig nD τ) (pcfgs (F := F)) defs₀ 𝒱₀ Lz lvz :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V1 m ρ) Rw

set_option backward.isDefEq.respectTransparency.types false in
/-- THE REGION: entered from what the reshapes left — the seven windows' arrays into the pipeline, every other
    unscoped buffer bypassing —, left with the accumulator arrays at their final contents. -/
def reg0 : Pipeline.RegionSeg (pcfgs (F := F)) adm (dats m ρ) () defs₀ 𝒱₀ Lz lvz 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ Lz lvz 0 fun _ _ => rfl
  pre c := iprop(StableHlo.held (c : Thread nD τ) (Pipeline.ucRefs τ sig) (Vd m ρ c) ∗ Rw c)
  post c := iprop(StableHlo.held (c : Thread nD τ) (Pipeline.ucRefs τ sig) (V1 m ρ c) ∗ Rw c)
  X _ := iprop(emp)
  Y _ := iprop(emp)
  Z c := Pipeline.unscopedRest spec0 c (V m ρ c)
  hentry c := by
    rw [show StableHlo.held (c : Thread nD τ) (Pipeline.ucRefs τ sig) (Vd m ρ c) = unscopedBufs c (V m ρ c) from (Pipeline.unscopedBufs_held c _).symm,
      Pipeline.unscopedBufs_split₀ cfgs 0 winFacts₀0.arr_unscoped c (V m ρ c)]
    iintro ⟨⟨⟨Harr, Hrest⟩, HO⟩, -, -⟩
    ihave Ha := (arrays_in m ρ c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [Pipeline.ownSems0_none, show (dats m ρ 0 c).Φ (Fin.last cfg0.N) = Pipeline.scopedRest spec0 c from rfl]
    iintro Hr
    isplitr; · iempintro
    isplitr; · iempintro
    iexact Hr
  hexit c := by
    iintro ⟨Ha, HO, -, HZ⟩
    imodintro
    isplitr [HO]
    · rw [show StableHlo.held (c : Thread nD τ) (Pipeline.ucRefs τ sig) (V1 m ρ c) = unscopedBufs c (fun b => V1 m ρ c b) from (Pipeline.unscopedBufs_held c _).symm,
        Pipeline.unscopedBufs_split₀ cfgs 0 winFacts₀0.arr_unscoped c (fun b => V1 m ρ c b), rest_V1]
      isplitl [Ha]
      · iapply (arrays_out m ρ c); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ Lz lvz) := [.host (seg0 m ρ), .region (reg0 m ρ), .host (seg1 m ρ)]

/-- The launch element: the pipeline library's at the staging cells. -/
def u₀ : UR sig nD τ := initOf (Pipeline.cells cfgs cellOf_inj) (Pipeline.launchToks cfgs cellOf_inj)

/-- The buffers when @main returns: the twenty scalar operations applied to what the region left. -/
abbrev Vend (c : Dev nD) : Valuation τ sig (Elt F) := StableHlo.after hostOps1 (V1 m ρ c)

/-- What holds of every final state: every unscoped buffer is at `Vend`. -/
def QK : PUnit × MemSt nD τ sig (Elt F) → Prop := fun r =>
  ∀ c : Dev nD, ∀ b ∈ Pipeline.ucRefs τ sig, r.2.mem ((c : Thread nD τ).1, b) = Vend m ρ c b

set_option backward.isDefEq.respectTransparency.types false in
/-- At the compiled mesh, for any float values, from any memory with zero counters: every weakly fair execution of
    @main on the TensorCores terminates, nothing faulting, and every final state has every unscoped buffer at `Vend`. -/
theorem run_main : θ_run defs (onTc (τ := τ) (main (F := F))) (s₀ m ρ) (QK m ρ) :=
  Pipeline.θ_run_regions_kit (pcfgs (F := F)) adm (dats m ρ) () cellOf_inj EP defs₀ 𝒱₀ Lz lvz m ρ main (segs m ρ)
    (fun c Q => by rw [main_segs adm (dats m ρ) () 𝒱₀ Lz lvz (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ Rw c))
    (Tₙ := fun c => StableHlo.held (c : Thread nD τ) (Pipeline.ucRefs τ sig) (Vend m ρ c))
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vend m ρ c b)
    (hfin := fun c s' => by
      iintro ⟨Hh, HSI⟩
      unfold StableHlo.held
      ihave Hr := (pointsTo_read_all (Pipeline.ucRefs τ sig) (fun b => ((c : Thread nD τ).1, b)) (fun b => Vend m ρ c b) s') $$ [Hh HSI]
      · isplitl [Hh] <;> iassumption
      icases Hr with ⟨%ha, HSI⟩
      imodintro
      isplitr; · ipureintro; exact ha
      iexact HSI)
    (hQ := fun _ h => h)

end Cert.Kernel.Mmd

end
-- ==== Proof.Spec.lean ====
/-
  The specification both programs are compared against, over the extended reals.

  For matrices `X : [n, 2500]` and `Y : [m, 2500]` write `|X r|² = Σ_k X r k · X r k` and
  `⟨X r, Y c⟩ = Σ_k X r k · Y c k`. The squared distance of row `r` of `X` and row `c` of `Y`, clamped below at
  zero, is `d² X Y r c = max ((|X r|² + |Y c|²) − 2 · ⟨X r, Y c⟩) 0`, and the Gaussian weight of the pair is `exp` of
  minus half of it. The weight is written in the two spellings the programs use: the product with the literal `−0.5`
  (`weightMul`), and the negation divided by the literal `2` (`weightDiv`); Weights.lean proves them one extended
  real. `pairSum X Y` is the sum of the weights over all `n × m` pairs of rows, `rowsAt X i` the block of 256
  consecutive rows of `X` starting at row `256 · i`, and `result` the statistic both programs return:
  `(sxx / 2²⁴ + syy / 2²⁴ − 2 · (sxy / 2²⁴)) + (max 1 s − 1) · 0.002`, every literal kept as the float word both
  programs print.
-/
import Idealize.ShloMosaic.PureOps.Ideal
import Idealize.ShloMosaic.Lib.ValueIdx

noncomputable section

open scoped BigOperators

namespace Cert.Mmd

open Idealize.ShloMosaic Idealize.ShloMosaic.ValueIdx

/-- An `[n, 2500]` matrix of extended reals, by its index. -/
abbrev Mat (n : Nat) : Type := (⟨2, ![n, 2500]⟩ : Shape).Idx → EReal

/-- The float words the two programs print. -/
abbrev w0 : EReal := Ideal.ofBits .f32 0x00000000#32
abbrev w1 : EReal := Ideal.ofBits .f32 0x3F800000#32
abbrev w2 : EReal := Ideal.ofBits .f32 0x40000000#32
abbrev wMinusHalf : EReal := Ideal.ofBits .f32 0xBF000000#32
abbrev wCount : EReal := Ideal.ofBits .f32 0x4B800000#32
abbrev wStep : EReal := Ideal.ofBits .f32 0x3B03126F#32

/-- The squared norm of row `r`. -/
def sqNorm {n : Nat} (X : Mat n) (r : Fin n) : EReal := ∑ k : Fin 2500, X (ix2 r k) * X (ix2 r k)

/-- The inner product of row `r` of `X` with row `c` of `Y`. -/
def inner {n m : Nat} (X : Mat n) (Y : Mat m) (r : Fin n) (c : Fin m) : EReal := ∑ k : Fin 2500, X (ix2 r k) * Y (ix2 c k)

/-- The clamped squared distance of row `r` of `X` and row `c` of `Y`, by the Gram expansion. -/
def sqDist {n m : Nat} (X : Mat n) (Y : Mat m) (r : Fin n) (c : Fin m) : EReal :=
  max ((sqNorm X r + sqNorm Y c) - w2 * inner X Y r c) w0

/-- The pair's weight, spelt as the product with `−0.5`. -/
def weightMul {n m : Nat} (X : Mat n) (Y : Mat m) (r : Fin n) (c : Fin m) : EReal := Ideal.exp (sqDist X Y r c * wMinusHalf)

/-- The pair's weight, spelt as the negation divided by `2`. -/
def weightDiv {n m : Nat} (X : Mat n) (Y : Mat m) (r : Fin n) (c : Fin m) : EReal := Ideal.exp (Ideal.div (-(sqDist X Y r c)) w2)

/-- The sum of the weights over all pairs of rows. -/
def pairSum {n m : Nat} (X : Mat n) (Y : Mat m) : EReal := ∑ r : Fin n, ∑ c : Fin m, weightMul X Y r c

/-- Rows `256 · i … 256 · i + 255` of a 4096-row matrix, as a 256-row matrix. -/
def rowsAt (X : Mat 4096) (i : Fin 16) : Mat 256 :=
  fun j => X (ix2 (⟨256 * i.val + (j 0).val, by have := (j 0).isLt; have := i.isLt; simp only [Matrix.cons_val_zero] at *; omega⟩ : Fin 4096) (j 1))

/-- The returned statistic from the three pair sums and the step count `s`. -/
def result (sxx syy sxy s : EReal) : EReal :=
  ((Ideal.div sxx wCount + Ideal.div syy wCount) - w2 * Ideal.div sxy wCount) + (max w1 s - w1) * wStep

end Cert.Mmd

end
-- ==== Proof.KHostLines.lean ====
/-
  The host operations of the kernel program's @main around its one region, read over an arbitrary valuation.

  Before the region @main reshapes its two [4096, 100, 25] arguments to [4096, 2500] matrices; after it, twenty scalar
  operations turn the region's three [1, 1] results `sxx`, `syy`, `sxy` and the third argument `s` into
  `((sxx / c + syy / c) − 2 · (sxy / c)) + (max 1 s − 1) · e`, every literal a float word. Neither stretch writes an
  argument, so the three arguments are at the end what they were at launch; the two matrices the region reads are the
  reshapes of the first two arguments; and the returned scalar is the statistic `Cert.Mmd.result` of the three results'
  single entries and the third argument.
-/
import proofs.«108402_j76991583748198_1_alg».proof.Proof.Gen.Kernel.Launch
import proofs.«108402_j76991583748198_1_alg».proof.Proof.Spec
import Idealize.ShloMosaic.Lib.StableHlo.Run
import Idealize.ShloMosaic.Lib.Pipeline.Value
import Idealize.ShloMosaic.Lib.ValueIdx

set_option maxRecDepth 16384

noncomputable section

namespace Cert.Kernel.Mmd

open Cert.Kernel Cert.Kernel.Gen
open Idealize.ShloMosaic Idealize.ShloMosaic.ValueIdx

section Generic

variable {F : FTy → Type} [FloatOps F] (W : Valuation τ sig (Elt F))

/-! ## The two reshapes before the region -/

/-- The two reshapes write no argument. -/
theorem prefix_arg0 : StableHlo.after (hostOps0 (F := F)) W (Proc.devRef .tc main_arg0) = W (Proc.devRef .tc main_arg0) := by
  open StableHlo in after_results
theorem prefix_arg1 : StableHlo.after (hostOps0 (F := F)) W (Proc.devRef .tc main_arg1) = W (Proc.devRef .tc main_arg1) := by
  open StableHlo in after_results
theorem prefix_arg2 : StableHlo.after (hostOps0 (F := F)) W (Proc.devRef .tc main_arg2) = W (Proc.devRef .tc main_arg2) := by
  open StableHlo in after_results

/-- The first matrix the region reads is the first argument, reshaped. -/
theorem prefix_v0 : StableHlo.after (hostOps0 (F := F)) W (Proc.devRef .tc main_v0)
    = shapeCast S4096x2500 (W (Proc.devRef .tc main_arg0)) Facts₀.shapeCasts_S4096x100x25_S4096x2500 := by
  open StableHlo in after_results
  rfl
/-- The second matrix the region reads is the second argument, reshaped. -/
theorem prefix_v1 : StableHlo.after (hostOps0 (F := F)) W (Proc.devRef .tc main_v1)
    = shapeCast S4096x2500 (W (Proc.devRef .tc main_arg1)) Facts₀.shapeCasts_S4096x100x25_S4096x2500 := by
  open StableHlo in after_results
  rfl

/-! ## The twenty scalar operations after the region -/

/-- The scalar operations write no argument. -/
theorem tail_arg0 : StableHlo.after (hostOps1 (F := F)) W (Proc.devRef .tc main_arg0) = W (Proc.devRef .tc main_arg0) := by
  open StableHlo in after_results
theorem tail_arg1 : StableHlo.after (hostOps1 (F := F)) W (Proc.devRef .tc main_arg1) = W (Proc.devRef .tc main_arg1) := by
  open StableHlo in after_results
theorem tail_arg2 : StableHlo.after (hostOps1 (F := F)) W (Proc.devRef .tc main_arg2) = W (Proc.devRef .tc main_arg2) := by
  open StableHlo in after_results

end Generic

/-- A [1, 1] array reshaped to a scalar reads the array's one entry. -/
theorem read11 {α : Type} (x : S1x1.Idx → α) (h : S1x1.ShapeCasts S_) (j : S_.Idx) :
    shapeCast S_ x h j = x (ix2 0 0) :=
  shapeCast_apply x h j (ix2 0 0) (by
    have hj := (S_.rowMajor j).isLt
    have h1 : S_.numel = 1 := by decide
    rw [Shape.rowMajor_val_two]
    show 0 * 1 + 0 = _
    omega)

/-- The returned scalar is the statistic of the region's three results and the third argument. -/
theorem tail_v15 (W : Valuation τ sig (Elt Ideal)) :
    StableHlo.after (hostOps1 (F := Ideal)) W (Proc.devRef .tc main_v15)
      = fun _ => Cert.Mmd.result (W (Proc.devRef .tc main_v2_0) (ix2 0 0)) (W (Proc.devRef .tc main_v2_1) (ix2 0 0))
          (W (Proc.devRef .tc main_v2_2) (ix2 0 0)) (W (Proc.devRef .tc main_arg2) ix0) := by
  open StableHlo in after_results
  funext i
  obtain rfl := eq_ix0 i
  unfold Cert.Mmd.result
  rw [← read11 (W (Proc.devRef .tc main_v2_0)) Facts₀.shapeCasts_S1x1_S_ ix0,
    ← read11 (W (Proc.devRef .tc main_v2_1)) Facts₀.shapeCasts_S1x1_S_ ix0,
    ← read11 (W (Proc.devRef .tc main_v2_2)) Facts₀.shapeCasts_S1x1_S_ ix0]
  rfl

end Cert.Kernel.Mmd

end
-- ==== Proof.KFrameClaims.lean ====
/-
  What the launch gives the certificate's claims: every execution of @main terminates without a fault, the three
  arguments end as they were launched (no host operation writes them and no window of the region writes back into
  them), and the result buffer ends at the twenty scalar operations' value of what the region left.
-/
import proofs.«108402_j76991583748198_1_alg».proof.Proof.KFrameLaunch
import proofs.«108402_j76991583748198_1_alg».proof.Proof.KHostLines

set_option maxRecDepth 16384

noncomputable section

namespace Cert.Kernel.Mmd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_v15 : (Proc.devRef .tc main_v15 : DevRef τ sig) ∈ Pipeline.ucRefs τ sig := by decide
theorem mem_arg0 : (Proc.devRef .tc main_arg0 : DevRef τ sig) ∈ Pipeline.ucRefs τ sig := by decide
theorem mem_arg1 : (Proc.devRef .tc main_arg1 : DevRef τ sig) ∈ Pipeline.ucRefs τ sig := by decide
theorem mem_arg2 : (Proc.devRef .tc main_arg2 : DevRef τ sig) ∈ Pipeline.ucRefs τ sig := by decide

/-- An argument ends as launched: neither host line writes it, and the region replaces only the accumulators. -/
theorem Vend_arg0 (c : Dev nD) : Vend m ρ c (Proc.devRef .tc main_arg0) = m ((c : Thread nD τ).loc main_arg0) :=
  (tail_arg0 (V1 m ρ c)).trans ((V1_other m ρ c _ (fun h => absurd (Proc.devRef_injective _ h) (by decide)) (fun h => absurd (Proc.devRef_injective _ h) (by decide)) (fun h => absurd (Proc.devRef_injective _ h) (by decide))).trans (prefix_arg0 (V₀ m ρ c)))
theorem Vend_arg1 (c : Dev nD) : Vend m ρ c (Proc.devRef .tc main_arg1) = m ((c : Thread nD τ).loc main_arg1) :=
  (tail_arg1 (V1 m ρ c)).trans ((V1_other m ρ c _ (fun h => absurd (Proc.devRef_injective _ h) (by decide)) (fun h => absurd (Proc.devRef_injective _ h) (by decide)) (fun h => absurd (Proc.devRef_injective _ h) (by decide))).trans (prefix_arg1 (V₀ m ρ c)))
theorem Vend_arg2 (c : Dev nD) : Vend m ρ c (Proc.devRef .tc main_arg2) = m ((c : Thread nD τ).loc main_arg2) :=
  (tail_arg2 (V1 m ρ c)).trans ((V1_other m ρ c _ (fun h => absurd (Proc.devRef_injective _ h) (by decide)) (fun h => absurd (Proc.devRef_injective _ h) (by decide)) (fun h => absurd (Proc.devRef_injective _ h) (by decide))).trans (prefix_arg2 (V₀ m ρ c)))

/-- The run with the result named and the arguments kept. -/
theorem run_named : θ_run defs (onTc (τ := τ) (main (F := F))) ⟨m, fun _ => 0, ρ⟩ (fun r => ∀ c : Dev nD,
      r.2.mem ((c.tc : Thread nD τ).loc main_v15) = Vend m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ mem_v15, (h c _ mem_arg0).trans (Vend_arg0 m ρ c), (h c _ mem_arg1).trans (Vend_arg1 m ρ c),
    (h c _ mem_arg2).trans (Vend_arg2 m ρ c)⟩) (run_main m ρ)

/-- THE FRAME: @main runs to its end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Mmd

end
-- ==== Proof.FrameBase.lean ====
/-
  What the frame of the kernel program is stated over.

  @main reshapes its two [4096, 100, 25] arguments to [4096, 2500] matrices, runs ONE kernel region on a 16 × 16
  grid, and finishes with twenty scalar host operations. The region has seven windows: windows 0 and 1 both look at
  the first matrix (row block `i` and row block `j` of grid point `(i, j)`), windows 2 and 3 both at the second, and
  windows 4, 5, 6 are three [1, 1] accumulators whose block never moves and is written back once, after the last
  point. The body zeroes the accumulators at the first point only — its one branch, on `i = 0 ∧ j = 0` — and at
  every point adds the point's three sums to them.
  Here: the buffers' contents when the region is entered (`V`: the two reshapes applied to the launch memory), each
  window's block at a grid point read off those contents (`iblk`), the branch condition in closed form over the grid,
  and the staging memrefs a point's body is called with.
-/
import proofs.«108402_j76991583748198_1_alg».proof.Proof.Gen.KernelIdeal.Launch
import proofs.«108402_j76991583748198_1_alg».proof.Proof.Gen.KernelIdeal.Skeleton
import proofs.«108402_j76991583748198_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => (s₀ m ρ).mem ((c : Dev nD), b)
/-- and when the region is entered: the two reshapes have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The body's branch -/

/-- The condition of the body's one branch, from the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid's 256 points. -/
theorem hcond0 : ∀ t : Fin cfg0.N, cond0 (grid0.coords t) ↔ t.val % 256 = 0 :=
  (by decide +kernel : ∀ t : Fin grid0.N, cond0 (grid0.coords t) ↔ t.val % 256 = 0)

/-- The grid point `t = 16 · i + j` has coordinates `(i, j)`. -/
theorem coords0 : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-! ## The staging memrefs at a point -/

/-- One staging buffer of each accumulator window, through which its contents are stated. -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view
abbrev VO6 : View sig .tc .vmem S1x1 .f32 := (Memref.whole cc0_stg6_0 : Memref sig .tc .vmem S1x1 .f32).view

/-- Each window's current staging memref at point `t`, spelled as the pipeline passes it, and its wholeness. -/
abbrev ms0 (t : Fin cfg0.N) : Memref sig .tc .vmem S256x2500 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2500 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2500 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2500 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)

/-! ## A point's three sums and the accumulation step, over the blocks the body loads -/

/-- The sum over the 256 × 256 pairs of rows of two blocks of the first matrix, as the body computes it. -/
def sXX (x0 x1 : Vec F S256x2500 .f32) : FVec F S1x1 .f32 := k0_pay21 (k0_pay13 x0 x1) (k0_pay19 x0) (k0_pay20 x1)
/-- The same for two blocks of the second matrix. -/
def sYY (x2 x3 : Vec F S256x2500 .f32) : FVec F S1x1 .f32 := k0_pay22 (k0_pay14 x2 x3) (k0_pay17 x2) (k0_pay18 x3)
/-- The same for a block of the first against a block of the second. -/
def sXY (x0 x3 : Vec F S256x2500 .f32) : FVec F S1x1 .f32 := k0_pay23 (k0_pay15 x0 x3) (k0_pay16 x0) (k0_pay18 x3)

end Cert.KernelIdeal.Mmd

end
-- ==== Proof.FrameRunA.lean ====
/-
  The kernel's body run once, at symbolic staging memrefs, at a grid point where its branch is taken (the first point: the accumulators are zeroed, then added to).

  Holding the four input blocks' staging buffers at their contents and the three accumulators' buffers at anything, every
  execution of the body reaches its return with the inputs' buffers as they were and each accumulator's buffer
  overwritten by the pieces its stores wrote; the pieces are found by running the body, not transcribed.
-/
import proofs.«108402_j76991583748198_1_alg».proof.Proof.FrameBase

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulators' staging memrefs (last store first), with the proof
    that the body runs to its continuation leaving them. -/
noncomputable def kernelRunA (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) :
    Σ' (L4 : List (View.Piece (Elt F) S1x1 .f32)) (L5 : List (View.Piece (Elt F) S1x1 .f32)) (L6 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__mmd_kernel i arg2 harg2 arg3 harg3 arg4 harg4 arg5 harg5 arg6 harg6 arg7 harg7 arg8 harg8) K := by
  refine ⟨?_, ?_, ?_, fun E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.KernelIdeal.Mmd

end
-- ==== Proof.FrameRunB.lean ====
/-
  The kernel's body run once, at symbolic staging memrefs, at a grid point where its branch is not taken (every later point: the accumulators are added to).

  Holding the four input blocks' staging buffers at their contents and the three accumulators' buffers at their running contents, every
  execution of the body reaches its return with the inputs' buffers as they were and each accumulator's buffer
  overwritten by the pieces its stores wrote; the pieces are found by running the body, not transcribed.
-/
import proofs.«108402_j76991583748198_1_alg».proof.Proof.FrameRunA

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulators' staging memrefs (last store first), with the proof
    that the body runs to its continuation leaving them. -/
noncomputable def kernelRunB (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) :
    Σ' (L4 : List (View.Piece (Elt F) S1x1 .f32)) (L5 : List (View.Piece (Elt F) S1x1 .f32)) (L6 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__mmd_kernel i arg2 harg2 arg3 harg3 arg4 harg4 arg5 harg5 arg6 harg6 arg7 harg7 arg8 harg8) K := by
  refine ⟨?_, ?_, ?_, fun E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.KernelIdeal.Mmd

end
-- ==== Proof.FrameData.lean ====
/-
  The proof data of the kernel region: what each window's staging buffer holds after the body at each grid point.

  An input window's buffer holds its block of the matrix, fetched at this point or left from the point before. The
  three accumulators are defined by recursion on the point: at the first point what the zeroing-then-adding body
  leaves, at every later point what the adding body leaves over the three values of the point before. From these,
  the body's obligation at a generic point: the branch is taken exactly at point 0, so the first-point run applies
  there and the later-point run everywhere else, each accumulator found holding the previous point's value because
  its buffer is written back only after the last point.
-/
import proofs.«108402_j76991583748198_1_alg».proof.Proof.FrameRunB

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the pieces stored into accumulator 0's buffer cover its one entry. -/
theorem coverA4 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) (y : S1x1.Idx) :
    ∃ pc ∈ (kernelRunA c i arg2 harg2 arg3 harg3 arg4 harg4 arg5 harg5 arg6 harg6 arg7 harg7 arg8 harg8 hc0 x0 x1 x2 x3).1, y ∈ pc.1.set :=
  View.cover_of_tiledL (kernelRunA c i arg2 harg2 arg3 harg3 arg4 harg4 arg5 harg5 arg6 harg6 arg7 harg7 arg8 harg8 hc0 x0 x1 x2 x3).1 S1x1.size (by sl_kernel_rfl) y

/-- What the first point leaves in accumulator 0's buffer: its pieces read back. -/
def outA4 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) : Vec F S1x1 .f32 :=
  VO4.read (Elt F) (VO4.writes (Elt F) VO4.junk (kernelRunA c i arg2 harg2 arg3 harg3 arg4 harg4 arg5 harg5 arg6 harg6 arg7 harg7 arg8 harg8 hc0 x0 x1 x2 x3).1)

/-- At a later point the pieces stored into accumulator 0's buffer cover its one entry. -/
theorem coverB4 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) (y : S1x1.Idx) :
    ∃ pc ∈ (kernelRunB c i arg2 harg2 arg3 harg3 arg4 harg4 arg5 harg5 arg6 harg6 arg7 harg7 arg8 harg8 hc0 x0 x1 x2 x3 xo4 xo5 xo6).1, y ∈ pc.1.set :=
  View.cover_of_tiledL (kernelRunB c i arg2 harg2 arg3 harg3 arg4 harg4 arg5 harg5 arg6 harg6 arg7 harg7 arg8 harg8 hc0 x0 x1 x2 x3 xo4 xo5 xo6).1 S1x1.size (by sl_kernel_rfl) y

/-- What a later point leaves in accumulator 0's buffer, over what the point before left in the three. -/
def outB4 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) : Vec F S1x1 .f32 :=
  VO4.read (Elt F) (VO4.writes (Elt F) VO4.junk (kernelRunB c i arg2 harg2 arg3 harg3 arg4 harg4 arg5 harg5 arg6 harg6 arg7 harg7 arg8 harg8 hc0 x0 x1 x2 x3 xo4 xo5 xo6).1)

/-- At the first point the pieces stored into accumulator 1's buffer cover its one entry. -/
theorem coverA5 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) (y : S1x1.Idx) :
    ∃ pc ∈ (kernelRunA c i arg2 harg2 arg3 harg3 arg4 harg4 arg5 harg5 arg6 harg6 arg7 harg7 arg8 harg8 hc0 x0 x1 x2 x3).2.1, y ∈ pc.1.set :=
  View.cover_of_tiledL (kernelRunA c i arg2 harg2 arg3 harg3 arg4 harg4 arg5 harg5 arg6 harg6 arg7 harg7 arg8 harg8 hc0 x0 x1 x2 x3).2.1 S1x1.size (by sl_kernel_rfl) y

/-- What the first point leaves in accumulator 1's buffer: its pieces read back. -/
def outA5 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) : Vec F S1x1 .f32 :=
  VO5.read (Elt F) (VO5.writes (Elt F) VO5.junk (kernelRunA c i arg2 harg2 arg3 harg3 arg4 harg4 arg5 harg5 arg6 harg6 arg7 harg7 arg8 harg8 hc0 x0 x1 x2 x3).2.1)

/-- At a later point the pieces stored into accumulator 1's buffer cover its one entry. -/
theorem coverB5 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) (y : S1x1.Idx) :
    ∃ pc ∈ (kernelRunB c i arg2 harg2 arg3 harg3 arg4 harg4 arg5 harg5 arg6 harg6 arg7 harg7 arg8 harg8 hc0 x0 x1 x2 x3 xo4 xo5 xo6).2.1, y ∈ pc.1.set :=
  View.cover_of_tiledL (kernelRunB c i arg2 harg2 arg3 harg3 arg4 harg4 arg5 harg5 arg6 harg6 arg7 harg7 arg8 harg8 hc0 x0 x1 x2 x3 xo4 xo5 xo6).2.1 S1x1.size (by sl_kernel_rfl) y

/-- What a later point leaves in accumulator 1's buffer, over what the point before left in the three. -/
def outB5 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) : Vec F S1x1 .f32 :=
  VO5.read (Elt F) (VO5.writes (Elt F) VO5.junk (kernelRunB c i arg2 harg2 arg3 harg3 arg4 harg4 arg5 harg5 arg6 harg6 arg7 harg7 arg8 harg8 hc0 x0 x1 x2 x3 xo4 xo5 xo6).2.1)

/-- At the first point the pieces stored into accumulator 2's buffer cover its one entry. -/
theorem coverA6 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) (y : S1x1.Idx) :
    ∃ pc ∈ (kernelRunA c i arg2 harg2 arg3 harg3 arg4 harg4 arg5 harg5 arg6 harg6 arg7 harg7 arg8 harg8 hc0 x0 x1 x2 x3).2.2.1, y ∈ pc.1.set :=
  View.cover_of_tiledL (kernelRunA c i arg2 harg2 arg3 harg3 arg4 harg4 arg5 harg5 arg6 harg6 arg7 harg7 arg8 harg8 hc0 x0 x1 x2 x3).2.2.1 S1x1.size (by sl_kernel_rfl) y

/-- What the first point leaves in accumulator 2's buffer: its pieces read back. -/
def outA6 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) : Vec F S1x1 .f32 :=
  VO6.read (Elt F) (VO6.writes (Elt F) VO6.junk (kernelRunA c i arg2 harg2 arg3 harg3 arg4 harg4 arg5 harg5 arg6 harg6 arg7 harg7 arg8 harg8 hc0 x0 x1 x2 x3).2.2.1)

/-- At a later point the pieces stored into accumulator 2's buffer cover its one entry. -/
theorem coverB6 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) (y : S1x1.Idx) :
    ∃ pc ∈ (kernelRunB c i arg2 harg2 arg3 harg3 arg4 harg4 arg5 harg5 arg6 harg6 arg7 harg7 arg8 harg8 hc0 x0 x1 x2 x3 xo4 xo5 xo6).2.2.1, y ∈ pc.1.set :=
  View.cover_of_tiledL (kernelRunB c i arg2 harg2 arg3 harg3 arg4 harg4 arg5 harg5 arg6 harg6 arg7 harg7 arg8 harg8 hc0 x0 x1 x2 x3 xo4 xo5 xo6).2.2.1 S1x1.size (by sl_kernel_rfl) y

/-- What a later point leaves in accumulator 2's buffer, over what the point before left in the three. -/
def outB6 (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) : Vec F S1x1 .f32 :=
  VO6.read (Elt F) (VO6.writes (Elt F) VO6.junk (kernelRunB c i arg2 harg2 arg3 harg3 arg4 harg4 arg5 harg5 arg6 harg6 arg7 harg7 arg8 harg8 hc0 x0 x1 x2 x3 xo4 xo5 xo6).2.2.1)

/-! ## What the accumulators hold after each point -/

/-- Past the first point the branch is not taken. -/
theorem notcond0 (t : Fin cfg0.N) (h : t.val ≠ 0) : ¬cond0 (grid0.coords t) := fun hc => by
  have h1 := (hcond0 t).mp hc
  have h2 : t.val < 256 := lt_of_lt_of_eq t.isLt (show cfg0.N = 256 from N_0)
  omega

/-- THE ACCUMULATION: the three accumulators' buffers after the body at point `n`. -/
def outsAt (c : Dev nD) : (n : ℕ) → n < cfg0.N → Vec F S1x1 .f32 × Vec F S1x1 .f32 × Vec F S1x1 .f32
  | 0, hn =>
    (outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0 ⟨0, hn⟩).mpr (Nat.zero_mod _)) (iblk m ρ c 0 ⟨0, hn⟩) (iblk m ρ c 1 ⟨0, hn⟩) (iblk m ρ c 2 ⟨0, hn⟩) (iblk m ρ c 3 ⟨0, hn⟩),
     outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0 ⟨0, hn⟩).mpr (Nat.zero_mod _)) (iblk m ρ c 0 ⟨0, hn⟩) (iblk m ρ c 1 ⟨0, hn⟩) (iblk m ρ c 2 ⟨0, hn⟩) (iblk m ρ c 3 ⟨0, hn⟩),
     outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0 ⟨0, hn⟩).mpr (Nat.zero_mod _)) (iblk m ρ c 0 ⟨0, hn⟩) (iblk m ρ c 1 ⟨0, hn⟩) (iblk m ρ c 2 ⟨0, hn⟩) (iblk m ρ c 3 ⟨0, hn⟩))
  | n + 1, hn =>
    (outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (notcond0 ⟨n + 1, hn⟩ (Nat.succ_ne_zero n)) (iblk m ρ c 0 ⟨n + 1, hn⟩) (iblk m ρ c 1 ⟨n + 1, hn⟩) (iblk m ρ c 2 ⟨n + 1, hn⟩) (iblk m ρ c 3 ⟨n + 1, hn⟩)
        (outsAt c n (Nat.lt_of_succ_lt hn)).1 (outsAt c n (Nat.lt_of_succ_lt hn)).2.1 (outsAt c n (Nat.lt_of_succ_lt hn)).2.2,
     outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (notcond0 ⟨n + 1, hn⟩ (Nat.succ_ne_zero n)) (iblk m ρ c 0 ⟨n + 1, hn⟩) (iblk m ρ c 1 ⟨n + 1, hn⟩) (iblk m ρ c 2 ⟨n + 1, hn⟩) (iblk m ρ c 3 ⟨n + 1, hn⟩)
        (outsAt c n (Nat.lt_of_succ_lt hn)).1 (outsAt c n (Nat.lt_of_succ_lt hn)).2.1 (outsAt c n (Nat.lt_of_succ_lt hn)).2.2,
     outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (notcond0 ⟨n + 1, hn⟩ (Nat.succ_ne_zero n)) (iblk m ρ c 0 ⟨n + 1, hn⟩) (iblk m ρ c 1 ⟨n + 1, hn⟩) (iblk m ρ c 2 ⟨n + 1, hn⟩) (iblk m ρ c 3 ⟨n + 1, hn⟩)
        (outsAt c n (Nat.lt_of_succ_lt hn)).1 (outsAt c n (Nat.lt_of_succ_lt hn)).2.1 (outsAt c n (Nat.lt_of_succ_lt hn)).2.2)

/-- `outsAt` at the first point. -/
theorem outsAt_zero (c : Dev nD) (t : Fin cfg0.N) (h0 : t.val = 0) :
    outsAt m ρ c t.val t.isLt =
      (outA4 c (grid0.coords t) (ms0 t) (hs0 t) (ms1 t) (hs1 t) (ms2 t) (hs2 t) (ms3 t) (hs3 t) (ms4 t) (hs4 t) (ms5 t) (hs5 t) (ms6 t) (hs6 t) ((hcond0 t).mpr (by rw [h0])) (iblk m ρ c 0 t) (iblk m ρ c 1 t) (iblk m ρ c 2 t) (iblk m ρ c 3 t),
       outA5 c (grid0.coords t) (ms0 t) (hs0 t) (ms1 t) (hs1 t) (ms2 t) (hs2 t) (ms3 t) (hs3 t) (ms4 t) (hs4 t) (ms5 t) (hs5 t) (ms6 t) (hs6 t) ((hcond0 t).mpr (by rw [h0])) (iblk m ρ c 0 t) (iblk m ρ c 1 t) (iblk m ρ c 2 t) (iblk m ρ c 3 t),
       outA6 c (grid0.coords t) (ms0 t) (hs0 t) (ms1 t) (hs1 t) (ms2 t) (hs2 t) (ms3 t) (hs3 t) (ms4 t) (hs4 t) (ms5 t) (hs5 t) (ms6 t) (hs6 t) ((hcond0 t).mpr (by rw [h0])) (iblk m ρ c 0 t) (iblk m ρ c 1 t) (iblk m ρ c 2 t) (iblk m ρ c 3 t)) := by
  obtain ⟨n, hn⟩ := t
  cases n with
  | zero => rfl
  | succ n => exact absurd h0 (Nat.succ_ne_zero n)

/-- `outsAt` at a later point: over what the point before left. -/
theorem outsAt_succ (c : Dev nD) (t : Fin cfg0.N) (h0 : t.val ≠ 0) :
    outsAt m ρ c t.val t.isLt =
      (outB4 c (grid0.coords t) (ms0 t) (hs0 t) (ms1 t) (hs1 t) (ms2 t) (hs2 t) (ms3 t) (hs3 t) (ms4 t) (hs4 t) (ms5 t) (hs5 t) (ms6 t) (hs6 t) (notcond0 t h0) (iblk m ρ c 0 t) (iblk m ρ c 1 t) (iblk m ρ c 2 t) (iblk m ρ c 3 t)
          (outsAt m ρ c (t.val - 1) (Nat.lt_of_le_of_lt (Nat.sub_le _ _) t.isLt)).1 (outsAt m ρ c (t.val - 1) (Nat.lt_of_le_of_lt (Nat.sub_le _ _) t.isLt)).2.1 (outsAt m ρ c (t.val - 1) (Nat.lt_of_le_of_lt (Nat.sub_le _ _) t.isLt)).2.2,
       outB5 c (grid0.coords t) (ms0 t) (hs0 t) (ms1 t) (hs1 t) (ms2 t) (hs2 t) (ms3 t) (hs3 t) (ms4 t) (hs4 t) (ms5 t) (hs5 t) (ms6 t) (hs6 t) (notcond0 t h0) (iblk m ρ c 0 t) (iblk m ρ c 1 t) (iblk m ρ c 2 t) (iblk m ρ c 3 t)
          (outsAt m ρ c (t.val - 1) (Nat.lt_of_le_of_lt (Nat.sub_le _ _) t.isLt)).1 (outsAt m ρ c (t.val - 1) (Nat.lt_of_le_of_lt (Nat.sub_le _ _) t.isLt)).2.1 (outsAt m ρ c (t.val - 1) (Nat.lt_of_le_of_lt (Nat.sub_le _ _) t.isLt)).2.2,
       outB6 c (grid0.coords t) (ms0 t) (hs0 t) (ms1 t) (hs1 t) (ms2 t) (hs2 t) (ms3 t) (hs3 t) (ms4 t) (hs4 t) (ms5 t) (hs5 t) (ms6 t) (hs6 t) (notcond0 t h0) (iblk m ρ c 0 t) (iblk m ρ c 1 t) (iblk m ρ c 2 t) (iblk m ρ c 3 t)
          (outsAt m ρ c (t.val - 1) (Nat.lt_of_le_of_lt (Nat.sub_le _ _) t.isLt)).1 (outsAt m ρ c (t.val - 1) (Nat.lt_of_le_of_lt (Nat.sub_le _ _) t.isLt)).2.1 (outsAt m ρ c (t.val - 1) (Nat.lt_of_le_of_lt (Nat.sub_le _ _) t.isLt)).2.2) := by
  obtain ⟨n, hn⟩ := t
  cases n with
  | zero => exact absurd rfl h0
  | succ n => rfl

/-! ## The pipeline's proof data -/

/-- The proof data of the one pipeline on core `c`: the arrays as the region finds them; after the body at point `t`
    each input's buffer at its block and the accumulators' at `outsAt`; the invariant the scoped buffers no window
    stages; nothing owed; each matrix's two windows holding a half share of it, the accumulators the full share. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => (outsAt m ρ c t.val t.isLt).1
    | ⟨5, _⟩ => (outsAt m ρ c t.val t.isLt).2.1
    | ⟨6, _⟩ => (outsAt m ρ c t.val t.isLt).2.2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = (outsAt m ρ c t.val t.isLt).1 := by dsimp only [dats]
theorem after5 (c : Dev nD) (t : Fin cfg0.N) : (dats m ρ 0 c).after 5 t = (outsAt m ρ c t.val t.isLt).2.1 := by dsimp only [dats]
theorem after6 (c : Dev nD) (t : Fin cfg0.N) : (dats m ρ 0 c).after 6 t = (outsAt m ρ c t.val t.isLt).2.2 := by dsimp only [dats]

/-- Input window 0's current staging buffer holds its block at every point, fetched there or not. -/
theorem before0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin cfg0.N) (d) : (dats m ρ 0 c).before 2 t d = iblk m ρ c 2 t :=
  ((dats m ρ 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin cfg0.N) (d) : (dats m ρ 0 c).before 3 t d = iblk m ρ c 3 t :=
  ((dats m ρ 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-- Past the first point accumulator 0's buffer holds what the body left at the point before: it is written back
    only after the last point. -/
theorem before4 (c : Dev nD) (t : Fin cfg0.N) (h0 : t.val ≠ 0) (d) :
    (dats m ρ 0 c).before 4 t d = (outsAt m ρ c (t.val - 1) (Nat.lt_of_le_of_lt (Nat.sub_le _ _) t.isLt)).1 := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]
/-- Past the first point accumulator 1's buffer holds what the body left at the point before: it is written back
    only after the last point. -/
theorem before5 (c : Dev nD) (t : Fin cfg0.N) (h0 : t.val ≠ 0) (d) :
    (dats m ρ 0 c).before 5 t d = (outsAt m ρ c (t.val - 1) (Nat.lt_of_le_of_lt (Nat.sub_le _ _) t.isLt)).2.1 := by
  have hN : t.val < 256 := lt_of_lt_of_eq t.isLt (show cfg0.N = 256 from N_0)
  rw [Dat.before_out_kept _ 5 rfl t h0 (Bool.eq_false_iff.mpr fun h => by have := (flush0_5 _).mp h; dsimp only at this; omega)
    (fun _ => rfl) (fun _ _ => rfl)]
  dsimp only [dats]
/-- Past the first point accumulator 2's buffer holds what the body left at the point before: it is written back
    only after the last point. -/
theorem before6 (c : Dev nD) (t : Fin cfg0.N) (h0 : t.val ≠ 0) (d) :
    (dats m ρ 0 c).before 6 t d = (outsAt m ρ c (t.val - 1) (Nat.lt_of_le_of_lt (Nat.sub_le _ _) t.isLt)).2.2 := by
  have hN : t.val < 256 := lt_of_lt_of_eq t.isLt (show cfg0.N = 256 from N_0)
  rw [Dat.before_out_kept _ 6 rfl t h0 (Bool.eq_false_iff.mpr fun h => by have := (flush0_6 _).mp h; dsimp only at this; omega)
    (fun _ => rfl) (fun _ _ => rfl)]
  dsimp only [dats]

end Cert.KernelIdeal.Mmd

end
-- ==== Proof.FrameBody.lean ====
/-
  The body's obligation at every grid point.

  At point `t` the body is called on the seven windows' current staging buffers. The four inputs hold their blocks;
  at the first point the accumulators' buffers hold anything and the zeroing-then-adding run applies; at a later
  point they hold what the point before left and the adding run applies. Either way the buffers end at what the
  proof data names for point `t`, the region's invariant untouched and nothing owed.
-/
import proofs.«108402_j76991583748198_1_alg».proof.Proof.FrameData

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t)
    ∗ owns (c : Thread nD τ) (ms4 t) fullShare ((dats m ρ 0 c).after 4 t)
    ∗ owns (c : Thread nD τ) (ms5 t) fullShare ((dats m ρ 0 c).after 5 t)
    ∗ owns (c : Thread nD τ) (ms6 t) fullShare ((dats m ρ 0 c).after 6 t))

set_option maxHeartbeats 1600000 in
/-- The body at any point. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3]
  rw [show (dats m ρ 0 c).Φ t.succ = (dats m ρ 0 c).Φ t.castSucc from rfl,
    show (dats m ρ 0 c).owesAt () t.succ = (dats m ρ 0 c).owesAt () t.castSucc from rfl,
    after0, after1, after2, after3, after4, after5, after6]
  by_cases h0 : t.val = 0
  · rw [outsAt_zero m ρ c t h0]
    dsimp only
    unfold outA4 outA5 outA6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ ((hcond0 t).mpr (by rw [h0])) (iblk m ρ c 0 t) (iblk m ρ c 1 t) (iblk m ρ c 2 t) (iblk m ρ c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 _ _ _ _ _ _ _ _ _ _ _ _ _ _ _ _ _ _ _ _ _)
    isplitl [H5]
    · unfold owns; iexists _; isplitr
      swap; · iexact H5
      ipureintro; exact View.read_writes_of_cover _ _ _ _ _ (coverA5 _ _ _ _ _ _ _ _ _ _ _ _ _ _ _ _ _ _ _ _ _)
    unfold owns; iexists _; isplitr
    swap; · iexact H6
    ipureintro; exact View.read_writes_of_cover _ _ _ _ _ (coverA6 _ _ _ _ _ _ _ _ _ _ _ _ _ _ _ _ _ _ _ _ _)
  · rw [outsAt_succ m ρ c t h0]
    dsimp only
    simp only [before4 m ρ c t h0, before5 m ρ c t h0, before6 m ρ c t h0]
    unfold outB4 outB5 outB6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (notcond0 t h0) (iblk m ρ c 0 t) (iblk m ρ c 1 t) (iblk m ρ c 2 t) (iblk m ρ c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 _ _ _ _ _ _ _ _ _ _ _ _ _ _ _ _ _ _ _ _ _ _ _ _)
    isplitl [H5]
    · unfold owns; iexists _; isplitr
      swap; · iexact H5
      ipureintro; exact View.read_writes_of_cover _ _ _ _ _ (coverB5 _ _ _ _ _ _ _ _ _ _ _ _ _ _ _ _ _ _ _ _ _ _ _ _)
    unfold owns; iexists _; isplitr
    swap; · iexact H6
    ipureintro; exact View.read_writes_of_cover _ _ _ _ _ (coverB6 _ _ _ _ _ _ _ _ _ _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Mmd

end
-- ==== Proof.FrameLaunch.lean ====
/-
  The launch of the kernel program: @main as two reshapes, the kernel region, and twenty scalar operations.

  The two [4096, 2500] matrices are each looked at by two windows of the region, so each matrix's buffer is held by
  its two windows at a half share apiece: at the region's entry the full share splits into its left and right
  halves, at its exit the halves rejoin. The three accumulator arrays are held outright; when the region ends they
  hold what the write-back after the last grid point left, and `V1` is the region-entry valuation with exactly
  those three buffers replaced. The run: at the compiled mesh, for any float values, from any memory with zero
  counters, every weakly fair execution of @main terminates without a fault, and every unscoped buffer ends at the
  twenty operations' value of `V1`.
-/
import proofs.«108402_j76991583748198_1_alg».proof.Proof.FrameBody

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The region-entry contents as a valuation of device buffers. -/
abbrev Vd (c : Dev nD) : Valuation τ sig (Elt F) := StableHlo.after hostOps0 (V₀ m ρ c)

abbrev r4 : DevRef τ sig := Proc.devRef .tc main_v2_0
abbrev r5 : DevRef τ sig := Proc.devRef .tc main_v2_1
abbrev r6 : DevRef τ sig := Proc.devRef .tc main_v2_2

def fin4 (c : Dev nD) : Buf (Elt F) ((cfg0.win 4).arr.view.loc (c : Thread nD τ)) := (dats m ρ 0 c).arrAt 4 cfg0.N
def fin5 (c : Dev nD) : Buf (Elt F) ((cfg0.win 5).arr.view.loc (c : Thread nD τ)) := (dats m ρ 0 c).arrAt 5 cfg0.N
def fin6 (c : Dev nD) : Buf (Elt F) ((cfg0.win 6).arr.view.loc (c : Thread nD τ)) := (dats m ρ 0 c).arrAt 6 cfg0.N

def V1 (c : Dev nD) : Valuation τ sig (Elt F) :=
  Function.update (Function.update (Function.update (Vd m ρ c) r4 (fin4 m ρ c)) r5 (fin5 m ρ c)) r6 (fin6 m ρ c)

theorem r45 : (r4 : DevRef τ sig) ≠ r5 := fun h => absurd (Proc.devRef_injective _ h) (by decide)
theorem r46 : (r4 : DevRef τ sig) ≠ r6 := fun h => absurd (Proc.devRef_injective _ h) (by decide)
theorem r56 : (r5 : DevRef τ sig) ≠ r6 := fun h => absurd (Proc.devRef_injective _ h) (by decide)

theorem V1_r6 (c : Dev nD) : V1 m ρ c r6 = fin6 m ρ c := by
  unfold V1; rw [Function.update_self]
theorem V1_r5 (c : Dev nD) : V1 m ρ c r5 = fin5 m ρ c := by
  unfold V1; rw [Function.update_of_ne r56, Function.update_self]
theorem V1_r4 (c : Dev nD) : V1 m ρ c r4 = fin4 m ρ c := by
  unfold V1; rw [Function.update_of_ne r46, Function.update_of_ne r45, Function.update_self]
theorem V1_other (c : Dev nD) (b : DevRef τ sig) (h4 : b ≠ r4) (h5 : b ≠ r5) (h6 : b ≠ r6) : V1 m ρ c b = Vd m ρ c b := by
  unfold V1; rw [Function.update_of_ne h6, Function.update_of_ne h5, Function.update_of_ne h4]

/-- The five buffers behind the seven windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2_0) ↦{fullShare} W main_v2_0) ∗ (((c : Thread nD τ).loc main_v2_1) ↦{fullShare} W main_v2_1)
          ∗ (((c : Thread nD τ).loc main_v2_2) ↦{fullShare} W main_v2_2)) :=
  bigSep_eq_bigSepL_of_eq [main_v0, main_v1, main_v2_0, main_v2_1, main_v2_2] (by decide) (by decide) _

/-- The pipeline's arrays are whole buffers, each held at its window's share. -/
theorem arrays_eq' (c : Dev nD) (Fn : (w : Fin cfg0.W) → Buf (Elt F) ((cfg0.win w).arr.view.loc (c : Thread nD τ))) :
    (dats m ρ 0 c).arrays Fn
      = bigSep Finset.univ fun w => (((c : Thread nD τ).loc (Pipeline.arrRef spec0 w)) ↦{(dats m ρ 0 c).share w} Fn w : sProp 𝕄) := by
  unfold Dat.arrays
  exact bigSep_congr fun w _ => by rw [(arr_whole0 w).set_eq_univ]

/-- The seven windows' arrays one by one: each matrix twice, at the two halves; each accumulator once, whole. -/
theorem arrays_chain (c : Dev nD) (Fn : (w : Fin cfg0.W) → Buf (Elt F) ((cfg0.win w).arr.view.loc (c : Thread nD τ))) :
    (dats m ρ 0 c).arrays Fn
      = iprop((((c : Thread nD τ).loc main_v0) ↦{fullShare.left} Fn 0) ∗ (((c : Thread nD τ).loc main_v0) ↦{fullShare.right} Fn 1) ∗ (((c : Thread nD τ).loc main_v1) ↦{fullShare.left} Fn 2) ∗ (((c : Thread nD τ).loc main_v1) ↦{fullShare.right} Fn 3)
          ∗ (((c : Thread nD τ).loc main_v2_0) ↦{fullShare} Fn 4) ∗ (((c : Thread nD τ).loc main_v2_1) ↦{fullShare} Fn 5) ∗ (((c : Thread nD τ).loc main_v2_2) ↦{fullShare} Fn 6)) := by
  rw [arrays_eq', bigSep_W0]; rfl

/-- ENTRY: the five buffers behind the seven windows' arrays, each whole at the full share at contents `W`, are the
    pipeline's arrays at contents `Fn` read off `W`: each matrix's full share dealt as its two windows' halves. -/
theorem arrays_in' (c : Dev nD) (W : (b : Ref sig .tc) → Buf (Elt F) ((c : Thread nD τ).loc b))
    (Fn : (w : Fin cfg0.W) → Buf (Elt F) ((cfg0.win w).arr.view.loc (c : Thread nD τ)))
    (h0 : Fn 0 = W main_v0) (h1 : Fn 1 = W main_v0) (h2 : Fn 2 = W main_v1) (h3 : Fn 3 = W main_v1)
    (h4 : Fn 4 = W main_v2_0) (h5 : Fn 5 = W main_v2_1) (h6 : Fn 6 = W main_v2_2) :
    (Pipeline.arrBufs (Ix := Unit) (Name := ℕ) (U := UR sig nD τ) (Lvl := ℕ) spec0 c W : sProp 𝕄) ⊢ (dats m ρ 0 c).arrays Fn := by
  rw [arrBufs0_eq, arrays_chain, h0, h1, h2, h3, h4, h5, h6]
  iintro ⟨H0, H1, H4, H5, H6⟩
  icases H0 with ⟨H0l, H0r⟩
  icases H1 with ⟨H1l, H1r⟩
  isplitl [H0l]; · iexact H0l
  isplitl [H0r]; · iexact H0r
  isplitl [H1l]; · iexact H1l
  isplitl [H1r]; · iexact H1r
  isplitl [H4]; · iexact H4
  isplitl [H5]; · iexact H5
  iexact H6

/-- EXIT: the pipeline's arrays at contents `Fn` agreeing with `W` are the five buffers behind them at `W`: each
    matrix's two halves rejoined. -/
theorem arrays_out' (c : Dev nD) (W : (b : Ref sig .tc) → Buf (Elt F) ((c : Thread nD τ).loc b))
    (Fn : (w : Fin cfg0.W) → Buf (Elt F) ((cfg0.win w).arr.view.loc (c : Thread nD τ)))
    (h0 : Fn 0 = W main_v0) (h1 : Fn 1 = W main_v0) (h2 : Fn 2 = W main_v1) (h3 : Fn 3 = W main_v1)
    (h4 : Fn 4 = W main_v2_0) (h5 : Fn 5 = W main_v2_1) (h6 : Fn 6 = W main_v2_2) :
    (dats m ρ 0 c).arrays Fn ⊢ (Pipeline.arrBufs (Ix := Unit) (Name := ℕ) (U := UR sig nD τ) (Lvl := ℕ) spec0 c W : sProp 𝕄) := by
  rw [arrBufs0_eq, arrays_chain, h0, h1, h2, h3, h4, h5, h6]
  iintro ⟨H0l, H0r, H1l, H1r, H4, H5, H6⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H4]; · iexact H4
  isplitl [H5]; · iexact H5
  iexact H6

theorem arrays_in (c : Dev nD) :
    (Pipeline.arrBufs (Ix := Unit) (Name := ℕ) (U := UR sig nD τ) (Lvl := ℕ) spec0 c (V m ρ c) : sProp 𝕄)
      ⊢ (dats m ρ 0 c).arrays ((dats m ρ 0 c).arrAt · 0) :=
  arrays_in' m ρ c (V m ρ c) _ (A_eq m ρ c 0) (A_eq m ρ c 1) (A_eq m ρ c 2) (A_eq m ρ c 3) (A_eq m ρ c 4) (A_eq m ρ c 5) (A_eq m ρ c 6)

theorem arrays_out (c : Dev nD) :
    (dats m ρ 0 c).arrays ((dats m ρ 0 c).arrAt · cfg0.N)
      ⊢ (Pipeline.arrBufs (Ix := Unit) (Name := ℕ) (U := UR sig nD τ) (Lvl := ℕ) spec0 c (fun b => V1 m ρ c b) : sProp 𝕄) :=
  arrays_out' m ρ c (fun b => V1 m ρ c b) _
    ((((dats m ρ 0 c).arrAt_in 0 rfl _).trans (A_eq m ρ c 0)).trans (V1_other m ρ c (Proc.devRef .tc main_v0) (fun h => absurd (Proc.devRef_injective _ h) (by decide)) (fun h => absurd (Proc.devRef_injective _ h) (by decide)) (fun h => absurd (Proc.devRef_injective _ h) (by decide))).symm)
    ((((dats m ρ 0 c).arrAt_in 1 rfl _).trans (A_eq m ρ c 1)).trans (V1_other m ρ c (Proc.devRef .tc main_v0) (fun h => absurd (Proc.devRef_injective _ h) (by decide)) (fun h => absurd (Proc.devRef_injective _ h) (by decide)) (fun h => absurd (Proc.devRef_injective _ h) (by decide))).symm)
    ((((dats m ρ 0 c).arrAt_in 2 rfl _).trans (A_eq m ρ c 2)).trans (V1_other m ρ c (Proc.devRef .tc main_v1) (fun h => absurd (Proc.devRef_injective _ h) (by decide)) (fun h => absurd (Proc.devRef_injective _ h) (by decide)) (fun h => absurd (Proc.devRef_injective _ h) (by decide))).symm)
    ((((dats m ρ 0 c).arrAt_in 3 rfl _).trans (A_eq m ρ c 3)).trans (V1_other m ρ c (Proc.devRef .tc main_v1) (fun h => absurd (Proc.devRef_injective _ h) (by decide)) (fun h => absurd (Proc.devRef_injective _ h) (by decide)) (fun h => absurd (Proc.devRef_injective _ h) (by decide))).symm)
    (V1_r4 m ρ c).symm (V1_r5 m ρ c).symm (V1_r6 m ρ c).symm

/-- The buffers no window looks at are at `V1` what they were when the region was entered. -/
theorem rest_V1 (c : Dev nD) :
    (Pipeline.unscopedRest (Ix := Unit) (Name := ℕ) (U := UR sig nD τ) (Lvl := ℕ) spec0 c (fun b => V1 m ρ c b) : sProp 𝕄)
      = Pipeline.unscopedRest spec0 c (V m ρ c) := by
  unfold Pipeline.unscopedRest
  refine bigSep_congr fun b hb => ?_
  have hb' := (Finset.mem_sdiff.mp hb).2
  have hne : ∀ w, Pipeline.arrRef spec0 w ≠ b := fun w h => hb' (Finset.mem_image.mpr ⟨w, Finset.mem_univ _, h⟩)
  beta_reduce
  rw [V1_other m ρ c (Proc.devRef .tc b) (fun h => hne 4 (Proc.devRef_injective _ h).symm) (fun h => hne 5 (Proc.devRef_injective _ h).symm)
    (fun h => hne 6 (Proc.devRef_injective _ h).symm)]

/-! ## @main as three segments: two reshapes, the region, twenty scalar operations -/

abbrev 𝒱₀ : Variants := Variants.none
/-- No core owes another anything: no level is assigned. -/
abbrev Lz : GSem nD τ sig → Finset Unit := fun _ => ∅
abbrev lvz : GSem nD τ sig → Unit → ℕ := fun _ _ => 0
/-- The prefetched tables' admissible contents: no table. -/
abbrev adm : (p : Fin 1) → (pcfgs (F := F) p).Adm := fun p => (cfgs p).toPCfg_adm
/-- The pipeline library's algebra is the whole user algebra. -/
abbrev EP : Emb (UR sig nD τ) (MT nD τ sig Unit (Elt F) ℕ (UR sig nD τ) ℕ) := emb₁
/-- What rides beside the buffers through the host operations: the core's `owes`. -/
abbrev Rw (c : Dev nD) : sProp 𝕄 := iprop(∃ W, owes (c : Thread nD τ) (0 : CellTallies nD τ sig Unit) W)

/-- The two reshapes, over the unscoped buffers. -/
def seg0 : Pipeline.HostSeg (Name := ℕ) (U := UR sig nD τ) (pcfgs (F := F)) defs₀ 𝒱₀ Lz lvz :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) Rw

/-- The twenty scalar operations after the region, over the unscoped buffers as the region leaves them. -/
def seg1 : Pipeline.HostSeg (Name := ℕ) (U := UR sig nD τ) (pcfgs (F := F)) defs₀ 𝒱₀ Lz lvz :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V1 m ρ) Rw

set_option backward.isDefEq.respectTransparency.types false in
/-- THE REGION: entered from what the reshapes left — the seven windows' arrays into the pipeline, every other
    unscoped buffer bypassing —, left with the accumulator arrays at their final contents. -/
def reg0 : Pipeline.RegionSeg (pcfgs (F := F)) adm (dats m ρ) () defs₀ 𝒱₀ Lz lvz 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ Lz lvz 0 fun _ _ => rfl
  pre c := iprop(StableHlo.held (c : Thread nD τ) (Pipeline.ucRefs τ sig) (Vd m ρ c) ∗ Rw c)
  post c := iprop(StableHlo.held (c : Thread nD τ) (Pipeline.ucRefs τ sig) (V1 m ρ c) ∗ Rw c)
  X _ := iprop(emp)
  Y _ := iprop(emp)
  Z c := Pipeline.unscopedRest spec0 c (V m ρ c)
  hentry c := by
    rw [show StableHlo.held (c : Thread nD τ) (Pipeline.ucRefs τ sig) (Vd m ρ c) = unscopedBufs c (V m ρ c) from (Pipeline.unscopedBufs_held c _).symm,
      Pipeline.unscopedBufs_split₀ cfgs 0 winFacts₀0.arr_unscoped c (V m ρ c)]
    iintro ⟨⟨⟨Harr, Hrest⟩, HO⟩, -, -⟩
    ihave Ha := (arrays_in m ρ c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [Pipeline.ownSems0_none, show (dats m ρ 0 c).Φ (Fin.last cfg0.N) = Pipeline.scopedRest spec0 c from rfl]
    iintro Hr
    isplitr; · iempintro
    isplitr; · iempintro
    iexact Hr
  hexit c := by
    iintro ⟨Ha, HO, -, HZ⟩
    imodintro
    isplitr [HO]
    · rw [show StableHlo.held (c : Thread nD τ) (Pipeline.ucRefs τ sig) (V1 m ρ c) = unscopedBufs c (fun b => V1 m ρ c b) from (Pipeline.unscopedBufs_held c _).symm,
        Pipeline.unscopedBufs_split₀ cfgs 0 winFacts₀0.arr_unscoped c (fun b => V1 m ρ c b), rest_V1]
      isplitl [Ha]
      · iapply (arrays_out m ρ c); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ Lz lvz) := [.host (seg0 m ρ), .region (reg0 m ρ), .host (seg1 m ρ)]

/-- The launch element: the pipeline library's at the staging cells. -/
def u₀ : UR sig nD τ := initOf (Pipeline.cells cfgs cellOf_inj) (Pipeline.launchToks cfgs cellOf_inj)

/-- The buffers when @main returns: the twenty scalar operations applied to what the region left. -/
abbrev Vend (c : Dev nD) : Valuation τ sig (Elt F) := StableHlo.after hostOps1 (V1 m ρ c)

/-- What holds of every final state: every unscoped buffer is at `Vend`. -/
def QK : PUnit × MemSt nD τ sig (Elt F) → Prop := fun r =>
  ∀ c : Dev nD, ∀ b ∈ Pipeline.ucRefs τ sig, r.2.mem ((c : Thread nD τ).1, b) = Vend m ρ c b

set_option backward.isDefEq.respectTransparency.types false in
/-- At the compiled mesh, for any float values, from any memory with zero counters: every weakly fair execution of
    @main on the TensorCores terminates, nothing faulting, and every final state has every unscoped buffer at `Vend`. -/
theorem run_main : θ_run defs (onTc (τ := τ) (main (F := F))) (s₀ m ρ) (QK m ρ) :=
  Pipeline.θ_run_regions_kit (pcfgs (F := F)) adm (dats m ρ) () cellOf_inj EP defs₀ 𝒱₀ Lz lvz m ρ main (segs m ρ)
    (fun c Q => by rw [main_segs adm (dats m ρ) () 𝒱₀ Lz lvz (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ Rw c))
    (Tₙ := fun c => StableHlo.held (c : Thread nD τ) (Pipeline.ucRefs τ sig) (Vend m ρ c))
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vend m ρ c b)
    (hfin := fun c s' => by
      iintro ⟨Hh, HSI⟩
      unfold StableHlo.held
      ihave Hr := (pointsTo_read_all (Pipeline.ucRefs τ sig) (fun b => ((c : Thread nD τ).1, b)) (fun b => Vend m ρ c b) s') $$ [Hh HSI]
      · isplitl [Hh] <;> iassumption
      icases Hr with ⟨%ha, HSI⟩
      imodintro
      isplitr; · ipureintro; exact ha
      iexact HSI)
    (hQ := fun _ h => h)

end Cert.KernelIdeal.Mmd

end
-- ==== Proof.HostLines.lean ====
/-
  The host operations of the kernel program's @main around its one region, read over an arbitrary valuation.

  Before the region @main reshapes its two [4096, 100, 25] arguments to [4096, 2500] matrices; after it, twenty scalar
  operations turn the region's three [1, 1] results `sxx`, `syy`, `sxy` and the third argument `s` into
  `((sxx / c + syy / c) − 2 · (sxy / c)) + (max 1 s − 1) · e`, every literal a float word. Neither stretch writes an
  argument, so the three arguments are at the end what they were at launch; the two matrices the region reads are the
  reshapes of the first two arguments; and the returned scalar is the statistic `Cert.Mmd.result` of the three results'
  single entries and the third argument.
-/
import proofs.«108402_j76991583748198_1_alg».proof.Proof.Gen.KernelIdeal.Launch
import proofs.«108402_j76991583748198_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Mmd

open Cert.KernelIdeal Cert.KernelIdeal.Gen
open Idealize.ShloMosaic Idealize.ShloMosaic.ValueIdx

section Generic

variable {F : FTy → Type} [FloatOps F] (W : Valuation τ sig (Elt F))

/-! ## The two reshapes before the region -/

/-- The two reshapes write no argument. -/
theorem prefix_arg0 : StableHlo.after (hostOps0 (F := F)) W (Proc.devRef .tc main_arg0) = W (Proc.devRef .tc main_arg0) := by
  open StableHlo in after_results
theorem prefix_arg1 : StableHlo.after (hostOps0 (F := F)) W (Proc.devRef .tc main_arg1) = W (Proc.devRef .tc main_arg1) := by
  open StableHlo in after_results
theorem prefix_arg2 : StableHlo.after (hostOps0 (F := F)) W (Proc.devRef .tc main_arg2) = W (Proc.devRef .tc main_arg2) := by
  open StableHlo in after_results

/-- The first matrix the region reads is the first argument, reshaped. -/
theorem prefix_v0 : StableHlo.after (hostOps0 (F := F)) W (Proc.devRef .tc main_v0)
    = shapeCast S4096x2500 (W (Proc.devRef .tc main_arg0)) Facts₀.shapeCasts_S4096x100x25_S4096x2500 := by
  open StableHlo in after_results
  rfl
/-- The second matrix the region reads is the second argument, reshaped. -/
theorem prefix_v1 : StableHlo.after (hostOps0 (F := F)) W (Proc.devRef .tc main_v1)
    = shapeCast S4096x2500 (W (Proc.devRef .tc main_arg1)) Facts₀.shapeCasts_S4096x100x25_S4096x2500 := by
  open StableHlo in after_results
  rfl

/-! ## The twenty scalar operations after the region -/

/-- The scalar operations write no argument. -/
theorem tail_arg0 : StableHlo.after (hostOps1 (F := F)) W (Proc.devRef .tc main_arg0) = W (Proc.devRef .tc main_arg0) := by
  open StableHlo in after_results
theorem tail_arg1 : StableHlo.after (hostOps1 (F := F)) W (Proc.devRef .tc main_arg1) = W (Proc.devRef .tc main_arg1) := by
  open StableHlo in after_results
theorem tail_arg2 : StableHlo.after (hostOps1 (F := F)) W (Proc.devRef .tc main_arg2) = W (Proc.devRef .tc main_arg2) := by
  open StableHlo in after_results

end Generic

/-- A [1, 1] array reshaped to a scalar reads the array's one entry. -/
theorem read11 {α : Type} (x : S1x1.Idx → α) (h : S1x1.ShapeCasts S_) (j : S_.Idx) :
    shapeCast S_ x h j = x (ix2 0 0) :=
  shapeCast_apply x h j (ix2 0 0) (by
    have hj := (S_.rowMajor j).isLt
    have h1 : S_.numel = 1 := by decide
    rw [Shape.rowMajor_val_two]
    show 0 * 1 + 0 = _
    omega)

/-- The returned scalar is the statistic of the region's three results and the third argument. -/
theorem tail_v15 (W : Valuation τ sig (Elt Ideal)) :
    StableHlo.after (hostOps1 (F := Ideal)) W (Proc.devRef .tc main_v15)
      = fun _ => Cert.Mmd.result (W (Proc.devRef .tc main_v2_0) (ix2 0 0)) (W (Proc.devRef .tc main_v2_1) (ix2 0 0))
          (W (Proc.devRef .tc main_v2_2) (ix2 0 0)) (W (Proc.devRef .tc main_arg2) ix0) := by
  open StableHlo in after_results
  funext i
  obtain rfl := eq_ix0 i
  unfold Cert.Mmd.result
  rw [← read11 (W (Proc.devRef .tc main_v2_0)) Facts₀.shapeCasts_S1x1_S_ ix0,
    ← read11 (W (Proc.devRef .tc main_v2_1)) Facts₀.shapeCasts_S1x1_S_ ix0,
    ← read11 (W (Proc.devRef .tc main_v2_2)) Facts₀.shapeCasts_S1x1_S_ ix0]
  rfl

end Cert.KernelIdeal.Mmd

end
-- ==== Proof.FrameClaims.lean ====
/-
  What the launch gives the certificate's claims: every execution of @main terminates without a fault, the three
  arguments end as they were launched (no host operation writes them and no window of the region writes back into
  them), and the result buffer ends at the twenty scalar operations' value of what the region left.
-/
import proofs.«108402_j76991583748198_1_alg».proof.Proof.FrameLaunch
import proofs.«108402_j76991583748198_1_alg».proof.Proof.HostLines

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_v15 : (Proc.devRef .tc main_v15 : DevRef τ sig) ∈ Pipeline.ucRefs τ sig := by decide
theorem mem_arg0 : (Proc.devRef .tc main_arg0 : DevRef τ sig) ∈ Pipeline.ucRefs τ sig := by decide
theorem mem_arg1 : (Proc.devRef .tc main_arg1 : DevRef τ sig) ∈ Pipeline.ucRefs τ sig := by decide
theorem mem_arg2 : (Proc.devRef .tc main_arg2 : DevRef τ sig) ∈ Pipeline.ucRefs τ sig := by decide

/-- An argument ends as launched: neither host line writes it, and the region replaces only the accumulators. -/
theorem Vend_arg0 (c : Dev nD) : Vend m ρ c (Proc.devRef .tc main_arg0) = m ((c : Thread nD τ).loc main_arg0) :=
  (tail_arg0 (V1 m ρ c)).trans ((V1_other m ρ c _ (fun h => absurd (Proc.devRef_injective _ h) (by decide)) (fun h => absurd (Proc.devRef_injective _ h) (by decide)) (fun h => absurd (Proc.devRef_injective _ h) (by decide))).trans (prefix_arg0 (V₀ m ρ c)))
theorem Vend_arg1 (c : Dev nD) : Vend m ρ c (Proc.devRef .tc main_arg1) = m ((c : Thread nD τ).loc main_arg1) :=
  (tail_arg1 (V1 m ρ c)).trans ((V1_other m ρ c _ (fun h => absurd (Proc.devRef_injective _ h) (by decide)) (fun h => absurd (Proc.devRef_injective _ h) (by decide)) (fun h => absurd (Proc.devRef_injective _ h) (by decide))).trans (prefix_arg1 (V₀ m ρ c)))
theorem Vend_arg2 (c : Dev nD) : Vend m ρ c (Proc.devRef .tc main_arg2) = m ((c : Thread nD τ).loc main_arg2) :=
  (tail_arg2 (V1 m ρ c)).trans ((V1_other m ρ c _ (fun h => absurd (Proc.devRef_injective _ h) (by decide)) (fun h => absurd (Proc.devRef_injective _ h) (by decide)) (fun h => absurd (Proc.devRef_injective _ h) (by decide))).trans (prefix_arg2 (V₀ m ρ c)))

/-- The run with the result named and the arguments kept. -/
theorem run_named : θ_run defs (onTc (τ := τ) (main (F := F))) ⟨m, fun _ => 0, ρ⟩ (fun r => ∀ c : Dev nD,
      r.2.mem ((c.tc : Thread nD τ).loc main_v15) = Vend m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ mem_v15, (h c _ mem_arg0).trans (Vend_arg0 m ρ c), (h c _ mem_arg1).trans (Vend_arg1 m ρ c),
    (h c _ mem_arg2).trans (Vend_arg2 m ρ c)⟩) (run_main m ρ)

/-- THE FRAME: @main runs to its end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Mmd

end
-- ==== Proof.FinalArrays.lean ====
/-
  The three accumulator arrays when the region ends.

  Each accumulator is a [1, 1] array whose one block is the whole array, at block index (0, 0) at every grid point, and
  it is written back at the last grid point only, point 255. So the array ends holding what the body left in the
  accumulator's buffer at point 255: the one write-back writes the whole array, and the block read through zero offsets
  is the array itself.
-/
import proofs.«108402_j76991583748198_1_alg».proof.Proof.FrameData
import Idealize.ShloMosaic.Lib.Pipeline.Value
import Idealize.ShloMosaic.Lib.ValueIdx

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/- The accumulation is used only through the equations already proved for it, never unfolded. -/
attribute [local irreducible] outsAt iblk

/-! ## Accumulator 0 -/

/-- Block (0, 0) of accumulator 0's [1, 1] array, read through zero offsets, is the array: cutting a buffer's
    contents to the block is reading them through the block. -/
theorem cut_read4 (c : Dev nD) (t : Fin cfg0.N) (X : Buf (Elt F) ((c : Thread nD τ).loc main_v2_0)) :
    (cfg0.win 4).cut (grid0.coords t) X = ((cfg0.win 4).blk t).view.read (Elt F) X := by
  have hz' : (fun a => win0_4.index t a * main_v2_0.ty.shape.size a) = fun _ => 0 :=
    funext fun a => by fin_cases a <;> rfl
  exact (Memref.read_access_unit_zero (Elt F) main_v2_0 hz' (fun a => by rw [congrFun hz' a]; simp) X).symm

/-- What accumulator 0's array ends holding: what the body left in its buffer at the last point `t`. -/
abbrev fin4val (c : Dev nD) (t : Fin cfg0.N) : Buf (Elt F) ((c : Thread nD τ).loc main_v2_0) :=
  (outsAt m ρ c t.val t.isLt).1

/-- The one write-back of accumulator 0, at the last point, writes that. -/
theorem flushed_eq4 (c : Dev nD) (t : Fin cfg0.N) (ht : t.val = 255) (t' : Fin cfg0.N) (hf : (cfg0.win 4).flush t' = true) :
    (dats m ρ 0 c).flushed 4 t' = ((cfg0.win 4).blk t').view.read (Elt F) (fin4val m ρ c t) := by
  have hN : cfg0.N = 256 := N_0
  have hl : t'.val = 255 := by have := (flush0_4 t').mp hf; have := t'.isLt; omega
  obtain rfl : t' = t := Fin.ext (hl.trans ht.symm)
  show (cfg0.win 4).cut (grid0.coords t') ((dats m ρ 0 c).after 4 t') = _
  rw [after4]
  exact cut_read4 c t' _

/-- Every block of accumulator 0 covers the array's one entry. -/
theorem cover4 (t : Fin cfg0.N) (i : S1x1.Idx) : i ∈ ((View.whole main_v2_0).slice (win0_4.rect t)).set := by
  rw [View.set_slice_whole, Rect.mem_set_unit]
  intro a
  have h0 : (i 0 : Nat) < 1 := (i 0).isLt
  have h1 : (i 1 : Nat) < 1 := (i 1).isLt
  match a with
  | ⟨0, _⟩ =>
    show win0_4.index t 0 * win0_4.size 0 ≤ (i 0 : Nat) ∧ (i 0 : Nat) < win0_4.index t 0 * win0_4.size 0 + win0_4.xsize (grid0.coords t) 0
    rw [show win0_4.index t 0 * win0_4.size 0 = 0 from rfl, show win0_4.xsize (grid0.coords t) 0 = 1 from rfl]; omega
  | ⟨1, _⟩ =>
    show win0_4.index t 1 * win0_4.size 1 ≤ (i 1 : Nat) ∧ (i 1 : Nat) < win0_4.index t 1 * win0_4.size 1 + win0_4.xsize (grid0.coords t) 1
    rw [show win0_4.index t 1 * win0_4.size 1 = 0 from rfl, show win0_4.xsize (grid0.coords t) 1 = 1 from rfl]; omega

/-- Accumulator 0's array ends holding what the body left at the last point. -/
theorem finArr4 (c : Dev nD) (t : Fin cfg0.N) (ht : t.val = 255) :
    (dats m ρ 0 c).arrAt 4 cfg0.N = fin4val m ρ c t :=
  (dats m ρ 0 c).arrAt_eq_of_cover 4 (fin4val m ρ c t) (flushed_eq4 m ρ c t ht) fun i =>
    ⟨t, (flush0_4 t).mpr (by rw [ht]), cover4 t i⟩

/-- The same, read at the array's one entry. -/
theorem fin4_apply (c : Dev nD) (t : Fin cfg0.N) (ht : t.val = 255) :
    (dats m ρ 0 c).arrAt 4 cfg0.N (ValueIdx.ix2 0 0) = (outsAt m ρ c t.val t.isLt).1 (ValueIdx.ix2 0 0) :=
  congrFun (finArr4 m ρ c t ht) (ValueIdx.ix2 0 0)

/-! ## Accumulator 1 -/

/-- Block (0, 0) of accumulator 1's [1, 1] array, read through zero offsets, is the array: cutting a buffer's
    contents to the block is reading them through the block. -/
theorem cut_read5 (c : Dev nD) (t : Fin cfg0.N) (X : Buf (Elt F) ((c : Thread nD τ).loc main_v2_1)) :
    (cfg0.win 5).cut (grid0.coords t) X = ((cfg0.win 5).blk t).view.read (Elt F) X := by
  have hz' : (fun a => win0_5.index t a * main_v2_1.ty.shape.size a) = fun _ => 0 :=
    funext fun a => by fin_cases a <;> rfl
  exact (Memref.read_access_unit_zero (Elt F) main_v2_1 hz' (fun a => by rw [congrFun hz' a]; simp) X).symm

/-- What accumulator 1's array ends holding: what the body left in its buffer at the last point `t`. -/
abbrev fin5val (c : Dev nD) (t : Fin cfg0.N) : Buf (Elt F) ((c : Thread nD τ).loc main_v2_1) :=
  (outsAt m ρ c t.val t.isLt).2.1

/-- The one write-back of accumulator 1, at the last point, writes that. -/
theorem flushed_eq5 (c : Dev nD) (t : Fin cfg0.N) (ht : t.val = 255) (t' : Fin cfg0.N) (hf : (cfg0.win 5).flush t' = true) :
    (dats m ρ 0 c).flushed 5 t' = ((cfg0.win 5).blk t').view.read (Elt F) (fin5val m ρ c t) := by
  have hN : cfg0.N = 256 := N_0
  have hl : t'.val = 255 := by have := (flush0_5 t').mp hf; have := t'.isLt; omega
  obtain rfl : t' = t := Fin.ext (hl.trans ht.symm)
  show (cfg0.win 5).cut (grid0.coords t') ((dats m ρ 0 c).after 5 t') = _
  rw [after5]
  exact cut_read5 c t' _

/-- Every block of accumulator 1 covers the array's one entry. -/
theorem cover5 (t : Fin cfg0.N) (i : S1x1.Idx) : i ∈ ((View.whole main_v2_1).slice (win0_5.rect t)).set := by
  rw [View.set_slice_whole, Rect.mem_set_unit]
  intro a
  have h0 : (i 0 : Nat) < 1 := (i 0).isLt
  have h1 : (i 1 : Nat) < 1 := (i 1).isLt
  match a with
  | ⟨0, _⟩ =>
    show win0_5.index t 0 * win0_5.size 0 ≤ (i 0 : Nat) ∧ (i 0 : Nat) < win0_5.index t 0 * win0_5.size 0 + win0_5.xsize (grid0.coords t) 0
    rw [show win0_5.index t 0 * win0_5.size 0 = 0 from rfl, show win0_5.xsize (grid0.coords t) 0 = 1 from rfl]; omega
  | ⟨1, _⟩ =>
    show win0_5.index t 1 * win0_5.size 1 ≤ (i 1 : Nat) ∧ (i 1 : Nat) < win0_5.index t 1 * win0_5.size 1 + win0_5.xsize (grid0.coords t) 1
    rw [show win0_5.index t 1 * win0_5.size 1 = 0 from rfl, show win0_5.xsize (grid0.coords t) 1 = 1 from rfl]; omega

/-- Accumulator 1's array ends holding what the body left at the last point. -/
theorem finArr5 (c : Dev nD) (t : Fin cfg0.N) (ht : t.val = 255) :
    (dats m ρ 0 c).arrAt 5 cfg0.N = fin5val m ρ c t :=
  (dats m ρ 0 c).arrAt_eq_of_cover 5 (fin5val m ρ c t) (flushed_eq5 m ρ c t ht) fun i =>
    ⟨t, (flush0_5 t).mpr (by rw [ht]), cover5 t i⟩

/-- The same, read at the array's one entry. -/
theorem fin5_apply (c : Dev nD) (t : Fin cfg0.N) (ht : t.val = 255) :
    (dats m ρ 0 c).arrAt 5 cfg0.N (ValueIdx.ix2 0 0) = (outsAt m ρ c t.val t.isLt).2.1 (ValueIdx.ix2 0 0) :=
  congrFun (finArr5 m ρ c t ht) (ValueIdx.ix2 0 0)

/-! ## Accumulator 2 -/

/-- Block (0, 0) of accumulator 2's [1, 1] array, read through zero offsets, is the array: cutting a buffer's
    contents to the block is reading them through the block. -/
theorem cut_read6 (c : Dev nD) (t : Fin cfg0.N) (X : Buf (Elt F) ((c : Thread nD τ).loc main_v2_2)) :
    (cfg0.win 6).cut (grid0.coords t) X = ((cfg0.win 6).blk t).view.read (Elt F) X := by
  have hz' : (fun a => win0_6.index t a * main_v2_2.ty.shape.size a) = fun _ => 0 :=
    funext fun a => by fin_cases a <;> rfl
  exact (Memref.read_access_unit_zero (Elt F) main_v2_2 hz' (fun a => by rw [congrFun hz' a]; simp) X).symm

/-- What accumulator 2's array ends holding: what the body left in its buffer at the last point `t`. -/
abbrev fin6val (c : Dev nD) (t : Fin cfg0.N) : Buf (Elt F) ((c : Thread nD τ).loc main_v2_2) :=
  (outsAt m ρ c t.val t.isLt).2.2

/-- The one write-back of accumulator 2, at the last point, writes that. -/
theorem flushed_eq6 (c : Dev nD) (t : Fin cfg0.N) (ht : t.val = 255) (t' : Fin cfg0.N) (hf : (cfg0.win 6).flush t' = true) :
    (dats m ρ 0 c).flushed 6 t' = ((cfg0.win 6).blk t').view.read (Elt F) (fin6val m ρ c t) := by
  have hN : cfg0.N = 256 := N_0
  have hl : t'.val = 255 := by have := (flush0_6 t').mp hf; have := t'.isLt; omega
  obtain rfl : t' = t := Fin.ext (hl.trans ht.symm)
  show (cfg0.win 6).cut (grid0.coords t') ((dats m ρ 0 c).after 6 t') = _
  rw [after6]
  exact cut_read6 c t' _

/-- Every block of accumulator 2 covers the array's one entry. -/
theorem cover6 (t : Fin cfg0.N) (i : S1x1.Idx) : i ∈ ((View.whole main_v2_2).slice (win0_6.rect t)).set := by
  rw [View.set_slice_whole, Rect.mem_set_unit]
  intro a
  have h0 : (i 0 : Nat) < 1 := (i 0).isLt
  have h1 : (i 1 : Nat) < 1 := (i 1).isLt
  match a with
  | ⟨0, _⟩ =>
    show win0_6.index t 0 * win0_6.size 0 ≤ (i 0 : Nat) ∧ (i 0 : Nat) < win0_6.index t 0 * win0_6.size 0 + win0_6.xsize (grid0.coords t) 0
    rw [show win0_6.index t 0 * win0_6.size 0 = 0 from rfl, show win0_6.xsize (grid0.coords t) 0 = 1 from rfl]; omega
  | ⟨1, _⟩ =>
    show win0_6.index t 1 * win0_6.size 1 ≤ (i 1 : Nat) ∧ (i 1 : Nat) < win0_6.index t 1 * win0_6.size 1 + win0_6.xsize (grid0.coords t) 1
    rw [show win0_6.index t 1 * win0_6.size 1 = 0 from rfl, show win0_6.xsize (grid0.coords t) 1 = 1 from rfl]; omega

/-- Accumulator 2's array ends holding what the body left at the last point. -/
theorem finArr6 (c : Dev nD) (t : Fin cfg0.N) (ht : t.val = 255) :
    (dats m ρ 0 c).arrAt 6 cfg0.N = fin6val m ρ c t :=
  (dats m ρ 0 c).arrAt_eq_of_cover 6 (fin6val m ρ c t) (flushed_eq6 m ρ c t ht) fun i =>
    ⟨t, (flush0_6 t).mpr (by rw [ht]), cover6 t i⟩

/-- The same, read at the array's one entry. -/
theorem fin6_apply (c : Dev nD) (t : Fin cfg0.N) (ht : t.val = 255) :
    (dats m ρ 0 c).arrAt 6 cfg0.N (ValueIdx.ix2 0 0) = (outsAt m ρ c t.val t.isLt).2.2 (ValueIdx.ix2 0 0) :=
  congrFun (finArr6 m ρ c t ht) (ValueIdx.ix2 0 0)

end Cert.KernelIdeal.Mmd

end
-- ==== Proof.FramePieces.lean ====
/-
  What the body's stores leave in each accumulator's buffer, as a value.

  At the first grid point the body stores the zero vector in each accumulator, reads it back, and stores the
  accumulation step of the point's sum and that zero; the last store covers the accumulator's one entry, so the buffer
  ends holding that step, and the value read back between the two stores is the zero just stored. At every later
  point the body reads the running value and stores the step of the point's sum and that value; its one store
  covers the entry. Every load reads a whole buffer through the rectangle at zero offsets, so it reads the
  buffer's contents: the four input blocks, and the accumulator's running value.
  All six statements hold for every float instance.
-/
import proofs.«108402_j76991583748198_1_alg».proof.Proof.FrameData
import Idealize.ShloMosaic.Lib.Pipeline.Value

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL.Sem

variable {F : FTy → Type} [FloatOps F]

/-- The offsets of every rectangle the body loads and stores through are zero on both axes. -/
theorem offsets_zero : (![0, 0] : Fin 2 → Nat) = fun _ => 0 := funext fun a => by fin_cases a <;> rfl

/-! ## The first grid point: the zero is stored, read back, and added to -/

set_option maxHeartbeats 1000000 in
/-- The first accumulator after the first point: the step of the sum over the pairs of rows of the first matrix's two blocks and the zero just stored. -/
theorem outA4_eq (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) :
    outA4 c i arg2 harg2 arg3 harg3 arg4 harg4 arg5 harg5 arg6 harg6 arg7 harg7 arg8 harg8 hc0 x0 x1 x2 x3 = k0_pay1 (sXX x0 x1) k0_pay4 := by
  unfold outA4
  rw [View.read_writes_eq_canon _ _ _ (coverA4 c i arg2 harg2 arg3 harg3 arg4 harg4 arg5 harg5 arg6 harg6 arg7 harg7 arg8 harg8 hc0 x0 x1 x2 x3)]
  unfold kernelRunA
  dsimp only
  sl_unfold_words
  rw [View.canon_cons_unit_zero (S := S1x1) offsets_zero, View.readCov_unit_zero (S := S1x1) _ offsets_zero]
  simp only [View.readAt_eq_ld, harg2.read_unread, harg3.read_unread,
    View.ld_unit_zero (S := S256x2500) offsets_zero]
  rfl

set_option maxHeartbeats 1000000 in
/-- The second accumulator after the first point: the same for the second matrix's two blocks. -/
theorem outA5_eq (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) :
    outA5 c i arg2 harg2 arg3 harg3 arg4 harg4 arg5 harg5 arg6 harg6 arg7 harg7 arg8 harg8 hc0 x0 x1 x2 x3 = k0_pay2 (sYY x2 x3) k0_pay5 := by
  unfold outA5
  rw [View.read_writes_eq_canon _ _ _ (coverA5 c i arg2 harg2 arg3 harg3 arg4 harg4 arg5 harg5 arg6 harg6 arg7 harg7 arg8 harg8 hc0 x0 x1 x2 x3)]
  unfold kernelRunA
  dsimp only
  sl_unfold_words
  rw [View.canon_cons_unit_zero (S := S1x1) offsets_zero, View.readCov_unit_zero (S := S1x1) _ offsets_zero]
  simp only [View.readAt_eq_ld, harg4.read_unread, harg5.read_unread,
    View.ld_unit_zero (S := S256x2500) offsets_zero]
  rfl

set_option maxHeartbeats 1000000 in
/-- The third accumulator after the first point: the same for a block of the first matrix against a block of the second. -/
theorem outA6_eq (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : cond0 i)
    (x0 x1 x2 x3 : Vec F S256x2500 .f32) :
    outA6 c i arg2 harg2 arg3 harg3 arg4 harg4 arg5 harg5 arg6 harg6 arg7 harg7 arg8 harg8 hc0 x0 x1 x2 x3 = k0_pay3 (sXY x0 x3) k0_pay6 := by
  unfold outA6
  rw [View.read_writes_eq_canon _ _ _ (coverA6 c i arg2 harg2 arg3 harg3 arg4 harg4 arg5 harg5 arg6 harg6 arg7 harg7 arg8 harg8 hc0 x0 x1 x2 x3)]
  unfold kernelRunA
  dsimp only
  sl_unfold_words
  rw [View.canon_cons_unit_zero (S := S1x1) offsets_zero, View.readCov_unit_zero (S := S1x1) _ offsets_zero]
  simp only [View.readAt_eq_ld, harg2.read_unread, harg5.read_unread,
    View.ld_unit_zero (S := S256x2500) offsets_zero]
  rfl

/-! ## Every later grid point: the running value is read and added to -/

set_option maxHeartbeats 1000000 in
/-- The first accumulator after a later point: the step of the point's sum and the running value it held. -/
theorem outB4_eq (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) :
    outB4 c i arg2 harg2 arg3 harg3 arg4 harg4 arg5 harg5 arg6 harg6 arg7 harg7 arg8 harg8 hc0 x0 x1 x2 x3 xo4 xo5 xo6 = k0_pay1 (sXX x0 x1) xo4 := by
  unfold outB4
  rw [View.read_writes_eq_canon _ _ _ (coverB4 c i arg2 harg2 arg3 harg3 arg4 harg4 arg5 harg5 arg6 harg6 arg7 harg7 arg8 harg8 hc0 x0 x1 x2 x3 xo4 xo5 xo6)]
  unfold kernelRunB
  dsimp only
  sl_unfold_words
  rw [View.canon_unit_zero (S := S1x1) offsets_zero]
  simp only [View.readAt_eq_ld, harg2.read_unread, harg3.read_unread, harg6.read_unread,
    View.ld_unit_zero (S := S256x2500) offsets_zero, View.ld_unit_zero (S := S1x1) offsets_zero]
  rfl

set_option maxHeartbeats 1000000 in
/-- The second accumulator after a later point. -/
theorem outB5_eq (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) :
    outB5 c i arg2 harg2 arg3 harg3 arg4 harg4 arg5 harg5 arg6 harg6 arg7 harg7 arg8 harg8 hc0 x0 x1 x2 x3 xo4 xo5 xo6 = k0_pay2 (sYY x2 x3) xo5 := by
  unfold outB5
  rw [View.read_writes_eq_canon _ _ _ (coverB5 c i arg2 harg2 arg3 harg3 arg4 harg4 arg5 harg5 arg6 harg6 arg7 harg7 arg8 harg8 hc0 x0 x1 x2 x3 xo4 xo5 xo6)]
  unfold kernelRunB
  dsimp only
  sl_unfold_words
  rw [View.canon_unit_zero (S := S1x1) offsets_zero]
  simp only [View.readAt_eq_ld, harg4.read_unread, harg5.read_unread, harg7.read_unread,
    View.ld_unit_zero (S := S256x2500) offsets_zero, View.ld_unit_zero (S := S1x1) offsets_zero]
  rfl

set_option maxHeartbeats 1000000 in
/-- The third accumulator after a later point. -/
theorem outB6_eq (c : Dev nD) (i : grid0.Coords)
    (arg2 : Memref sig .tc .vmem S256x2500 .f32) (harg2 : arg2.IsWhole) (arg3 : Memref sig .tc .vmem S256x2500 .f32) (harg3 : arg3.IsWhole)
    (arg4 : Memref sig .tc .vmem S256x2500 .f32) (harg4 : arg4.IsWhole) (arg5 : Memref sig .tc .vmem S256x2500 .f32) (harg5 : arg5.IsWhole)
    (arg6 : Memref sig .tc .vmem S1x1 .f32) (harg6 : arg6.IsWhole) (arg7 : Memref sig .tc .vmem S1x1 .f32) (harg7 : arg7.IsWhole)
    (arg8 : Memref sig .tc .vmem S1x1 .f32) (harg8 : arg8.IsWhole) (hc0 : ¬cond0 i)
    (x0 x1 x2 x3 : Vec F S256x2500 .f32) (xo4 xo5 xo6 : Vec F S1x1 .f32) :
    outB6 c i arg2 harg2 arg3 harg3 arg4 harg4 arg5 harg5 arg6 harg6 arg7 harg7 arg8 harg8 hc0 x0 x1 x2 x3 xo4 xo5 xo6 = k0_pay3 (sXY x0 x3) xo6 := by
  unfold outB6
  rw [View.read_writes_eq_canon _ _ _ (coverB6 c i arg2 harg2 arg3 harg3 arg4 harg4 arg5 harg5 arg6 harg6 arg7 harg7 arg8 harg8 hc0 x0 x1 x2 x3 xo4 xo5 xo6)]
  unfold kernelRunB
  dsimp only
  sl_unfold_words
  rw [View.canon_unit_zero (S := S1x1) offsets_zero]
  simp only [View.readAt_eq_ld, harg2.read_unread, harg5.read_unread, harg8.read_unread,
    View.ld_unit_zero (S := S256x2500) offsets_zero, View.ld_unit_zero (S := S1x1) offsets_zero]
  rfl

end Cert.KernelIdeal.Mmd

end
-- ==== Proof.Weights.lean ====
/-
  The two spellings of a pair's weight are one extended real, and the float words this needs, evaluated once.

  The word `0x40000000` denotes the real `2` and `0xBF000000` the real `−1/2`. For every extended real `d`,
  `(−d) / 2 = (−d) · ½ = −(d · ½) = d · (−½)`: dividing by a nonzero real is multiplying by its reciprocal on all of
  the extended reals, and a sign moves across a product there without any finiteness.
-/
import proofs.«108402_j76991583748198_1_alg».proof.Proof.Spec

noncomputable section

open scoped BigOperators

namespace Cert.Mmd

open Idealize.ShloMosaic Idealize.ShloMosaic.ValueIdx

/-- The word `2.0` denotes the real `2`. -/
theorem w2_eq : w2 = ((2 : ℝ) : EReal) := by
  simp [w2, Ideal.ofBits, Ideal.ieee, -EReal.coe_mul]; norm_num

/-- The word `-0.5` denotes the real `−1/2`. -/
theorem wMinusHalf_eq : wMinusHalf = ((-(1 / 2) : ℝ) : EReal) := by
  simp [wMinusHalf, Ideal.ofBits, Ideal.ieee, -EReal.coe_mul]; norm_num

/-- The word `+0.0` denotes `0`. -/
theorem w0_eq : w0 = 0 := by
  simp [w0, Ideal.ofBits, Ideal.ieee]

/-- Minus `d` over two is `d` times minus a half, for every extended real `d`. -/
theorem mul_minusHalf (d : EReal) : d * wMinusHalf = Ideal.div (-d) w2 := by
  rw [w2_eq, wMinusHalf_eq, Ideal.div_coe (by norm_num : (2 : ℝ) ≠ 0), EReal.coe_neg, mul_neg, neg_mul]

/-- The two spellings of a pair's weight agree. -/
theorem weightMul_eq_weightDiv {n m : Nat} (X : Mat n) (Y : Mat m) (r : Fin n) (c : Fin m) : weightMul X Y r c = weightDiv X Y r c := by
  unfold weightMul weightDiv; rw [mul_minusHalf]

end Cert.Mmd

end
-- ==== Proof.LibMatmulAt.lean ====
/-
  General lemmas, on the extended reals and on index arithmetic, with no program in them:
  a plain matrix product into a zero accumulator read at one entry, and two changes of shape that only move a unit axis.
-/
import Idealize.ShloMosaic.Lib.Pipeline.Value
import Idealize.ShloMosaic.Lib.ValueIdx
import Idealize.ShloMosaic.PureOps.Ideal.Laws

noncomputable section

namespace Cert.LibMatmulAt

open Idealize.ShloMosaic Idealize.ShloMosaic.ValueIdx

/-- A product of an [M, K] by a [K, N] matrix into a zero accumulator, read at row `p`, column `j`: the sum over the
    contracted axis of row `p` of the left factor against column `j` of the right one. The four hypotheses say where
    the dimension numbers put the output's coordinates and the contraction's in the operands. -/
theorem matmul_zero_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    matmul d prec lhs rhs (constant ⟨2, ![M, N]⟩ .f32 0x00000000#32) (ix2 p j) = ∑ k : Fin K, lhs (ix2 p k) * rhs (ix2 k j) := by
  show FloatOps.matmul d prec lhs rhs (constant ⟨2, ![M, N]⟩ .f32 0x00000000#32) (ix2 p j) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A vector of `a` numbers viewed as a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of `a` numbers viewed as one row reads, at `(u, i)`, the column at `(i, v)`. -/
theorem shapeCast_a1_1a_apply {α : Type} {a : ℕ} (x : (⟨2, ![a, 1]⟩ : Shape).Idx → α) (h : (⟨2, ![a, 1]⟩ : Shape).ShapeCasts ⟨2, ![1, a]⟩)
    (u v : Fin 1) (i : Fin a) : shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.mul_one, Nat.add_zero, Nat.zero_mul, Nat.zero_add])

end Cert.LibMatmulAt

end
-- ==== Proof.LibRowReads.lean ====
/-
  General lemmas with no program in them: sums along the rows of a matrix, a column summed to one number, and changes of
  shape that only move unit axes, each read at an index; and a one-bit test widened to a word and converted, read as 0 or 1.
-/
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.LibRowReads

open Idealize.ShloMosaic Idealize.ShloMosaic.ValueIdx

/-- A one-bit word widened to 32 bits and converted as a signed integer is the bit as a number, 0 or 1. -/
theorem sitofp_widened_bit {φ : FTy} (b : BitVec 1) :
    (FloatOps.sitofp (F := Ideal) φ (b.setWidth 32) : EReal) = ((b.toNat : ℝ) : EReal) := by
  show ((((b.setWidth 32).toInt : ℤ) : ℝ) : EReal) = ((b.toNat : ℝ) : EReal)
  rw [toInt_setWidth_bit]
  norm_cast

/-- The sum along the rows of an [R, K] matrix, read at row `r`: the sum of that row's entries. -/
theorem rowSum_apply {R K : ℕ} (src : FVec Ideal ⟨2, ![R, K]⟩ .f32)
    (h : (⟨2, ![R, K]⟩ : Shape).Reduces [1] ⟨1, ![R]⟩) (hφ : FTy.f32 = FTy.f32 ∨ FTy.f32 = FTy.bf16)
    (hacc : (0x00000000#32 : BitVec 32) = 0x00000000#32) (r : Fin R) :
    multiReduction .add [1] ⟨1, ![R]⟩ src 0x00000000#32 h hφ hacc (ix1 r) = ∑ k : Fin K, src (ix2 r k) :=
  (Ideal.multiReduction_add_single src 0x00000000#32 h hφ hacc (ix1 r)).trans
    (Finset.sum_congr rfl fun k _ => congrArg src (funext fun a => Fin.ext (by
      match a with
      | ⟨0, _⟩ => rfl
      | ⟨1, _⟩ => rfl)))

/-- A one-entry vector viewed under any shape reads its one entry everywhere. -/
theorem shapeCast_of_one {α : Type} {t : Shape} (v : (⟨1, ![1]⟩ : Shape).Idx → α) (h : (⟨1, ![1]⟩ : Shape).ShapeCasts t)
    (j : t.Idx) : shapeCast t v h j = v (ix1 0) :=
  shapeCast_apply v h j (ix1 0) (by
    have hlt := (t.rowMajor j).isLt
    have h1 : t.numel = 1 := h
    rw [Shape.rowMajor_val_one]
    show (0 : ℕ) = (t.rowMajor j).val
    omega)

/-- The indices of a [1, n, 1] block are its middle coordinates. -/
def idxEquiv1n1 (n : ℕ) : (⟨3, ![1, n, 1]⟩ : Shape).Idx ≃ Fin n where
  toFun i := i 1
  invFun r := ix3 0 r 0
  left_inv i := funext fun a => Fin.ext (by
    have h0 : (i 0).val < 1 := (i 0).isLt
    have h2 : (i 2).val < 1 := (i 2).isLt
    match a with
    | ⟨0, _⟩ => show (0 : ℕ) = (i 0).val; omega
    | ⟨1, _⟩ => rfl
    | ⟨2, _⟩ => show (0 : ℕ) = (i 2).val; omega)
  right_inv _ := rfl

/-- So a sum over a [1, n, 1] block is the sum over its middle coordinate. -/
theorem sum_idx_1n1 {M : Type*} [AddCommMonoid M] {n : ℕ} (f : (⟨3, ![1, n, 1]⟩ : Shape).Idx → M) :
    ∑ i, f i = ∑ r : Fin n, f (ix3 0 r 0) := by
  rw [← Equiv.sum_comp (idxEquiv1n1 n).symm f]
  rfl

/-- The sum of a [1, n, 1] block over its last two axes, read at its one index: the sum of the block's entries. -/
theorem blockSum_apply {n : ℕ} (src : FVec Ideal ⟨3, ![1, n, 1]⟩ .f32)
    (h : (⟨3, ![1, n, 1]⟩ : Shape).Reduces [1, 2] ⟨1, ![1]⟩) (hφ : FTy.f32 = FTy.f32 ∨ FTy.f32 = FTy.bf16)
    (hacc : (0x00000000#32 : BitVec 32) = 0x00000000#32) (j : (⟨1, ![1]⟩ : Shape).Idx) :
    multiReduction .add [1, 2] ⟨1, ![1]⟩ src 0x00000000#32 h hφ hacc j = ∑ r : Fin n, src (ix3 0 r 0) :=
  (Ideal.multiReduction_add_total src 0x00000000#32 h (fun b => by match b with | ⟨0, _⟩ => rfl) hφ hacc j).trans (sum_idx_1n1 src)

/-- A column of `n` numbers viewed as a [1, n, 1] block reads, at `(u, r, u')`, the column at `(r, v)`. -/
theorem shapeCast_n1_1n1_apply {α : Type} {n : ℕ} (x : (⟨2, ![n, 1]⟩ : Shape).Idx → α)
    (h : (⟨2, ![n, 1]⟩ : Shape).ShapeCasts ⟨3, ![1, n, 1]⟩) (u u' v : Fin 1) (r : Fin n) :
    shapeCast ⟨3, ![1, n, 1]⟩ x h (ix3 u r u') = x (ix2 r v) :=
  shapeCast_apply x h _ _ (by
    have hu : u.val = 0 := by omega
    have hu' : u'.val = 0 := by omega
    have hv : v.val = 0 := by omega
    rw [Shape.rowMajor_val_two, Shape.rowMajor_val_three]
    show r.val * 1 + v.val = (u.val * n + r.val) * 1 + u'.val
    rw [hu, hu', hv]
    omega)

end Cert.LibRowReads

end
-- ==== Proof.BlockPayload.lean ====
/-
  The kernel's arithmetic at one grid point, read at an index, over the extended reals.

  From four loaded blocks of 256 rows the body forms, for a pair of blocks `X`, `Y`, the matrix of inner products
  `⟨X p, Y q⟩` (a matrix product of `X` with the transpose of `Y` into a zero accumulator), the column of squared norms
  `|X p|²` and the row of squared norms `|Y q|²`, spreads the column and the row over the `256 × 256` pairs, and sums
  `exp (max ((|X p|² + |Y q|²) − 2 · ⟨X p, Y q⟩) 0 · (−0.5))` first along each row and then down the resulting column.
  Each layout step moves one index to one index and each sum is a plain finite sum, so the value stored is the
  specification's `pairSum X Y`. The three accumulators add the stored value to the previous one, and the first grid
  point stores the zero word.
-/
import proofs.«108402_j76991583748198_1_alg».proof.Proof.Gen.KernelIdeal.Skeleton
import proofs.«108402_j76991583748198_1_alg».proof.Proof.Spec
import proofs.«108402_j76991583748198_1_alg».proof.Proof.Weights
import proofs.«108402_j76991583748198_1_alg».proof.Proof.LibMatmulAt
import proofs.«108402_j76991583748198_1_alg».proof.Proof.LibRowReads
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Mmd.Block

open Idealize.ShloMosaic Idealize.ShloMosaic.ValueIdx
open Cert.KernelIdeal Cert.KernelIdeal.Gen
open Cert.LibMatmulAt Cert.LibRowReads

/-! ## Two general reads: a column spread over columns, and a one-column matrix summed down -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum down the one column of an `[R, 1]` matrix, read at its one index: the sum of the column's entries. -/
theorem colSum_apply {R : ℕ} (src : FVec Ideal ⟨2, ![R, 1]⟩ .f32)
    (h : (⟨2, ![R, 1]⟩ : Shape).Reduces [0] ⟨1, ![1]⟩) (hφ : FTy.f32 = FTy.f32 ∨ FTy.f32 = FTy.bf16)
    (hacc : (0x00000000#32 : BitVec 32) = 0x00000000#32) (u : Fin 1) :
    multiReduction .add [0] ⟨1, ![1]⟩ src 0x00000000#32 h hφ hacc (ix1 u) = ∑ r : Fin R, src (ix2 r u) :=
  (Ideal.multiReduction_add_single src 0x00000000#32 h hφ hacc (ix1 u)).trans
    (Finset.sum_congr rfl fun k _ => congrArg src (funext fun a => Fin.ext (by
      match a with
      | ⟨0, _⟩ => rfl
      | ⟨1, _⟩ => rfl)))

/-! ## Squared norms of the rows of a block -/

/-- The column of squared norms of the first operand's rows, read at row `p`. -/
theorem sqNormCol16_apply (x : Vec Ideal S256x2500 .f32) (p : Fin 256) (u : Fin 1) :
    k0_pay16 (F := Ideal) x (ix2 p u) = Cert.Mmd.sqNorm (n := 256) x p := by
  unfold k0_pay16 k0_pay7
  rw [shapeCast_self]
  refine (shapeCast_a_a1_apply _ _ p u).trans ?_
  refine (rowSum_apply _ _ _ _ p).trans ?_
  rfl

/-- The same column for the third loaded block. -/
theorem sqNormCol17_apply (x : Vec Ideal S256x2500 .f32) (p : Fin 256) (u : Fin 1) :
    k0_pay17 (F := Ideal) x (ix2 p u) = Cert.Mmd.sqNorm (n := 256) x p := by
  unfold k0_pay17 k0_pay9
  rw [shapeCast_self]
  refine (shapeCast_a_a1_apply _ _ p u).trans ?_
  refine (rowSum_apply _ _ _ _ p).trans ?_
  rfl

/-- The row of squared norms of the fourth loaded block's rows — the column, transposed — read at column `q`. -/
theorem sqNormRow18_apply (x : Vec Ideal S256x2500 .f32) (u : Fin 1) (q : Fin 256) :
    k0_pay18 (F := Ideal) x (ix2 u q) = Cert.Mmd.sqNorm (n := 256) x q := by
  unfold k0_pay18 k0_pay10
  rw [shapeCast_self]
  refine (transpose_ix2_apply _ _ u q).trans ?_
  refine (shapeCast_a_a1_apply _ _ q u).trans ?_
  refine (rowSum_apply _ _ _ _ q).trans ?_
  rfl

/-! ## The matrix of inner products -/

/-- Where the product's dimension numbers put the output's row: on the left factor's first axis. -/
theorem dot_lhs0 (i : S256x256.Idx) (q : dot_S256x2500_S2500x256_S256x256_1_0_0_1_n_n.contr.Idx) :
    (dot_S256x2500_S2500x256_S256x256_1_0_0_1_n_n.lhsIdx i q 0).val = (i 0).val := by
  unfold DotDims.lhsIdx
  rw [dif_neg (show ¬(0 : Fin S256x2500.rank) ∈ dot_S256x2500_S2500x256_S256x256_1_0_0_1_n_n.lhsBatch by decide),
    dif_pos (show (0 : Fin S256x2500.rank) ∈ dot_S256x2500_S2500x256_S256x256_1_0_0_1_n_n.lhsNonContracting by decide)]
  rfl

/-- The contracted coordinate is the left factor's second axis, -/
theorem dot_lhs1 (i : S256x256.Idx) (q : dot_S256x2500_S2500x256_S256x256_1_0_0_1_n_n.contr.Idx) :
    (dot_S256x2500_S2500x256_S256x256_1_0_0_1_n_n.lhsIdx i q 1).val = (q ⟨0, by decide⟩).val :=
  dot_S256x2500_S2500x256_S256x256_1_0_0_1_n_n.lhsIdx_val_of_single rfl i q

/-- and the right factor's first axis. -/
theorem dot_rhs0 (i : S256x256.Idx) (q : dot_S256x2500_S2500x256_S256x256_1_0_0_1_n_n.contr.Idx) :
    (dot_S256x2500_S2500x256_S256x256_1_0_0_1_n_n.rhsIdx i q 0).val = (q ⟨0, by decide⟩).val :=
  dot_S256x2500_S2500x256_S256x256_1_0_0_1_n_n.rhsIdx_val_of_single rfl i q

/-- The output's column is on the right factor's second axis. -/
theorem dot_rhs1 (i : S256x256.Idx) (q : dot_S256x2500_S2500x256_S256x256_1_0_0_1_n_n.contr.Idx) :
    (dot_S256x2500_S2500x256_S256x256_1_0_0_1_n_n.rhsIdx i q 1).val = (i 1).val := by
  unfold DotDims.rhsIdx
  rw [dif_neg (show ¬(1 : Fin S2500x256.rank) ∈ dot_S256x2500_S2500x256_S256x256_1_0_0_1_n_n.rhsBatch by decide),
    dif_pos (show (1 : Fin S2500x256.rank) ∈ dot_S256x2500_S2500x256_S256x256_1_0_0_1_n_n.rhsNonContracting by decide)]
  rfl

/-- The product of the first block with the transpose of the second, read at `(p, q)`: the inner product of row `p`
    of the one with row `q` of the other. -/
theorem gram13_apply (x y : Vec Ideal S256x2500 .f32) (p q : Fin 256) :
    k0_pay13 (F := Ideal) x y (ix2 p q) = Cert.Mmd.inner (n := 256) (m := 256) x y p q := by
  unfold k0_pay13 k0_pay11 k0_pay8 k0_pay7 Cert.Mmd.inner
  rw [shapeCast_self, shapeCast_self]
  refine (matmul_zero_apply dot_S256x2500_S2500x256_S256x256_1_0_0_1_n_n rfl rfl dot_lhs0 dot_lhs1 dot_rhs0 dot_rhs1 none _ _ p q).trans ?_
  refine Finset.sum_congr rfl fun k _ => ?_
  rw [transpose_ix2_apply]
  rfl

/-- The same product for the third and fourth blocks. -/
theorem gram14_apply (x y : Vec Ideal S256x2500 .f32) (p q : Fin 256) :
    k0_pay14 (F := Ideal) x y (ix2 p q) = Cert.Mmd.inner (n := 256) (m := 256) x y p q := by
  unfold k0_pay14 k0_pay12 k0_pay10 k0_pay9 Cert.Mmd.inner
  rw [shapeCast_self, shapeCast_self]
  refine (matmul_zero_apply dot_S256x2500_S2500x256_S256x256_1_0_0_1_n_n rfl rfl dot_lhs0 dot_lhs1 dot_rhs0 dot_rhs1 none _ _ p q).trans ?_
  refine Finset.sum_congr rfl fun k _ => ?_
  rw [transpose_ix2_apply]
  rfl

/-- The same product for the first and fourth blocks. -/
theorem gram15_apply (x y : Vec Ideal S256x2500 .f32) (p q : Fin 256) :
    k0_pay15 (F := Ideal) x y (ix2 p q) = Cert.Mmd.inner (n := 256) (m := 256) x y p q := by
  unfold k0_pay15 k0_pay12 k0_pay11 k0_pay10 k0_pay7 Cert.Mmd.inner
  rw [shapeCast_self, shapeCast_self]
  refine (matmul_zero_apply dot_S256x2500_S2500x256_S256x256_1_0_0_1_n_n rfl rfl dot_lhs0 dot_lhs1 dot_rhs0 dot_rhs1 none _ _ p q).trans ?_
  refine Finset.sum_congr rfl fun k _ => ?_
  rw [transpose_ix2_apply]
  rfl

/-! ## The sum of the pairs' weights -/

/-- The body's last stretch — add the spread norms, subtract twice the inner products, clamp at zero, multiply by
    `−0.5`, exponentiate, sum along the rows and then down the column — read at its one index, for ANY three
    `256 × 256` matrices that read, entry by entry, the inner products of `X`'s rows with `Y`'s, the squared norm of
    `X`'s row and the squared norm of `Y`'s row: the sum of the pairs' weights. -/
theorem pairPayload (G P Q : FVec Ideal S256x256 .f32) (X Y : Cert.Mmd.Mat 256)
    (hG : ∀ p q : Fin 256, G (ix2 p q) = Cert.Mmd.inner X Y p q)
    (hP : ∀ p q : Fin 256, P (ix2 p q) = Cert.Mmd.sqNorm X p)
    (hQ : ∀ p q : Fin 256, Q (ix2 p q) = Cert.Mmd.sqNorm Y q) (i : S1x1.Idx) :
    k0_pay21 (F := Ideal) G P Q i = Cert.Mmd.pairSum X Y := by
  unfold k0_pay21 Cert.Mmd.pairSum
  refine (shapeCast_of_one _ _ i).trans ?_
  refine (colSum_apply _ _ _ _ (0 : Fin 1)).trans ?_
  refine Finset.sum_congr rfl fun r _ => ?_
  refine (shapeCast_a_a1_apply _ _ r (0 : Fin 1)).trans ?_
  refine (rowSum_apply _ _ _ _ r).trans ?_
  refine Finset.sum_congr rfl fun c _ => ?_
  show Ideal.exp (max ((P (ix2 r c) + Q (ix2 r c)) - Cert.Mmd.w2 * G (ix2 r c)) Cert.Mmd.w0 * Cert.Mmd.wMinusHalf) = _
  rw [hG, hP, hQ]
  rfl

/-- The first statistic's stored value: the sum of the weights over the pairs of rows of the first two blocks. -/
theorem sxx_apply (xi xj : Vec Ideal S256x2500 .f32) (i : S1x1.Idx) :
    k0_pay21 (F := Ideal) (k0_pay13 xi xj) (k0_pay19 xi) (k0_pay20 xj) i = Cert.Mmd.pairSum (n := 256) (m := 256) xi xj := by
  refine pairPayload _ _ _ xi xj (gram13_apply xi xj) (fun p q => ?_) (fun p q => ?_) i
  · unfold k0_pay19
    exact (broadcastTo_a1_ab_apply _ _ p q).trans (sqNormCol16_apply xi p 0)
  · unfold k0_pay20 k0_pay8
    rw [shapeCast_self]
    refine (broadcastTo_1b_ab_apply _ _ p q).trans ?_
    refine (transpose_ix2_apply _ _ (0 : Fin 1) q).trans ?_
    refine (shapeCast_a_a1_apply _ _ q (0 : Fin 1)).trans ?_
    refine (rowSum_apply _ _ _ _ q).trans ?_
    rfl

/-- The second statistic's stored value: the same sum for the third and fourth blocks; here the body spreads the
    column and the row of norms inside this stretch. -/
theorem syy_apply (yi yj : Vec Ideal S256x2500 .f32) (i : S1x1.Idx) :
    k0_pay22 (F := Ideal) (k0_pay14 yi yj) (k0_pay17 yi) (k0_pay18 yj) i = Cert.Mmd.pairSum (n := 256) (m := 256) yi yj := by
  show k0_pay21 (F := Ideal) (k0_pay14 yi yj) (broadcastTo S256x256 (k0_pay17 yi) broadcasts_S256x1_S256x256)
    (broadcastTo S256x256 (k0_pay18 yj) broadcasts_S1x256_S256x256) i = _
  refine pairPayload _ _ _ yi yj (gram14_apply yi yj) (fun p q => ?_) (fun p q => ?_) i
  · exact (broadcastTo_a1_ab_apply _ _ p q).trans (sqNormCol17_apply yi p 0)
  · exact (broadcastTo_1b_ab_apply _ _ p q).trans (sqNormRow18_apply yj 0 q)

/-- The third statistic's stored value: the same sum for the first and fourth blocks. -/
theorem sxy_apply (xi yj : Vec Ideal S256x2500 .f32) (i : S1x1.Idx) :
    k0_pay23 (F := Ideal) (k0_pay15 xi yj) (k0_pay16 xi) (k0_pay18 yj) i = Cert.Mmd.pairSum (n := 256) (m := 256) xi yj := by
  show k0_pay21 (F := Ideal) (k0_pay15 xi yj) (broadcastTo S256x256 (k0_pay16 xi) broadcasts_S256x1_S256x256)
    (broadcastTo S256x256 (k0_pay18 yj) broadcasts_S1x256_S256x256) i = _
  refine pairPayload _ _ _ xi yj (gram15_apply xi yj) (fun p q => ?_) (fun p q => ?_) i
  · exact (broadcastTo_a1_ab_apply _ _ p q).trans (sqNormCol16_apply xi p 0)
  · exact (broadcastTo_1b_ab_apply _ _ p q).trans (sqNormRow18_apply yj 0 q)

/-! ## The accumulators, and the zero stored at the first grid point -/

/-- The first accumulator's new value: the previous one plus the stored sum. -/
theorem acc1_apply (v73 : FVec Ideal S1x1 .f32) (v82 : Vec Ideal S1x1 .f32) (i : S1x1.Idx) :
    k0_pay1 (F := Ideal) v73 v82 i = v82 i + v73 i := by
  unfold k0_pay1
  rw [shapeCast_self]
  rfl

/-- The second accumulator's. -/
theorem acc2_apply (v77 : FVec Ideal S1x1 .f32) (v86 : Vec Ideal S1x1 .f32) (i : S1x1.Idx) :
    k0_pay2 (F := Ideal) v77 v86 i = v86 i + v77 i := by
  unfold k0_pay2
  rw [shapeCast_self]
  rfl

/-- The third accumulator's. -/
theorem acc3_apply (v81 : FVec Ideal S1x1 .f32) (v90 : Vec Ideal S1x1 .f32) (i : S1x1.Idx) :
    k0_pay3 (F := Ideal) v81 v90 i = v90 i + v81 i := by
  unfold k0_pay3
  rw [shapeCast_self]
  rfl

/-- The first grid point stores the zero word in the first accumulator, -/
theorem zero4_apply (i : S1x1.Idx) : k0_pay4 (F := Ideal) i = Cert.Mmd.w0 := rfl

/-- in the second, -/
theorem zero5_apply (i : S1x1.Idx) : k0_pay5 (F := Ideal) i = Cert.Mmd.w0 := rfl

/-- and in the third. -/
theorem zero6_apply (i : S1x1.Idx) : k0_pay6 (F := Ideal) i = Cert.Mmd.w0 := rfl

end Cert.Mmd.Block

end
-- ==== Proof.LibBlockSum.lean ====
/-
  A finite sum of a·b terms taken as a blocks of b consecutive terms. Over any additive commutative monoid the total is the
  sum over the blocks of each block's own sum, the term at block s and offset k being the one at position k + b·s. Only the
  commutativity and associativity of the addition are used, so the statement holds on the extended reals with no
  finiteness hypothesis.
-/
import Mathlib.Algebra.BigOperators.Fin
import Mathlib.Logic.Equiv.Fin.Basic

namespace Cert.LibBlockSum

open Finset

/-- Position `k + b·s` among `a·b` positions: offset `k` inside block `s`. -/
def pos (a b : ℕ) (s : Fin a) (k : Fin b) : Fin (a * b) := finProdFinEquiv (s, k)

/-- Its value. -/
theorem pos_val (a b : ℕ) (s : Fin a) (k : Fin b) : (pos a b s k).val = k.val + b * s.val := rfl

/-- The sum over all `a·b` positions is the sum over the `a` blocks of the sum over the `b` offsets. -/
theorem sum_blocks {M : Type*} [AddCommMonoid M] (a b : ℕ) (f : Fin (a * b) → M) :
    ∑ t, f t = ∑ s : Fin a, ∑ k : Fin b, f (pos a b s k) := by
  rw [← Equiv.sum_comp finProdFinEquiv f, Fintype.sum_prod_type]
  rfl

/-- The same with the blocks counted by the naturals below `a`: when `g s` is block `s`'s sum for every `s < a`
    (whatever `g` is elsewhere), the sum of `g` over `range a` is the total. -/
theorem sum_range_blocks {M : Type*} [AddCommMonoid M] (a b : ℕ) (f : Fin (a * b) → M) (g : ℕ → M)
    (hg : ∀ s : Fin a, g s.val = ∑ k : Fin b, f (pos a b s k)) :
    ∑ s ∈ range a, g s = ∑ t, f t := by
  rw [sum_blocks, Finset.sum_range]
  exact Finset.sum_congr rfl fun s _ => hg s

end Cert.LibBlockSum
-- ==== Proof.GridTotal.lean ====
/-
  The 4096 × 4096 pairs of rows, taken as 16 × 16 blocks of 256 × 256 pairs.

  Row `256·i + p` of a 4096-row matrix is row `p` of its `i`-th block of 256 rows, so a squared norm, an inner product
  and hence a pair's weight read in the blocks are the ones read in the whole matrices. A sum over the 4096 rows is the
  sum over the 16 blocks of the sum over the 256 rows of a block; doing this for the rows of both matrices and bringing
  the two block sums outside gives the sum over all pairs as the sum of the 256 block sums. A running total that starts
  at the zero word plus the block `(0, 0)` and adds at step `t = 16·i + j` the block `(i, j)` therefore ends, at
  `t = 255`, at the sum over all pairs. Only the commutativity and associativity of the addition of the extended reals
  are used: nothing here needs a finite value.
-/
import proofs.«108402_j76991583748198_1_alg».proof.Proof.Spec
import proofs.«108402_j76991583748198_1_alg».proof.Proof.Weights
import proofs.«108402_j76991583748198_1_alg».proof.Proof.LibBlockSum

noncomputable section

open scoped BigOperators

namespace Cert.Mmd

open Idealize.ShloMosaic Idealize.ShloMosaic.ValueIdx

/-- Row `256·i + p` of the whole matrix: row `p` of block `i`. -/
def rowIx (i : Fin 16) (p : Fin 256) : Fin 4096 :=
  ⟨256 * i.val + p.val, by have := i.isLt; have := p.isLt; omega⟩

/-- An entry of a block of rows is the entry of the whole matrix in the corresponding row. -/
theorem rowsAt_ix2 (X : Mat 4096) (i : Fin 16) (p : Fin 256) (k : Fin 2500) :
    rowsAt X i (ix2 p k) = X (ix2 (rowIx i p) k) := rfl

/-- A squared norm read in a block of rows. -/
theorem sqNorm_rowsAt (X : Mat 4096) (i : Fin 16) (p : Fin 256) :
    sqNorm (rowsAt X i) p = sqNorm X (rowIx i p) := by
  unfold sqNorm; simp only [rowsAt_ix2]

/-- An inner product read in two blocks of rows. -/
theorem inner_rowsAt (X Y : Mat 4096) (i j : Fin 16) (p q : Fin 256) :
    inner (rowsAt X i) (rowsAt Y j) p q = inner X Y (rowIx i p) (rowIx j q) := by
  unfold inner; simp only [rowsAt_ix2]

/-- A pair's weight read in two blocks of rows. -/
theorem weightMul_rowsAt (X Y : Mat 4096) (i j : Fin 16) (p q : Fin 256) :
    weightMul (rowsAt X i) (rowsAt Y j) p q = weightMul X Y (rowIx i p) (rowIx j q) := by
  unfold weightMul sqDist; rw [sqNorm_rowsAt, sqNorm_rowsAt, inner_rowsAt]

/-- A sum over the 4096 rows is the sum over the 16 blocks of the sum over the 256 rows of a block. -/
theorem sum_rows {M : Type*} [AddCommMonoid M] (f : Fin 4096 → M) :
    ∑ r, f r = ∑ i : Fin 16, ∑ p : Fin 256, f (rowIx i p) := by
  have h := Cert.LibBlockSum.sum_blocks 16 256 (fun t : Fin (16 * 256) => f t)
  refine h.trans ?_
  refine Finset.sum_congr rfl fun i _ => Finset.sum_congr rfl fun p _ => ?_
  congr 1
  apply Fin.ext
  rw [Cert.LibBlockSum.pos_val]
  show p.val + 256 * i.val = 256 * i.val + p.val
  omega

/-- the 4096 x 4096 pairs, grouped into the 16 x 16 blocks of 256 x 256 pairs -/
theorem pairSum_blocks (X Y : Mat 4096) :
    pairSum X Y = ∑ i : Fin 16, ∑ j : Fin 16, pairSum (rowsAt X i) (rowsAt Y j) := by
  unfold pairSum
  simp only [weightMul_rowsAt]
  rw [sum_rows]
  refine Finset.sum_congr rfl fun i _ => ?_
  calc ∑ p : Fin 256, ∑ c : Fin 4096, weightMul X Y (rowIx i p) c
      = ∑ p : Fin 256, ∑ j : Fin 16, ∑ q : Fin 256, weightMul X Y (rowIx i p) (rowIx j q) :=
        Finset.sum_congr rfl fun p _ => sum_rows _
    _ = ∑ j : Fin 16, ∑ p : Fin 256, ∑ q : Fin 256, weightMul X Y (rowIx i p) (rowIx j q) :=
        Finset.sum_comm

/-- The block added at grid point `t`: block row `t / 16`, block column `t % 16` (the row taken below 16, which
    changes nothing for `t < 256`). -/
def gridTerm (X Y : Mat 4096) (t : ℕ) : EReal :=
  pairSum (rowsAt X ⟨t / 16 % 16, Nat.mod_lt _ (by norm_num)⟩) (rowsAt Y ⟨t % 16, Nat.mod_lt _ (by norm_num)⟩)

/-- The blocks of the 256 grid points, summed, are the sum over all pairs. -/
theorem sum_gridTerm (X Y : Mat 4096) : ∑ t ∈ Finset.range 256, gridTerm X Y t = pairSum X Y := by
  rw [pairSum_blocks, Finset.sum_range]
  have h := Cert.LibBlockSum.sum_blocks 16 16 (fun t : Fin (16 * 16) => gridTerm X Y t.val)
  refine h.trans ?_
  refine Finset.sum_congr rfl fun i _ => Finset.sum_congr rfl fun j _ => ?_
  have hi := i.isLt
  have hj := j.isLt
  unfold gridTerm
  rw [Cert.LibBlockSum.pos_val]
  congr 2 <;> apply Fin.ext <;> dsimp only <;> omega

/-- a running total over the 256 grid points t = 16·i + j, started from the zero word, is the whole sum -/
theorem grid_total (X Y : Mat 4096) (acc : ℕ → EReal)
    (h0 : acc 0 = w0 + pairSum (rowsAt X ⟨0, by omega⟩) (rowsAt Y ⟨0, by omega⟩))
    (hs : ∀ n (hn : n + 1 < 256), acc (n + 1) = acc n
      + pairSum (rowsAt X ⟨(n + 1) / 16, by omega⟩) (rowsAt Y ⟨(n + 1) % 16, by omega⟩)) :
    acc 255 = pairSum X Y := by
  have key : ∀ n, n < 256 → acc n = ∑ t ∈ Finset.range (n + 1), gridTerm X Y t := by
    intro n
    induction n with
    | zero =>
      intro _
      rw [h0, w0_eq, zero_add, Finset.sum_range_one]
      rfl
    | succ n ih =>
      intro hn
      rw [hs n hn, ih (by omega), Finset.sum_range_succ _ (n + 1)]
      congr 1
      unfold gridTerm
      congr 2 <;> apply Fin.ext <;> dsimp only <;> omega
  rw [key 255 (by norm_num)]
  exact sum_gridTerm X Y

end Cert.Mmd

end
-- ==== Proof.BlockReads.lean ====
/-
  The blocks the kernel's body loads are blocks of 256 consecutive rows of the two matrices.

  The region runs on a 16 × 16 grid; grid point `t = 16 · i + j` has coordinates `(i, j)`. Windows 0 and 1 look at
  the first `[4096, 2500]` matrix and windows 2 and 3 at the second, each through blocks of shape `[256, 2500]`: the
  index maps of windows 0 and 2 return block `(i, 0)`, those of windows 1 and 3 block `(j, 0)`. A block's entry
  `(p, k)` is the array's entry at block index times block size plus the coordinate inside the block, on each axis:
  row `256 · i + p` (or `256 · j + p`) and column `2500 · 0 + k = k`. So window 0's block at `t` is the block of rows
  number `t / 16` of the first matrix, window 1's the block number `t % 16` of the first, and windows 2 and 3's the
  same blocks of the second. The block indices are decided once over the 256 grid points.
-/
import proofs.«108402_j76991583748198_1_alg».proof.Proof.FrameBase
import proofs.«108402_j76991583748198_1_alg».proof.Proof.Spec
import proofs.«108402_j76991583748198_1_alg».proof.Proof.GridTotal
import Idealize.ShloMosaic.Lib.ValueIdx

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- A grid point's number is below 256. -/
theorem t_lt (t : Fin cfg0.N) : t.val < 256 := by
  have h : t.val < grid0.N := t.isLt
  rw [Gen.N_0] at h
  exact h

/-- The four input windows' block indices over the grid: windows 0 and 2 take block row `t / 16`, windows 1 and 3
    block row `t % 16`, and every block starts at column 0. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0 :=
  (by decide +kernel : ∀ t : Fin grid0.N, _)

/-- Window 0's block at point `t`, entry by entry: entry `(p, k)` of the block is entry `(256 · (t / 16) + p, k)`
    of the array the window looks at — a block's coordinate is the block index times the block size plus the
    coordinate inside the block. -/
theorem iblk0_at (c : Dev nD) (t : Fin cfg0.N) (p : Fin 256) (k : Fin 2500) :
    iblk m ρ c 0 t (ix2 p k) = V m ρ c main_v0 (ix2 (Cert.Mmd.rowIx ⟨t.val / 16, by have := t_lt t; omega⟩ p) k) := by
  obtain ⟨e0, e1, e2, e3, e4, e5, e6, e7⟩ := idx_facts t
  show V m ρ c main_v0 (((cfg0.win 0).blk t).view.emb (ix2 p k)) = _
  refine congrArg (V m ρ c main_v0) (funext fun a => Fin.ext ?_)
  match a with
  | ⟨0, _⟩ =>
    show win0_0.index t (0 : Fin 2) * 256 + 1 * p.val = 256 * (t.val / 16) + p.val
    omega
  | ⟨1, _⟩ =>
    show win0_0.index t (1 : Fin 2) * 2500 + 1 * k.val = k.val
    omega

/-- Window 0's block at point `t` is the block of 256 rows number `t / 16` of its array. -/
theorem iblk0_eq (c : Dev nD) (t : Fin cfg0.N) :
    (iblk m ρ c 0 t : Cert.Mmd.Mat 256) = Cert.Mmd.rowsAt (V m ρ c main_v0) ⟨t.val / 16, by have := t_lt t; omega⟩ := by
  funext j
  obtain ⟨p, k, rfl⟩ : ∃ (p : Fin 256) (k : Fin 2500), j = ix2 p k := ⟨j 0, j 1, eq_ix2 j⟩
  rw [Cert.Mmd.rowsAt_ix2]
  exact iblk0_at m ρ c t p k

/-- Window 1's block at point `t`, entry by entry: entry `(p, k)` of the block is entry `(256 · (t % 16) + p, k)`
    of the array the window looks at — a block's coordinate is the block index times the block size plus the
    coordinate inside the block. -/
theorem iblk1_at (c : Dev nD) (t : Fin cfg0.N) (p : Fin 256) (k : Fin 2500) :
    iblk m ρ c 1 t (ix2 p k) = V m ρ c main_v0 (ix2 (Cert.Mmd.rowIx ⟨t.val % 16, by have := t_lt t; omega⟩ p) k) := by
  obtain ⟨e0, e1, e2, e3, e4, e5, e6, e7⟩ := idx_facts t
  show V m ρ c main_v0 (((cfg0.win 1).blk t).view.emb (ix2 p k)) = _
  refine congrArg (V m ρ c main_v0) (funext fun a => Fin.ext ?_)
  match a with
  | ⟨0, _⟩ =>
    show win0_1.index t (0 : Fin 2) * 256 + 1 * p.val = 256 * (t.val % 16) + p.val
    omega
  | ⟨1, _⟩ =>
    show win0_1.index t (1 : Fin 2) * 2500 + 1 * k.val = k.val
    omega

/-- Window 1's block at point `t` is the block of 256 rows number `t % 16` of its array. -/
theorem iblk1_eq (c : Dev nD) (t : Fin cfg0.N) :
    (iblk m ρ c 1 t : Cert.Mmd.Mat 256) = Cert.Mmd.rowsAt (V m ρ c main_v0) ⟨t.val % 16, by have := t_lt t; omega⟩ := by
  funext j
  obtain ⟨p, k, rfl⟩ : ∃ (p : Fin 256) (k : Fin 2500), j = ix2 p k := ⟨j 0, j 1, eq_ix2 j⟩
  rw [Cert.Mmd.rowsAt_ix2]
  exact iblk1_at m ρ c t p k

/-- Window 2's block at point `t`, entry by entry: entry `(p, k)` of the block is entry `(256 · (t / 16) + p, k)`
    of the array the window looks at — a block's coordinate is the block index times the block size plus the
    coordinate inside the block. -/
theorem iblk2_at (c : Dev nD) (t : Fin cfg0.N) (p : Fin 256) (k : Fin 2500) :
    iblk m ρ c 2 t (ix2 p k) = V m ρ c main_v1 (ix2 (Cert.Mmd.rowIx ⟨t.val / 16, by have := t_lt t; omega⟩ p) k) := by
  obtain ⟨e0, e1, e2, e3, e4, e5, e6, e7⟩ := idx_facts t
  show V m ρ c main_v1 (((cfg0.win 2).blk t).view.emb (ix2 p k)) = _
  refine congrArg (V m ρ c main_v1) (funext fun a => Fin.ext ?_)
  match a with
  | ⟨0, _⟩ =>
    show win0_2.index t (0 : Fin 2) * 256 + 1 * p.val = 256 * (t.val / 16) + p.val
    omega
  | ⟨1, _⟩ =>
    show win0_2.index t (1 : Fin 2) * 2500 + 1 * k.val = k.val
    omega

/-- Window 2's block at point `t` is the block of 256 rows number `t / 16` of its array. -/
theorem iblk2_eq (c : Dev nD) (t : Fin cfg0.N) :
    (iblk m ρ c 2 t : Cert.Mmd.Mat 256) = Cert.Mmd.rowsAt (V m ρ c main_v1) ⟨t.val / 16, by have := t_lt t; omega⟩ := by
  funext j
  obtain ⟨p, k, rfl⟩ : ∃ (p : Fin 256) (k : Fin 2500), j = ix2 p k := ⟨j 0, j 1, eq_ix2 j⟩
  rw [Cert.Mmd.rowsAt_ix2]
  exact iblk2_at m ρ c t p k

/-- Window 3's block at point `t`, entry by entry: entry `(p, k)` of the block is entry `(256 · (t % 16) + p, k)`
    of the array the window looks at — a block's coordinate is the block index times the block size plus the
    coordinate inside the block. -/
theorem iblk3_at (c : Dev nD) (t : Fin cfg0.N) (p : Fin 256) (k : Fin 2500) :
    iblk m ρ c 3 t (ix2 p k) = V m ρ c main_v1 (ix2 (Cert.Mmd.rowIx ⟨t.val % 16, by have := t_lt t; omega⟩ p) k) := by
  obtain ⟨e0, e1, e2, e3, e4, e5, e6, e7⟩ := idx_facts t
  show V m ρ c main_v1 (((cfg0.win 3).blk t).view.emb (ix2 p k)) = _
  refine congrArg (V m ρ c main_v1) (funext fun a => Fin.ext ?_)
  match a with
  | ⟨0, _⟩ =>
    show win0_3.index t (0 : Fin 2) * 256 + 1 * p.val = 256 * (t.val % 16) + p.val
    omega
  | ⟨1, _⟩ =>
    show win0_3.index t (1 : Fin 2) * 2500 + 1 * k.val = k.val
    omega

/-- Window 3's block at point `t` is the block of 256 rows number `t % 16` of its array. -/
theorem iblk3_eq (c : Dev nD) (t : Fin cfg0.N) :
    (iblk m ρ c 3 t : Cert.Mmd.Mat 256) = Cert.Mmd.rowsAt (V m ρ c main_v1) ⟨t.val % 16, by have := t_lt t; omega⟩ := by
  funext j
  obtain ⟨p, k, rfl⟩ : ∃ (p : Fin 256) (k : Fin 2500), j = ix2 p k := ⟨j 0, j 1, eq_ix2 j⟩
  rw [Cert.Mmd.rowsAt_ix2]
  exact iblk3_at m ρ c t p k

end Cert.KernelIdeal.Mmd

end
-- ==== Proof.KernelTotals.lean ====
/-
  What the three accumulators hold after the last grid point.

  The region's 256 grid points are `t = 16 · i + j`. At point `t` the body loads block `i = t / 16` and block
  `j = t % 16` of 256 rows of the first matrix (windows 0 and 1) and the same two blocks of the second (windows 2 and
  3), and adds to the three accumulators the sum of the pairs' weights over the 256 × 256 pairs of rows of, in turn,
  (first block `i`, first block `j`), (second block `i`, second block `j`) and (first block `i`, second block `j`).
  The first point adds to the zero word, every later point to what the point before left. A running total that starts
  at the zero word plus the block `(0, 0)` and adds the block `(t / 16, t % 16)` at step `t` ends, at `t = 255`, at
  the sum over all 4096 × 4096 pairs of rows: so the accumulators end holding the three pair sums of the whole
  matrices. The accumulator's value after point `n` is made a sequence over all naturals (zero past the grid) only to
  state the recurrence over plain naturals.
-/
import proofs.«108402_j76991583748198_1_alg».proof.Proof.FrameData
import proofs.«108402_j76991583748198_1_alg».proof.Proof.FramePieces
import proofs.«108402_j76991583748198_1_alg».proof.Proof.BlockPayload
import proofs.«108402_j76991583748198_1_alg».proof.Proof.BlockReads
import proofs.«108402_j76991583748198_1_alg».proof.Proof.GridTotal
import Idealize.ShloMosaic.Lib.ValueIdx

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The one index of a `[1, 1]` accumulator. -/
abbrev i0 : S1x1.Idx := ix2 (0 : Fin 1) (0 : Fin 1)

/-- After the first grid point the first accumulator holds the zero word plus the sum over the pairs of rows of block `t / 16` of the first matrix and block `t % 16` of the first matrix (windows 0 and 1). -/
theorem first4 (c : Dev nD) (t : Fin cfg0.N) (h0 : t.val = 0) :
    (outsAt m ρ c t.val t.isLt).1 i0 =
      Cert.Mmd.w0 + Cert.Mmd.pairSum (Cert.Mmd.rowsAt (V m ρ c main_v0) ⟨t.val / 16, by have := t_lt t; omega⟩)
        (Cert.Mmd.rowsAt (V m ρ c main_v0) ⟨t.val % 16, by have := t_lt t; omega⟩) := by
  rw [outsAt_zero m ρ c t h0]
  dsimp only
  rw [outA4_eq, Cert.Mmd.Block.acc1_apply, Cert.Mmd.Block.zero4_apply]
  unfold sXX
  rw [Cert.Mmd.Block.sxx_apply, iblk0_eq, iblk1_eq]

/-- After a later grid point it holds what it held after the point before plus the sum over the pairs of rows of block `t / 16` of the first matrix and block `t % 16` of the first matrix. -/
theorem later4 (c : Dev nD) (t : Fin cfg0.N) (h0 : t.val ≠ 0) :
    (outsAt m ρ c t.val t.isLt).1 i0 =
      (outsAt m ρ c (t.val - 1) (Nat.lt_of_le_of_lt (Nat.sub_le _ _) t.isLt)).1 i0
        + Cert.Mmd.pairSum (Cert.Mmd.rowsAt (V m ρ c main_v0) ⟨t.val / 16, by have := t_lt t; omega⟩)
          (Cert.Mmd.rowsAt (V m ρ c main_v0) ⟨t.val % 16, by have := t_lt t; omega⟩) := by
  rw [outsAt_succ m ρ c t h0]
  dsimp only
  rw [outB4_eq, Cert.Mmd.Block.acc1_apply]
  unfold sXX
  rw [Cert.Mmd.Block.sxx_apply, iblk0_eq, iblk1_eq]

/-- The first accumulator's entry after grid point `n`, as a sequence over all naturals (zero past the grid). -/
def run4 (c : Dev nD) (n : ℕ) : EReal := if h : n < cfg0.N then (outsAt m ρ c n h).1 i0 else 0

/-- On the grid it is the accumulator's entry. -/
theorem run4_eq (c : Dev nD) (n : ℕ) (h : n < cfg0.N) : run4 m ρ c n = (outsAt m ρ c n h).1 i0 := dif_pos h

/-- After the last of the 256 grid points the first accumulator holds the sum over all 4096 × 4096 pairs of rows of the first matrix and the first matrix: the running total over the 16 × 16 blocks. -/
theorem total4 (c : Dev nD) (h255 : 255 < cfg0.N) :
    (outsAt m ρ c 255 h255).1 i0 = Cert.Mmd.pairSum (V m ρ c main_v0) (V m ρ c main_v0) := by
  have hN : cfg0.N = 256 := N_0
  rw [← run4_eq m ρ c 255 h255]
  refine Cert.Mmd.grid_total (V m ρ c main_v0) (V m ρ c main_v0) (run4 m ρ c) ?_ ?_
  · have h00 : 0 < cfg0.N := by rw [hN]; norm_num
    rw [run4_eq m ρ c 0 h00]
    have e := first4 m ρ c ⟨0, h00⟩ rfl
    simp only [Fin.val_mk, Nat.zero_div, Nat.zero_mod] at e
    exact e
  · intro n hn
    have h1 : n + 1 < cfg0.N := by rw [hN]; exact hn
    have h2 : n < cfg0.N := Nat.lt_of_succ_lt h1
    rw [run4_eq m ρ c (n + 1) h1, run4_eq m ρ c n h2]
    have e := later4 m ρ c ⟨n + 1, h1⟩ (Nat.succ_ne_zero n)
    simp only [Fin.val_mk, Nat.add_sub_cancel] at e
    exact e

/-- After the first grid point the second accumulator holds the zero word plus the sum over the pairs of rows of block `t / 16` of the second matrix and block `t % 16` of the second matrix (windows 2 and 3). -/
theorem first5 (c : Dev nD) (t : Fin cfg0.N) (h0 : t.val = 0) :
    (outsAt m ρ c t.val t.isLt).2.1 i0 =
      Cert.Mmd.w0 + Cert.Mmd.pairSum (Cert.Mmd.rowsAt (V m ρ c main_v1) ⟨t.val / 16, by have := t_lt t; omega⟩)
        (Cert.Mmd.rowsAt (V m ρ c main_v1) ⟨t.val % 16, by have := t_lt t; omega⟩) := by
  rw [outsAt_zero m ρ c t h0]
  dsimp only
  rw [outA5_eq, Cert.Mmd.Block.acc2_apply, Cert.Mmd.Block.zero5_apply]
  unfold sYY
  rw [Cert.Mmd.Block.syy_apply, iblk2_eq, iblk3_eq]

/-- After a later grid point it holds what it held after the point before plus the sum over the pairs of rows of block `t / 16` of the second matrix and block `t % 16` of the second matrix. -/
theorem later5 (c : Dev nD) (t : Fin cfg0.N) (h0 : t.val ≠ 0) :
    (outsAt m ρ c t.val t.isLt).2.1 i0 =
      (outsAt m ρ c (t.val - 1) (Nat.lt_of_le_of_lt (Nat.sub_le _ _) t.isLt)).2.1 i0
        + Cert.Mmd.pairSum (Cert.Mmd.rowsAt (V m ρ c main_v1) ⟨t.val / 16, by have := t_lt t; omega⟩)
          (Cert.Mmd.rowsAt (V m ρ c main_v1) ⟨t.val % 16, by have := t_lt t; omega⟩) := by
  rw [outsAt_succ m ρ c t h0]
  dsimp only
  rw [outB5_eq, Cert.Mmd.Block.acc2_apply]
  unfold sYY
  rw [Cert.Mmd.Block.syy_apply, iblk2_eq, iblk3_eq]

/-- The second accumulator's entry after grid point `n`, as a sequence over all naturals (zero past the grid). -/
def run5 (c : Dev nD) (n : ℕ) : EReal := if h : n < cfg0.N then (outsAt m ρ c n h).2.1 i0 else 0

/-- On the grid it is the accumulator's entry. -/
theorem run5_eq (c : Dev nD) (n : ℕ) (h : n < cfg0.N) : run5 m ρ c n = (outsAt m ρ c n h).2.1 i0 := dif_pos h

/-- After the last of the 256 grid points the second accumulator holds the sum over all 4096 × 4096 pairs of rows of the second matrix and the second matrix: the running total over the 16 × 16 blocks. -/
theorem total5 (c : Dev nD) (h255 : 255 < cfg0.N) :
    (outsAt m ρ c 255 h255).2.1 i0 = Cert.Mmd.pairSum (V m ρ c main_v1) (V m ρ c main_v1) := by
  have hN : cfg0.N = 256 := N_0
  rw [← run5_eq m ρ c 255 h255]
  refine Cert.Mmd.grid_total (V m ρ c main_v1) (V m ρ c main_v1) (run5 m ρ c) ?_ ?_
  · have h00 : 0 < cfg0.N := by rw [hN]; norm_num
    rw [run5_eq m ρ c 0 h00]
    have e := first5 m ρ c ⟨0, h00⟩ rfl
    simp only [Fin.val_mk, Nat.zero_div, Nat.zero_mod] at e
    exact e
  · intro n hn
    have h1 : n + 1 < cfg0.N := by rw [hN]; exact hn
    have h2 : n < cfg0.N := Nat.lt_of_succ_lt h1
    rw [run5_eq m ρ c (n + 1) h1, run5_eq m ρ c n h2]
    have e := later5 m ρ c ⟨n + 1, h1⟩ (Nat.succ_ne_zero n)
    simp only [Fin.val_mk, Nat.add_sub_cancel] at e
    exact e

/-- After the first grid point the third accumulator holds the zero word plus the sum over the pairs of rows of block `t / 16` of the first matrix and block `t % 16` of the second matrix (windows 0 and 3). -/
theorem first6 (c : Dev nD) (t : Fin cfg0.N) (h0 : t.val = 0) :
    (outsAt m ρ c t.val t.isLt).2.2 i0 =
      Cert.Mmd.w0 + Cert.Mmd.pairSum (Cert.Mmd.rowsAt (V m ρ c main_v0) ⟨t.val / 16, by have := t_lt t; omega⟩)
        (Cert.Mmd.rowsAt (V m ρ c main_v1) ⟨t.val % 16, by have := t_lt t; omega⟩) := by
  rw [outsAt_zero m ρ c t h0]
  dsimp only
  rw [outA6_eq, Cert.Mmd.Block.acc3_apply, Cert.Mmd.Block.zero6_apply]
  unfold sXY
  rw [Cert.Mmd.Block.sxy_apply, iblk0_eq, iblk3_eq]

/-- After a later grid point it holds what it held after the point before plus the sum over the pairs of rows of block `t / 16` of the first matrix and block `t % 16` of the second matrix. -/
theorem later6 (c : Dev nD) (t : Fin cfg0.N) (h0 : t.val ≠ 0) :
    (outsAt m ρ c t.val t.isLt).2.2 i0 =
      (outsAt m ρ c (t.val - 1) (Nat.lt_of_le_of_lt (Nat.sub_le _ _) t.isLt)).2.2 i0
        + Cert.Mmd.pairSum (Cert.Mmd.rowsAt (V m ρ c main_v0) ⟨t.val / 16, by have := t_lt t; omega⟩)
          (Cert.Mmd.rowsAt (V m ρ c main_v1) ⟨t.val % 16, by have := t_lt t; omega⟩) := by
  rw [outsAt_succ m ρ c t h0]
  dsimp only
  rw [outB6_eq, Cert.Mmd.Block.acc3_apply]
  unfold sXY
  rw [Cert.Mmd.Block.sxy_apply, iblk0_eq, iblk3_eq]

/-- The third accumulator's entry after grid point `n`, as a sequence over all naturals (zero past the grid). -/
def run6 (c : Dev nD) (n : ℕ) : EReal := if h : n < cfg0.N then (outsAt m ρ c n h).2.2 i0 else 0

/-- On the grid it is the accumulator's entry. -/
theorem run6_eq (c : Dev nD) (n : ℕ) (h : n < cfg0.N) : run6 m ρ c n = (outsAt m ρ c n h).2.2 i0 := dif_pos h

/-- After the last of the 256 grid points the third accumulator holds the sum over all 4096 × 4096 pairs of rows of the first matrix and the second matrix: the running total over the 16 × 16 blocks. -/
theorem total6 (c : Dev nD) (h255 : 255 < cfg0.N) :
    (outsAt m ρ c 255 h255).2.2 i0 = Cert.Mmd.pairSum (V m ρ c main_v0) (V m ρ c main_v1) := by
  have hN : cfg0.N = 256 := N_0
  rw [← run6_eq m ρ c 255 h255]
  refine Cert.Mmd.grid_total (V m ρ c main_v0) (V m ρ c main_v1) (run6 m ρ c) ?_ ?_
  · have h00 : 0 < cfg0.N := by rw [hN]; norm_num
    rw [run6_eq m ρ c 0 h00]
    have e := first6 m ρ c ⟨0, h00⟩ rfl
    simp only [Fin.val_mk, Nat.zero_div, Nat.zero_mod] at e
    exact e
  · intro n hn
    have h1 : n + 1 < cfg0.N := by rw [hN]; exact hn
    have h2 : n < cfg0.N := Nat.lt_of_succ_lt h1
    rw [run6_eq m ρ c (n + 1) h1, run6_eq m ρ c n h2]
    have e := later6 m ρ c ⟨n + 1, h1⟩ (Nat.succ_ne_zero n)
    simp only [Fin.val_mk, Nat.add_sub_cancel] at e
    exact e

end Cert.KernelIdeal.Mmd

end
-- ==== Proof.KernelValue.lean ====
/-
  The idealized kernel's result as one function of its arguments.

  Read at the extended reals, the three accumulators end at the sums of the Gaussian weights over all pairs of rows
  of (X, X), (Y, Y) and (X, Y), where X and Y are the two arguments reshaped to [4096, 2500] matrices: each grid point
  adds its 256 × 256 block of pairs to a total that starts from zero, and the 16 × 16 blocks exhaust the pairs. The
  twenty scalar operations after the region turn the three totals and the step count into the returned statistic.
-/
import proofs.«108402_j76991583748198_1_alg».proof.Proof.FrameClaims
import proofs.«108402_j76991583748198_1_alg».proof.Proof.FinalArrays
import proofs.«108402_j76991583748198_1_alg».proof.Proof.KernelTotals

set_option maxRecDepth 16384

noncomputable section

namespace Cert.KernelIdeal.Mmd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

-- the accumulation is never unfolded here: it is read through its two equations
attribute [local irreducible] outsAt

/-- The first argument as a [4096, 2500] matrix. -/
abbrev matX (c : Dev nD) : Cert.Mmd.Mat 4096 := shapeCast S4096x2500 (m ((c : Thread nD τ).loc main_arg0)) Facts₀.shapeCasts_S4096x100x25_S4096x2500
/-- The second argument as a [4096, 2500] matrix. -/
abbrev matY (c : Dev nD) : Cert.Mmd.Mat 4096 := shapeCast S4096x2500 (m ((c : Thread nD τ).loc main_arg1)) Facts₀.shapeCasts_S4096x100x25_S4096x2500

/-- The statistic the idealized kernel returns. -/
def resultOf (c : Dev nD) : Buf (Elt Ideal) ((c.tc : Thread nD τ).loc main_v15) := fun _ =>
  Cert.Mmd.result (Cert.Mmd.pairSum (matX m c) (matX m c)) (Cert.Mmd.pairSum (matY m c) (matY m c)) (Cert.Mmd.pairSum (matX m c) (matY m c))
    (m ((c : Thread nD τ).loc main_arg2) ix0)

theorem h255 : 255 < cfg0.N := by rw [show cfg0.N = 256 from N_0]; omega

/-- The region finds the first matrix in `main_v0` and the second in `main_v1`. -/
theorem V_v0 (c : Dev nD) : V m ρ c main_v0 = matX m c := prefix_v0 (V₀ m ρ c)
theorem V_v1 (c : Dev nD) : V m ρ c main_v1 = matY m c := prefix_v1 (V₀ m ρ c)

/-- The scalar operations after the region, read at what the region left in the three accumulators. -/
theorem tail_read (c : Dev nD) :
    StableHlo.after hostOps1 (V1 m ρ c) (Proc.devRef .tc main_v15)
      = fun _ => Cert.Mmd.result (fin4 m ρ c i0) (fin5 m ρ c i0) (fin6 m ρ c i0) (Vd m ρ c (Proc.devRef .tc main_arg2) ix0) := by
  have e := tail_v15 (V1 m ρ c)
  rw [show V1 m ρ c (Proc.devRef .tc main_v2_0) = fin4 m ρ c from V1_r4 m ρ c,
    show V1 m ρ c (Proc.devRef .tc main_v2_1) = fin5 m ρ c from V1_r5 m ρ c,
    show V1 m ρ c (Proc.devRef .tc main_v2_2) = fin6 m ρ c from V1_r6 m ρ c,
    V1_other m ρ c (Proc.devRef .tc main_arg2) (fun h => absurd (Proc.devRef_injective _ h) (by decide)) (fun h => absurd (Proc.devRef_injective _ h) (by decide)) (fun h => absurd (Proc.devRef_injective _ h) (by decide))] at e
  exact e

/-- The accumulation at a point does not depend on how the point's number is spelt. -/
theorem outsAt_congr (c : Dev nD) {n n' : ℕ} (hn : n < cfg0.N) (hn' : n' < cfg0.N) (h : n = n') :
    outsAt m ρ c n hn = outsAt m ρ c n' hn' := by
  subst h; rfl

/-- Equal matrices have equal pair sums. -/
theorem pair_congr {A A' B B' : Cert.Mmd.Mat 4096} (hA : A = A') (hB : B = B') :
    Cert.Mmd.pairSum A B = Cert.Mmd.pairSum A' B' := by
  subst hA hB; rfl

/-- The first accumulator ends at the pair sum of the first matrix with itself. -/
theorem fin4_total (c : Dev nD) : fin4 m ρ c i0 = Cert.Mmd.pairSum (matX m c) (matX m c) :=
  ((fin4_apply m ρ c ⟨255, h255⟩ rfl).trans (congrArg (fun o => o.1 i0) (outsAt_congr m ρ c _ h255 rfl))).trans
    ((total4 m ρ c h255).trans (pair_congr (V_v0 m ρ c) (V_v0 m ρ c)))

/-- The second at the pair sum of the second matrix with itself. -/
theorem fin5_total (c : Dev nD) : fin5 m ρ c i0 = Cert.Mmd.pairSum (matY m c) (matY m c) :=
  ((fin5_apply m ρ c ⟨255, h255⟩ rfl).trans (congrArg (fun o => o.2.1 i0) (outsAt_congr m ρ c _ h255 rfl))).trans
    ((total5 m ρ c h255).trans (pair_congr (V_v1 m ρ c) (V_v1 m ρ c)))

/-- The third at the pair sum of the first matrix with the second. -/
theorem fin6_total (c : Dev nD) : fin6 m ρ c i0 = Cert.Mmd.pairSum (matX m c) (matY m c) :=
  ((fin6_apply m ρ c ⟨255, h255⟩ rfl).trans (congrArg (fun o => o.2.2 i0) (outsAt_congr m ρ c _ h255 rfl))).trans
    ((total6 m ρ c h255).trans (pair_congr (V_v0 m ρ c) (V_v1 m ρ c)))

/-- The step count reaches the scalar operations as launched. -/
theorem step_kept (c : Dev nD) : Vd m ρ c (Proc.devRef .tc main_arg2) = m ((c : Thread nD τ).loc main_arg2) :=
  prefix_arg2 (V₀ m ρ c)

/-- The result buffer ends at the statistic of the arguments. -/
theorem Vend_v15 (c : Dev nD) : Vend m ρ c (Proc.devRef .tc main_v15) = resultOf m c := by
  unfold Vend
  rw [tail_read, fin4_total, fin5_total, fin6_total, step_kept]
  rfl

/-- At the extended reals: every execution of the idealized kernel's @main terminates without a fault with its
    result at the statistic of its arguments and its arguments unchanged. -/
theorem run_value : θ_run defs (onTc (τ := τ) (main (F := Ideal))) ⟨m, fun _ => 0, ρ⟩ (fun r => ∀ c : Dev nD,
      r.2.mem ((c.tc : Thread nD τ).loc main_v15) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (Vend_v15 m ρ c), (h c).2⟩) (run_named m ρ)

end Cert.KernelIdeal.Mmd

end
-- ==== Proof.RefIsSpec.lean ====
/-
  The reference program computes the specification.

  Write `X` and `Y` for the two argument arrays read as `[4096, 2500]` matrices (the program's two reshapes, kept
  as they are), and `s` for the scalar argument. For each of the pairs `(X, X)`, `(X, Y)`, `(Y, Y)` the program
  forms, entry by entry over `[4096, 4096]`: the squared norm of row `r` of the first matrix (a row reduce of the
  squares, broadcast along the columns) plus the squared norm of row `c` of the second (broadcast along the rows),
  minus `2` times the contraction of the first matrix with the transpose of the second — which at `(r, c)` is the
  inner product of row `r` with row `c` —, clamps it below at zero, negates it, divides it by `2` and takes `exp`:
  this is the pair's weight in its division spelling. Every reduce starts from the zero word, which adds nothing. The
  reduce over both axes is the sum over every `[4096, 4096]` index, that is the double sum over the two coordinates,
  so it is the pair sum (the two spellings of the weight agree), and the stage ends by dividing by the count word.
  The last operations add the `(X, X)` and `(Y, Y)` means, subtract `2` times the `(X, Y)` mean, and add
  `(max 1 s − 1)` times the step word: the returned statistic of the specification, every literal the same word.

  Each lemma below reads one of the generated stage lemmas at an index by coordinates (`ix1 r`, `ix2 r c`); the
  composed index functions of the broadcasts, the transpose and the contraction are identified with `ix1` / `ix2`
  axis by axis.
-/
import proofs.«108402_j76991583748198_1_alg».proof.Proof.Gen.ReferenceIdeal.Read
import proofs.«108402_j76991583748198_1_alg».proof.Proof.Spec
import proofs.«108402_j76991583748198_1_alg».proof.Proof.Weights

noncomputable section

open scoped BigOperators

namespace Cert.Mmd.Ref

open Cert.ReferenceIdeal Cert.ReferenceIdeal.Read Idealize.ShloMosaic Idealize.ShloMosaic.ValueIdx

/-- A `[4096, 100, 25]` argument array of extended reals. -/
abbrev Arg : Type := (⟨S4096x100x25, .f32⟩ : BufTy).Contents (Elt Ideal)

/-- The zero word added on the left changes nothing. -/
theorem zero_word_add (z : EReal) : Ideal.ofBits .f32 0x00000000#32 + z = z := by
  rw [show Ideal.ofBits .f32 0x00000000#32 = (0 : EReal) from w0_eq, zero_add]

/-- The row reduce of the squares of `X`, read at row `r`, is the squared norm of row `r` of `X` (the initial value is the zero word). -/
theorem norm_v3 (x : Arg) (r : Fin 4096) : val_main_v3 (F := Ideal) x (ix1 r) = sqNorm (val_main_v0 (F := Ideal) x) r := by
  rw [val_main_v3_apply, val_main_cst_apply, Ideal.ofBits_def, zero_word_add]
  unfold sqNorm
  refine Finset.sum_congr rfl fun k _ => ?_
  rw [val_main_v2_apply, Ideal.mulf_def]
  rw [show idx_main_v3 (ix1 r) k = ix2 r k from funext fun a => Fin.ext (by match a with | ⟨0, _⟩ => rfl | ⟨1, _⟩ => rfl)]

/-- The same for the second operand `X`: the row reduce read at `r` is the squared norm of row `r` of `X`. -/
theorem norm_v5 (x : Arg) (r : Fin 4096) : val_main_v5 (F := Ideal) x (ix1 r) = sqNorm (val_main_v0 (F := Ideal) x) r := by
  rw [val_main_v5_apply, val_main_cst_0_apply, Ideal.ofBits_def, zero_word_add]
  unfold sqNorm
  refine Finset.sum_congr rfl fun k _ => ?_
  rw [val_main_v4_apply, Ideal.mulf_def]
  rw [show idx_main_v5 (ix1 r) k = ix2 r k from funext fun a => Fin.ext (by match a with | ⟨0, _⟩ => rfl | ⟨1, _⟩ => rfl)]

/-- The exponential stage of the pair `(X, X)` read at `(r, c)`: the broadcasts read the two squared norms through, the contraction is the inner product of row `r` of `X` with row `c` of `X`, and the pointwise operations are the clamp, the negation, the division by `2` and `exp`. -/
theorem weight_xx (x : Arg) (r c : Fin 4096) :
    val_main_v21 (F := Ideal) x (ix2 r c) = weightDiv (val_main_v0 (F := Ideal) x) (val_main_v0 (F := Ideal) x) r c := by
  have el : ∀ k : Fin 2500, lidx_main_v12 (ix2 r c) k = ix2 r k := fun k =>
    funext fun a => Fin.ext (by match a with | ⟨0, _⟩ => rfl | ⟨1, _⟩ => rfl)
  have er : ∀ k : Fin 2500, idx_main_v11 (ridx_main_v12 (ix2 r c) k) = ix2 c k := fun k =>
    funext fun a => Fin.ext (by match a with | ⟨0, _⟩ => rfl | ⟨1, _⟩ => rfl)
  have ea : idx_main_v6 (idx_main_v8 (ix2 r c)) = ix1 r := funext fun a => Fin.ext (by match a with | ⟨0, _⟩ => rfl)
  have eb : idx_main_v7 (idx_main_v9 (ix2 r c)) = ix1 c := funext fun a => Fin.ext (by match a with | ⟨0, _⟩ => rfl)
  simp only [val_main_v21_apply, val_main_v20_apply, val_main_v18_apply, val_main_v19_apply, val_main_cst_3_apply,
    val_main_v17_apply, val_main_v16_apply, val_main_cst_2_apply, val_main_v15_apply, val_main_v10_apply, val_main_v14_apply,
    val_main_v13_apply, val_main_cst_1_apply, val_main_v12_apply, val_main_v8_apply, val_main_v9_apply,
    val_main_v6_apply, val_main_v7_apply, val_main_v11_apply, ea, eb, el, er, norm_v3, norm_v5,
    Ideal.hostUnary_exp_def, Ideal.hostDivf_def, Ideal.hostNegf_def, Ideal.negf_def, Ideal.maximumf_def, Ideal.subf_def,
    Ideal.addf_def, Ideal.mulf_def, Ideal.ofBits_def]
  rfl

/-- The mean stage of the pair `(X, X)`: the reduce over both axes is the double sum of the weights over the coordinates, divided by the count word. -/
theorem mean_xx (x : Arg) (i : S_.Idx) :
    val_main_v23 (F := Ideal) x i = Ideal.div (pairSum (val_main_v0 (F := Ideal) x) (val_main_v0 (F := Ideal) x)) wCount := by
  rw [val_main_v23_apply, val_main_v22_apply, val_main_cst_4_apply, val_main_cst_5_apply, Ideal.hostDivf_def]
  simp only [Ideal.ofBits_def]
  rw [zero_word_add, sum_idx2]
  unfold pairSum
  simp only [weight_xx, weightMul_eq_weightDiv]

/-- The row reduce of the squares of `X`, read at row `r`, is the squared norm of row `r` of `X` (the initial value is the zero word). -/
theorem norm_v25 (x : Arg) (r : Fin 4096) : val_main_v25 (F := Ideal) x (ix1 r) = sqNorm (val_main_v0 (F := Ideal) x) r := by
  rw [val_main_v25_apply, val_main_cst_6_apply, Ideal.ofBits_def, zero_word_add]
  unfold sqNorm
  refine Finset.sum_congr rfl fun k _ => ?_
  rw [val_main_v24_apply, Ideal.mulf_def]
  rw [show idx_main_v25 (ix1 r) k = ix2 r k from funext fun a => Fin.ext (by match a with | ⟨0, _⟩ => rfl | ⟨1, _⟩ => rfl)]

/-- The same for the second operand `Y`: the row reduce read at `r` is the squared norm of row `r` of `Y`. -/
theorem norm_v27 (y : Arg) (r : Fin 4096) : val_main_v27 (F := Ideal) y (ix1 r) = sqNorm (val_main_v1 (F := Ideal) y) r := by
  rw [val_main_v27_apply, val_main_cst_7_apply, Ideal.ofBits_def, zero_word_add]
  unfold sqNorm
  refine Finset.sum_congr rfl fun k _ => ?_
  rw [val_main_v26_apply, Ideal.mulf_def]
  rw [show idx_main_v27 (ix1 r) k = ix2 r k from funext fun a => Fin.ext (by match a with | ⟨0, _⟩ => rfl | ⟨1, _⟩ => rfl)]

/-- The exponential stage of the pair `(X, Y)` read at `(r, c)`: the broadcasts read the two squared norms through, the contraction is the inner product of row `r` of `X` with row `c` of `Y`, and the pointwise operations are the clamp, the negation, the division by `2` and `exp`. -/
theorem weight_xy (x y : Arg) (r c : Fin 4096) :
    val_main_v43 (F := Ideal) x y (ix2 r c) = weightDiv (val_main_v0 (F := Ideal) x) (val_main_v1 (F := Ideal) y) r c := by
  have el : ∀ k : Fin 2500, lidx_main_v34 (ix2 r c) k = ix2 r k := fun k =>
    funext fun a => Fin.ext (by match a with | ⟨0, _⟩ => rfl | ⟨1, _⟩ => rfl)
  have er : ∀ k : Fin 2500, idx_main_v33 (ridx_main_v34 (ix2 r c) k) = ix2 c k := fun k =>
    funext fun a => Fin.ext (by match a with | ⟨0, _⟩ => rfl | ⟨1, _⟩ => rfl)
  have ea : idx_main_v28 (idx_main_v30 (ix2 r c)) = ix1 r := funext fun a => Fin.ext (by match a with | ⟨0, _⟩ => rfl)
  have eb : idx_main_v29 (idx_main_v31 (ix2 r c)) = ix1 c := funext fun a => Fin.ext (by match a with | ⟨0, _⟩ => rfl)
  simp only [val_main_v43_apply, val_main_v42_apply, val_main_v40_apply, val_main_v41_apply, val_main_cst_10_apply,
    val_main_v39_apply, val_main_v38_apply, val_main_cst_9_apply, val_main_v37_apply, val_main_v32_apply, val_main_v36_apply,
    val_main_v35_apply, val_main_cst_8_apply, val_main_v34_apply, val_main_v30_apply, val_main_v31_apply,
    val_main_v28_apply, val_main_v29_apply, val_main_v33_apply, ea, eb, el, er, norm_v25, norm_v27,
    Ideal.hostUnary_exp_def, Ideal.hostDivf_def, Ideal.hostNegf_def, Ideal.negf_def, Ideal.maximumf_def, Ideal.subf_def,
    Ideal.addf_def, Ideal.mulf_def, Ideal.ofBits_def]
  rfl

/-- The mean stage of the pair `(X, Y)`: the reduce over both axes is the double sum of the weights over the coordinates, divided by the count word. -/
theorem mean_xy (x y : Arg) (i : S_.Idx) :
    val_main_v45 (F := Ideal) x y i = Ideal.div (pairSum (val_main_v0 (F := Ideal) x) (val_main_v1 (F := Ideal) y)) wCount := by
  rw [val_main_v45_apply, val_main_v44_apply, val_main_cst_11_apply, val_main_cst_12_apply, Ideal.hostDivf_def]
  simp only [Ideal.ofBits_def]
  rw [zero_word_add, sum_idx2]
  unfold pairSum
  simp only [weight_xy, weightMul_eq_weightDiv]

/-- The row reduce of the squares of `Y`, read at row `r`, is the squared norm of row `r` of `Y` (the initial value is the zero word). -/
theorem norm_v47 (y : Arg) (r : Fin 4096) : val_main_v47 (F := Ideal) y (ix1 r) = sqNorm (val_main_v1 (F := Ideal) y) r := by
  rw [val_main_v47_apply, val_main_cst_13_apply, Ideal.ofBits_def, zero_word_add]
  unfold sqNorm
  refine Finset.sum_congr rfl fun k _ => ?_
  rw [val_main_v46_apply, Ideal.mulf_def]
  rw [show idx_main_v47 (ix1 r) k = ix2 r k from funext fun a => Fin.ext (by match a with | ⟨0, _⟩ => rfl | ⟨1, _⟩ => rfl)]

/-- The same for the second operand `Y`: the row reduce read at `r` is the squared norm of row `r` of `Y`. -/
theorem norm_v49 (y : Arg) (r : Fin 4096) : val_main_v49 (F := Ideal) y (ix1 r) = sqNorm (val_main_v1 (F := Ideal) y) r := by
  rw [val_main_v49_apply, val_main_cst_14_apply, Ideal.ofBits_def, zero_word_add]
  unfold sqNorm
  refine Finset.sum_congr rfl fun k _ => ?_
  rw [val_main_v48_apply, Ideal.mulf_def]
  rw [show idx_main_v49 (ix1 r) k = ix2 r k from funext fun a => Fin.ext (by match a with | ⟨0, _⟩ => rfl | ⟨1, _⟩ => rfl)]

/-- The exponential stage of the pair `(Y, Y)` read at `(r, c)`: the broadcasts read the two squared norms through, the contraction is the inner product of row `r` of `Y` with row `c` of `Y`, and the pointwise operations are the clamp, the negation, the division by `2` and `exp`. -/
theorem weight_yy (y : Arg) (r c : Fin 4096) :
    val_main_v65 (F := Ideal) y (ix2 r c) = weightDiv (val_main_v1 (F := Ideal) y) (val_main_v1 (F := Ideal) y) r c := by
  have el : ∀ k : Fin 2500, lidx_main_v56 (ix2 r c) k = ix2 r k := fun k =>
    funext fun a => Fin.ext (by match a with | ⟨0, _⟩ => rfl | ⟨1, _⟩ => rfl)
  have er : ∀ k : Fin 2500, idx_main_v55 (ridx_main_v56 (ix2 r c) k) = ix2 c k := fun k =>
    funext fun a => Fin.ext (by match a with | ⟨0, _⟩ => rfl | ⟨1, _⟩ => rfl)
  have ea : idx_main_v50 (idx_main_v52 (ix2 r c)) = ix1 r := funext fun a => Fin.ext (by match a with | ⟨0, _⟩ => rfl)
  have eb : idx_main_v51 (idx_main_v53 (ix2 r c)) = ix1 c := funext fun a => Fin.ext (by match a with | ⟨0, _⟩ => rfl)
  simp only [val_main_v65_apply, val_main_v64_apply, val_main_v62_apply, val_main_v63_apply, val_main_cst_17_apply,
    val_main_v61_apply, val_main_v60_apply, val_main_cst_16_apply, val_main_v59_apply, val_main_v54_apply, val_main_v58_apply,
    val_main_v57_apply, val_main_cst_15_apply, val_main_v56_apply, val_main_v52_apply, val_main_v53_apply,
    val_main_v50_apply, val_main_v51_apply, val_main_v55_apply, ea, eb, el, er, norm_v47, norm_v49,
    Ideal.hostUnary_exp_def, Ideal.hostDivf_def, Ideal.hostNegf_def, Ideal.negf_def, Ideal.maximumf_def, Ideal.subf_def,
    Ideal.addf_def, Ideal.mulf_def, Ideal.ofBits_def]
  rfl

/-- The mean stage of the pair `(Y, Y)`: the reduce over both axes is the double sum of the weights over the coordinates, divided by the count word. -/
theorem mean_yy (y : Arg) (i : S_.Idx) :
    val_main_v67 (F := Ideal) y i = Ideal.div (pairSum (val_main_v1 (F := Ideal) y) (val_main_v1 (F := Ideal) y)) wCount := by
  rw [val_main_v67_apply, val_main_v66_apply, val_main_cst_18_apply, val_main_cst_19_apply, Ideal.hostDivf_def]
  simp only [Ideal.ofBits_def]
  rw [zero_word_add, sum_idx2]
  unfold pairSum
  simp only [weight_yy, weightMul_eq_weightDiv]

/-- The reference's result is the statistic of the three pair sums: the last operations are
    `(mean_xx + mean_yy) − 2 · mean_xy` plus `(max 1 s − 1)` times the step word. -/
theorem result_eq (x y : (⟨Cert.ReferenceIdeal.S4096x100x25, .f32⟩ : BufTy).Contents (Elt Ideal))
    (s : (⟨S_, .f32⟩ : BufTy).Contents (Elt Ideal)) :
    val_main_v74 (F := Ideal) x y s =
      fun _ => result (pairSum (val_main_v0 (F := Ideal) x) (val_main_v0 (F := Ideal) x)) (pairSum (val_main_v1 (F := Ideal) y) (val_main_v1 (F := Ideal) y)) (pairSum (val_main_v0 (F := Ideal) x) (val_main_v1 (F := Ideal) y)) (s ix0) := by
  funext i
  obtain rfl : i = ix0 := eq_ix0 i
  simp only [val_main_v74_apply, val_main_v73_apply, val_main_v71_apply, val_main_v72_apply, val_main_v70_apply,
    val_main_v69_apply, val_main_v68_apply, val_main_cst_20_apply, val_main_cst_21_apply, val_main_cst_22_apply,
    val_main_cst_23_apply, mean_xx, mean_xy, mean_yy,
    Ideal.maximumf_def, Ideal.subf_def, Ideal.addf_def, Ideal.mulf_def, Ideal.ofBits_def]
  rfl

end Cert.Mmd.Ref

end
-- ==== Proof.lean ====
/-
  The certificate: a kernel that computes the squared maximum mean discrepancy of two samples with a Gaussian kernel,
  tile by tile, against a reference that computes it over whole matrices.

  Both programs reshape their two [4096, 100, 25] arguments to [4096, 2500] matrices X and Y and return
  `mean_xx + mean_yy − 2 · mean_xy + (max 1 s − 1) · 0.002`, where `mean_ab` is the mean over all 4096 × 4096 pairs of
  rows of `exp (−max (|a_r|² + |b_c|² − 2 ⟨a_r, b_c⟩, 0) / 2)` and `s` is the scalar third argument.
  The kernel walks a 16 × 16 grid; at grid point (i, j) it adds to three running totals the sums, over the 256 × 256
  pairs of rows of block i against block j, of the weights of (X, X), (Y, Y) and (X, Y), the totals zeroed at the
  first point; its matrix products take their operands rounded to a shorter float format, which over the extended
  reals is no change at all. The reference forms the three 4096 × 4096 weight matrices and sums each.
  Over the extended reals the two agree with no assumption on the inputs: the kernel spells the exponent as the
  product with −1/2 and the reference as the negation over 2, one extended real; and a sum over all pairs is the
  sum over the 256 blocks of pairs, in any order, because addition of extended reals is commutative and associative.
  The frames — each program runs to its end, nothing faulting, its arguments unchanged — are the kernel programs'
  launch (each matrix is looked at by two windows of the region, so its buffer is held by them at half shares) and
  the reference's run read back; the kernel's idealization rewrote nothing.
-/
import proofs.«108402_j76991583748198_1_alg».proof.Defs
import proofs.«108402_j76991583748198_1_alg».proof.Proof.Gen.Kernel
import proofs.«108402_j76991583748198_1_alg».proof.Proof.Gen.KernelIdeal
import proofs.«108402_j76991583748198_1_alg».proof.Proof.Gen.ReferenceIdeal
import proofs.«108402_j76991583748198_1_alg».proof.Proof.Gen.Pre_finite_inputs
import proofs.«108402_j76991583748198_1_alg».proof.Proof.Gen.ReferenceIdeal.Run
import proofs.«108402_j76991583748198_1_alg».proof.Proof.Gen.ReferenceIdeal.Read
import proofs.«108402_j76991583748198_1_alg».proof.Proof.KFrameClaims
import proofs.«108402_j76991583748198_1_alg».proof.Proof.KernelValue
import proofs.«108402_j76991583748198_1_alg».proof.Proof.RefIsSpec

noncomputable section

namespace Cert.Proof

open Idealize.ShloMosaic Idealize.ShloMosaic.TcCoe Idealize.SL.Sem

/-- The kernel as printed runs to its end with its arguments unchanged. -/
theorem frame_kernel : Cert.frame_Kernel := fun m ρ _ => Cert.Kernel.Mmd.frame m ρ

/-- So does its reading over the extended reals. -/
theorem frame_kernelIdeal : Cert.frame_KernelIdeal := fun m ρ _ => Cert.KernelIdeal.Mmd.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the arguments, both programs end at the same statistic of
    the arguments: the kernel's run names it, and the reference's composed term is the same function. -/
theorem algebraic : Cert.algebraic_KernelIdeal_ReferenceIdeal := by
  intro m ρ m' ρ' _ hagree
  refine ⟨fun c => Cert.KernelIdeal.Mmd.resultOf m c, Cert.KernelIdeal.Mmd.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, Cert.Mmd.Ref.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
